-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S32x1 : Shape := ⟨2, ![32, 1]⟩
abbrev S2048x128 : Shape := ⟨2, ![2048, 128]⟩
abbrev S2048x1 : Shape := ⟨2, ![2048, 1]⟩
abbrev S8x1 : Shape := ⟨2, ![8, 1]⟩
abbrev S256x128 : Shape := ⟨2, ![256, 128]⟩
abbrev S256x1 : Shape := ⟨2, ![256, 1]⟩
abbrev S1024x128 : Shape := ⟨2, ![1024, 128]⟩
abbrev S1x1024 : Shape := ⟨2, ![1, 1024]⟩
abbrev S128x1024 : Shape := ⟨2, ![128, 1024]⟩
abbrev S256x1024 : Shape := ⟨2, ![256, 1024]⟩
abbrev S256 : Shape := ⟨1, ![256]⟩
abbrev S1 : Shape := ⟨1, ![1]⟩
abbrev S1x1 : Shape := ⟨2, ![1, 1]⟩

abbrev nBuf : Space → Nat
  | .hbm => 18
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x1, .i32⟩
  | .hbm, ⟨8, _⟩ => ⟨S1x8192, .i32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S8192x128, .f32⟩
  | .local _ .vmem, ⟨3, _⟩ => ⟨S2048x1, .f32⟩
  | .local _ .vmem, ⟨4, _⟩ => ⟨S2048x1, .f32⟩
  | .local _ .vmem, ⟨5, _⟩ => ⟨S1x8192, .f32⟩
  | .local _ .vmem, ⟨6, _⟩ => ⟨S2048x1, .i32⟩
  | .local _ .vmem, ⟨7, _⟩ => ⟨S2048x1, .i32⟩
  | .local _ .vmem, ⟨8, _⟩ => ⟨S1x8192, .i32⟩
  | .local _ .vmem, ⟨9, _⟩ => ⟨S8x1, .f32⟩
  | .local _ .vmem, ⟨10, _⟩ => ⟨S8x1, .f32⟩
  | .local _ .vmem, ⟨11, _⟩ => ⟨S8x1, .f32⟩
  | .local _ .vmem, ⟨12, _⟩ => ⟨S8x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_6 : BitVec 32 := 0#32
  let c8_i32 : BitVec 32 := 8#32
  let v12 : BitVec 32 := Scalar.addi c0_i32_6 c8_i32
  let c1_i32 : BitVec 32 := 1#32
  ⟨c0_i32_6, v12, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c1024_i32_161 : BitVec 32 := 1024#32
  let v301 : BitVec 32 := Scalar.muli arg9 c1024_i32_161
  v301
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c1024_i32_161 : BitVec 32 := 1024#32
  let v301 : BitVec 32 := Scalar.muli arg9 c1024_i32_161
  let v302 : BitVec 32 := v301
  let v303 : Index := Scalar.indexCast v302
  let c0_162 : Index := 0#32
  ![v303.toNat, 0]
def k0_off2 (k0_t1 : Fin k0_t1_loop.trips) : Fin 2 → Nat :=
  let c0_163 : Index := 0#32
  let c0_i32_6 : BitVec 32 := 0#32
  let c1_i32 : BitVec 32 := 1#32
  let arg9 : BitVec 32 := Scf.iv c0_i32_6 c1_i32 k0_t1
  let c1024_i32_161 : BitVec 32 := 1024#32
  let v301 : BitVec 32 := Scalar.muli arg9 c1024_i32_161
  let v302 : BitVec 32 := v301
  let v305 : Index := Scalar.indexCast v302
  ![0, v305.toNat]
@[reducible] def k0_t2_loop : Scf.Loop 32 :=
  let c0_i32_24 : BitVec 32 := 0#32
  let c8_i32_25 : BitVec 32 := 8#32
  let v49 : BitVec 32 := Scalar.addi c0_i32_24 c8_i32_25
  let c1_i32_26 : BitVec 32 := 1#32
  ⟨c0_i32_24, v49, c1_i32_26⟩
def k0_mult2 (k0_t2 : Fin k0_t2_loop.trips) : BitVec 32 :=
  let c0_i32_24 : BitVec 32 := 0#32
  let c1_i32_26 : BitVec 32 := 1#32
  let arg9 : BitVec 32 := Scf.iv c0_i32_24 c1_i32_26 k0_t2
  let c1024_i32_161 : BitVec 32 := 1024#32
  let v301 : BitVec 32 := Scalar.muli arg9 c1024_i32_161
  v301
def k0_off3 (k0_t2 : Fin k0_t2_loop.trips) : Fin 2 → Nat :=
  let c0_i32_24 : BitVec 32 := 0#32
  let c1_i32_26 : BitVec 32 := 1#32
  let arg9 : BitVec 32 := Scf.iv c0_i32_24 c1_i32_26 k0_t2
  let c1024_i32_161 : BitVec 32 := 1024#32
  let v301 : BitVec 32 := Scalar.muli arg9 c1024_i32_161
  let v302 : BitVec 32 := v301
  let v303 : Index := Scalar.indexCast v302
  let c0_162 : Index := 0#32
  ![v303.toNat, 0]
def k0_off4 (k0_t2 : Fin k0_t2_loop.trips) : Fin 2 → Nat :=
  let c0_163 : Index := 0#32
  let c0_i32_24 : BitVec 32 := 0#32
  let c1_i32_26 : BitVec 32 := 1#32
  let arg9 : BitVec 32 := Scf.iv c0_i32_24 c1_i32_26 k0_t2
  let c1024_i32_161 : BitVec 32 := 1024#32
  let v301 : BitVec 32 := Scalar.muli arg9 c1024_i32_161
  let v302 : BitVec 32 := v301
  let v305 : Index := Scalar.indexCast v302
  ![0, v305.toNat]
@[reducible] def k0_t3_loop : Scf.Loop 32 :=
  let c0_i32_44 : BitVec 32 := 0#32
  let c8_i32_45 : BitVec 32 := 8#32
  let v86 : BitVec 32 := Scalar.addi c0_i32_44 c8_i32_45
  let c1_i32_46 : BitVec 32 := 1#32
  ⟨c0_i32_44, v86, c1_i32_46⟩
def k0_mult3 (k0_t3 : Fin k0_t3_loop.trips) : BitVec 32 :=
  let c0_i32_44 : BitVec 32 := 0#32
  let c1_i32_46 : BitVec 32 := 1#32
  let arg9 : BitVec 32 := Scf.iv c0_i32_44 c1_i32_46 k0_t3
  let c1024_i32_161 : BitVec 32 := 1024#32
  let v301 : BitVec 32 := Scalar.muli arg9 c1024_i32_161
  v301
def k0_off5 (k0_t3 : Fin k0_t3_loop.trips) : Fin 2 → Nat :=
  let c0_i32_44 : BitVec 32 := 0#32
  let c1_i32_46 : BitVec 32 := 1#32
  let arg9 : BitVec 32 := Scf.iv c0_i32_44 c1_i32_46 k0_t3
  let c1024_i32_161 : BitVec 32 := 1024#32
  let v301 : BitVec 32 := Scalar.muli arg9 c1024_i32_161
  let v302 : BitVec 32 := v301
  let v303 : Index := Scalar.indexCast v302
  let c0_162 : Index := 0#32
  ![v303.toNat, 0]
def k0_off6 (k0_t3 : Fin k0_t3_loop.trips) : Fin 2 → Nat :=
  let c0_163 : Index := 0#32
  let c0_i32_44 : BitVec 32 := 0#32
  let c1_i32_46 : BitVec 32 := 1#32
  let arg9 : BitVec 32 := Scf.iv c0_i32_44 c1_i32_46 k0_t3
  let c1024_i32_161 : BitVec 32 := 1024#32
  let v301 : BitVec 32 := Scalar.muli arg9 c1024_i32_161
  let v302 : BitVec 32 := v301
  let v305 : Index := Scalar.indexCast v302
  ![0, v305.toNat]
@[reducible] def k0_t4_loop : Scf.Loop 32 :=
  let c0_i32_64 : BitVec 32 := 0#32
  let c8_i32_65 : BitVec 32 := 8#32
  let v123 : BitVec 32 := Scalar.addi c0_i32_64 c8_i32_65
  let c1_i32_66 : BitVec 32 := 1#32
  ⟨c0_i32_64, v123, c1_i32_66⟩
def k0_mult4 (k0_t4 : Fin k0_t4_loop.trips) : BitVec 32 :=
  let c0_i32_64 : BitVec 32 := 0#32
  let c1_i32_66 : BitVec 32 := 1#32
  let arg9 : BitVec 32 := Scf.iv c0_i32_64 c1_i32_66 k0_t4
  let c1024_i32_161 : BitVec 32 := 1024#32
  let v301 : BitVec 32 := Scalar.muli arg9 c1024_i32_161
  v301
def k0_off7 (k0_t4 : Fin k0_t4_loop.trips) : Fin 2 → Nat :=
  let c0_i32_64 : BitVec 32 := 0#32
  let c1_i32_66 : BitVec 32 := 1#32
  let arg9 : BitVec 32 := Scf.iv c0_i32_64 c1_i32_66 k0_t4
  let c1024_i32_161 : BitVec 32 := 1024#32
  let v301 : BitVec 32 := Scalar.muli arg9 c1024_i32_161
  let v302 : BitVec 32 := v301
  let v303 : Index := Scalar.indexCast v302
  let c0_162 : Index := 0#32
  ![v303.toNat, 0]
def k0_off8 (k0_t4 : Fin k0_t4_loop.trips) : Fin 2 → Nat :=
  let c0_163 : Index := 0#32
  let c0_i32_64 : BitVec 32 := 0#32
  let c1_i32_66 : BitVec 32 := 1#32
  let arg9 : BitVec 32 := Scf.iv c0_i32_64 c1_i32_66 k0_t4
  let c1024_i32_161 : BitVec 32 := 1024#32
  let v301 : BitVec 32 := Scalar.muli arg9 c1024_i32_161
  let v302 : BitVec 32 := v301
  let v305 : Index := Scalar.indexCast v302
  ![0, v305.toNat]
@[reducible] def k0_t5_loop : Scf.Loop 32 :=
  let c0_i32_84 : BitVec 32 := 0#32
  let c8_i32_85 : BitVec 32 := 8#32
  let v160 : BitVec 32 := Scalar.addi c0_i32_84 c8_i32_85
  let c1_i32_86 : BitVec 32 := 1#32
  ⟨c0_i32_84, v160, c1_i32_86⟩
def k0_mult5 (k0_t5 : Fin k0_t5_loop.trips) : BitVec 32 :=
  let c0_i32_84 : BitVec 32 := 0#32
  let c1_i32_86 : BitVec 32 := 1#32
  let arg9 : BitVec 32 := Scf.iv c0_i32_84 c1_i32_86 k0_t5
  let c1024_i32_161 : BitVec 32 := 1024#32
  let v301 : BitVec 32 := Scalar.muli arg9 c1024_i32_161
  v301
def k0_off9 (k0_t5 : Fin k0_t5_loop.trips) : Fin 2 → Nat :=
  let c0_i32_84 : BitVec 32 := 0#32
  let c1_i32_86 : BitVec 32 := 1#32
  let arg9 : BitVec 32 := Scf.iv c0_i32_84 c1_i32_86 k0_t5
  let c1024_i32_161 : BitVec 32 := 1024#32
  let v301 : BitVec 32 := Scalar.muli arg9 c1024_i32_161
  let v302 : BitVec 32 := v301
  let v303 : Index := Scalar.indexCast v302
  let c0_162 : Index := 0#32
  ![v303.toNat, 0]
def k0_off10 (k0_t5 : Fin k0_t5_loop.trips) : Fin 2 → Nat :=
  let c0_163 : Index := 0#32
  let c0_i32_84 : BitVec 32 := 0#32
  let c1_i32_86 : BitVec 32 := 1#32
  let arg9 : BitVec 32 := Scf.iv c0_i32_84 c1_i32_86 k0_t5
  let c1024_i32_161 : BitVec 32 := 1024#32
  let v301 : BitVec 32 := Scalar.muli arg9 c1024_i32_161
  let v302 : BitVec 32 := v301
  let v305 : Index := Scalar.indexCast v302
  ![0, v305.toNat]
@[reducible] def k0_t6_loop : Scf.Loop 32 :=
  let c0_i32_104 : BitVec 32 := 0#32
  let c8_i32_105 : BitVec 32 := 8#32
  let v197 : BitVec 32 := Scalar.addi c0_i32_104 c8_i32_105
  let c1_i32_106 : BitVec 32 := 1#32
  ⟨c0_i32_104, v197, c1_i32_106⟩
def k0_mult6 (k0_t6 : Fin k0_t6_loop.trips) : BitVec 32 :=
  let c0_i32_104 : BitVec 32 := 0#32
  let c1_i32_106 : BitVec 32 := 1#32
  let arg9 : BitVec 32 := Scf.iv c0_i32_104 c1_i32_106 k0_t6
  let c1024_i32_161 : BitVec 32 := 1024#32
  let v301 : BitVec 32 := Scalar.muli arg9 c1024_i32_161
  v301
def k0_off11 (k0_t6 : Fin k0_t6_loop.trips) : Fin 2 → Nat :=
  let c0_i32_104 : BitVec 32 := 0#32
  let c1_i32_106 : BitVec 32 := 1#32
  let arg9 : BitVec 32 := Scf.iv c0_i32_104 c1_i32_106 k0_t6
  let c1024_i32_161 : BitVec 32 := 1024#32
  let v301 : BitVec 32 := Scalar.muli arg9 c1024_i32_161
  let v302 : BitVec 32 := v301
  let v303 : Index := Scalar.indexCast v302
  let c0_162 : Index := 0#32
  ![v303.toNat, 0]
def k0_off12 (k0_t6 : Fin k0_t6_loop.trips) : Fin 2 → Nat :=
  let c0_163 : Index := 0#32
  let c0_i32_104 : BitVec 32 := 0#32
  let c1_i32_106 : BitVec 32 := 1#32
  let arg9 : BitVec 32 := Scf.iv c0_i32_104 c1_i32_106 k0_t6
  let c1024_i32_161 : BitVec 32 := 1024#32
  let v301 : BitVec 32 := Scalar.muli arg9 c1024_i32_161
  let v302 : BitVec 32 := v301
  let v305 : Index := Scalar.indexCast v302
  ![0, v305.toNat]
@[reducible] def k0_t7_loop : Scf.Loop 32 :=
  let c0_i32_124 : BitVec 32 := 0#32
  let c8_i32_125 : BitVec 32 := 8#32
  let v234 : BitVec 32 := Scalar.addi c0_i32_124 c8_i32_125
  let c1_i32_126 : BitVec 32 := 1#32
  ⟨c0_i32_124, v234, c1_i32_126⟩
def k0_mult7 (k0_t7 : Fin k0_t7_loop.trips) : BitVec 32 :=
  let c0_i32_124 : BitVec 32 := 0#32
  let c1_i32_126 : BitVec 32 := 1#32
  let arg9 : BitVec 32 := Scf.iv c0_i32_124 c1_i32_126 k0_t7
  let c1024_i32_161 : BitVec 32 := 1024#32
  let v301 : BitVec 32 := Scalar.muli arg9 c1024_i32_161
  v301
def k0_off13 (k0_t7 : Fin k0_t7_loop.trips) : Fin 2 → Nat :=
  let c0_i32_124 : BitVec 32 := 0#32
  let c1_i32_126 : BitVec 32 := 1#32
  let arg9 : BitVec 32 := Scf.iv c0_i32_124 c1_i32_126 k0_t7
  let c1024_i32_161 : BitVec 32 := 1024#32
  let v301 : BitVec 32 := Scalar.muli arg9 c1024_i32_161
  let v302 : BitVec 32 := v301
  let v303 : Index := Scalar.indexCast v302
  let c0_162 : Index := 0#32
  ![v303.toNat, 0]
def k0_off14 (k0_t7 : Fin k0_t7_loop.trips) : Fin 2 → Nat :=
  let c0_163 : Index := 0#32
  let c0_i32_124 : BitVec 32 := 0#32
  let c1_i32_126 : BitVec 32 := 1#32
  let arg9 : BitVec 32 := Scf.iv c0_i32_124 c1_i32_126 k0_t7
  let c1024_i32_161 : BitVec 32 := 1024#32
  let v301 : BitVec 32 := Scalar.muli arg9 c1024_i32_161
  let v302 : BitVec 32 := v301
  let v305 : Index := Scalar.indexCast v302
  ![0, v305.toNat]
@[reducible] def k0_t8_loop : Scf.Loop 32 :=
  let c0_i32_144 : BitVec 32 := 0#32
  let c8_i32_145 : BitVec 32 := 8#32
  let v271 : BitVec 32 := Scalar.addi c0_i32_144 c8_i32_145
  let c1_i32_146 : BitVec 32 := 1#32
  ⟨c0_i32_144, v271, c1_i32_146⟩
def k0_mult8 (k0_t8 : Fin k0_t8_loop.trips) : BitVec 32 :=
  let c0_i32_144 : BitVec 32 := 0#32
  let c1_i32_146 : BitVec 32 := 1#32
  let arg9 : BitVec 32 := Scf.iv c0_i32_144 c1_i32_146 k0_t8
  let c1024_i32_161 : BitVec 32 := 1024#32
  let v301 : BitVec 32 := Scalar.muli arg9 c1024_i32_161
  v301
def k0_off15 (k0_t8 : Fin k0_t8_loop.trips) : Fin 2 → Nat :=
  let c0_i32_144 : BitVec 32 := 0#32
  let c1_i32_146 : BitVec 32 := 1#32
  let arg9 : BitVec 32 := Scf.iv c0_i32_144 c1_i32_146 k0_t8
  let c1024_i32_161 : BitVec 32 := 1024#32
  let v301 : BitVec 32 := Scalar.muli arg9 c1024_i32_161
  let v302 : BitVec 32 := v301
  let v303 : Index := Scalar.indexCast v302
  let c0_162 : Index := 0#32
  ![v303.toNat, 0]
def k0_off16 (k0_t8 : Fin k0_t8_loop.trips) : Fin 2 → Nat :=
  let c0_163 : Index := 0#32
  let c0_i32_144 : BitVec 32 := 0#32
  let c1_i32_146 : BitVec 32 := 1#32
  let arg9 : BitVec 32 := Scf.iv c0_i32_144 c1_i32_146 k0_t8
  let c1024_i32_161 : BitVec 32 := 1024#32
  let v301 : BitVec 32 := Scalar.muli arg9 c1024_i32_161
  let v302 : BitVec 32 := v301
  let v305 : Index := Scalar.indexCast v302
  ![0, v305.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  shapeCasts_S8192_S8192x1 : S8192.ShapeCasts S8192x1
  shapeCasts_S8192_S1x8192 : S8192.ShapeCasts S1x8192
  inb_S2048x128_S256x128_0_0 : ∀ a, (![0, 0] : Fin 2 → Nat) a + S256x128.size a ≤ S2048x128.size a
  h_S256x128 : 0 < S256x128.numel
  inb_S2048x1_S256x1_0_0 : ∀ a, (![0, 0] : Fin 2 → Nat) a + S256x1.size a ≤ S2048x1.size a
  h_S256x1 : 0 < S256x1.numel
  shapeCasts_S256x1_S256x1 : S256x1.ShapeCasts S256x1
  iota_S256x1_d0_w32 : S256x1.Iotas .tc 32 [0]
  h_S1024x128 : 0 < S1024x128.numel
  h_S1x1024 : 0 < S1x1024.numel
  shapeCasts_S1x1024_S1x1024 : S1x1024.ShapeCasts S1x1024
  transposes_S1024x128_p1_0_S128x1024 : S1024x128.Transposes [1, 0] S128x1024
  broadcasts_S256x1_S256x1024 : S256x1.Broadcasts S256x1024
  broadcasts_S1x1024_S256x1024 : S1x1024.Broadcasts S256x1024
  iota_S1x1024_d1_w32 : S1x1024.Iotas .tc 32 [1]
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  natLt_1_32 : 1 < 32
  inb_S2048x128_S256x128_256_0 : ∀ a, (![256, 0] : Fin 2 → Nat) a + S256x128.size a ≤ S2048x128.size a
  inb_S2048x1_S256x1_256_0 : ∀ a, (![256, 0] : Fin 2 → Nat) a + S256x1.size a ≤ S2048x1.size a
  inb_S2048x128_S256x128_512_0 : ∀ a, (![512, 0] : Fin 2 → Nat) a + S256x128.size a ≤ S2048x128.size a
  inb_S2048x1_S256x1_512_0 : ∀ a, (![512, 0] : Fin 2 → Nat) a + S256x1.size a ≤ S2048x1.size a
  inb_S2048x128_S256x128_768_0 : ∀ a, (![768, 0] : Fin 2 → Nat) a + S256x128.size a ≤ S2048x128.size a
  inb_S2048x1_S256x1_768_0 : ∀ a, (![768, 0] : Fin 2 → Nat) a + S256x1.size a ≤ S2048x1.size a
  inb_S2048x128_S256x128_1024_0 : ∀ a, (![1024, 0] : Fin 2 → Nat) a + S256x128.size a ≤ S2048x128.size a
  inb_S2048x1_S256x1_1024_0 : ∀ a, (![1024, 0] : Fin 2 → Nat) a + S256x1.size a ≤ S2048x1.size a
  inb_S2048x128_S256x128_1280_0 : ∀ a, (![1280, 0] : Fin 2 → Nat) a + S256x128.size a ≤ S2048x128.size a
  inb_S2048x1_S256x1_1280_0 : ∀ a, (![1280, 0] : Fin 2 → Nat) a + S256x1.size a ≤ S2048x1.size a
  inb_S2048x128_S256x128_1536_0 : ∀ a, (![1536, 0] : Fin 2 → Nat) a + S256x128.size a ≤ S2048x128.size a
  inb_S2048x1_S256x1_1536_0 : ∀ a, (![1536, 0] : Fin 2 → Nat) a + S256x1.size a ≤ S2048x1.size a
  inb_S2048x128_S256x128_1792_0 : ∀ a, (![1792, 0] : Fin 2 → Nat) a + S256x128.size a ≤ S2048x128.size a
  inb_S2048x1_S256x1_1792_0 : ∀ a, (![1792, 0] : Fin 2 → Nat) a + S256x1.size a ≤ S2048x1.size a
  concatenates_S1x1_S1x1_S1x1_S1x1_S1x1_S1x1_S1x1_S1x1_S8x1_d0 : Shape.Concatenates [S1x1, S1x1, S1x1, S1x1, S1x1, S1x1, S1x1, S1x1] S8x1 0
  inb_S8x1_S8x1_0_0 : ∀ a, (![0, 0] : Fin 2 → Nat) a + S8x1.size a ≤ S8x1.size a
  h_S8x1 : 0 < S8x1.numel
  reducesTo_S32x1_S_d0_1 : S32x1.ReducesTo [0, 1] S_
  dot_S256x128_S128x1024_S256x1024_1_0_0_1_n_n_wf : DotDims.WF S256x128 S128x1024 S256x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S8192x128.size a
  k0_off2_inb : ∀ k0_t1 : Fin k0_t1_loop.trips, ∀ a, (k0_off2 k0_t1) a + S1x1024.size a ≤ S1x8192.size a
  k0_t2_ok : k0_t2_loop.OK
  k0_mult2_dvd : ∀ k0_t2 : Fin k0_t2_loop.trips, 1024 ∣ (k0_mult2 k0_t2).toNat
  k0_off3_inb : ∀ k0_t2 : Fin k0_t2_loop.trips, ∀ a, (k0_off3 k0_t2) a + S1024x128.size a ≤ S8192x128.size a
  k0_off4_inb : ∀ k0_t2 : Fin k0_t2_loop.trips, ∀ a, (k0_off4 k0_t2) a + S1x1024.size a ≤ S1x8192.size a
  k0_t3_ok : k0_t3_loop.OK
  k0_mult3_dvd : ∀ k0_t3 : Fin k0_t3_loop.trips, 1024 ∣ (k0_mult3 k0_t3).toNat
  k0_off5_inb : ∀ k0_t3 : Fin k0_t3_loop.trips, ∀ a, (k0_off5 k0_t3) a + S1024x128.size a ≤ S8192x128.size a
  k0_off6_inb : ∀ k0_t3 : Fin k0_t3_loop.trips, ∀ a, (k0_off6 k0_t3) a + S1x1024.size a ≤ S1x8192.size a
  k0_t4_ok : k0_t4_loop.OK
  k0_mult4_dvd : ∀ k0_t4 : Fin k0_t4_loop.trips, 1024 ∣ (k0_mult4 k0_t4).toNat
  k0_off7_inb : ∀ k0_t4 : Fin k0_t4_loop.trips, ∀ a, (k0_off7 k0_t4) a + S1024x128.size a ≤ S8192x128.size a
  k0_off8_inb : ∀ k0_t4 : Fin k0_t4_loop.trips, ∀ a, (k0_off8 k0_t4) a + S1x1024.size a ≤ S1x8192.size a
  k0_t5_ok : k0_t5_loop.OK
  k0_mult5_dvd : ∀ k0_t5 : Fin k0_t5_loop.trips, 1024 ∣ (k0_mult5 k0_t5).toNat
  k0_off9_inb : ∀ k0_t5 : Fin k0_t5_loop.trips, ∀ a, (k0_off9 k0_t5) a + S1024x128.size a ≤ S8192x128.size a
  k0_off10_inb : ∀ k0_t5 : Fin k0_t5_loop.trips, ∀ a, (k0_off10 k0_t5) a + S1x1024.size a ≤ S1x8192.size a
  k0_t6_ok : k0_t6_loop.OK
  k0_mult6_dvd : ∀ k0_t6 : Fin k0_t6_loop.trips, 1024 ∣ (k0_mult6 k0_t6).toNat
  k0_off11_inb : ∀ k0_t6 : Fin k0_t6_loop.trips, ∀ a, (k0_off11 k0_t6) a + S1024x128.size a ≤ S8192x128.size a
  k0_off12_inb : ∀ k0_t6 : Fin k0_t6_loop.trips, ∀ a, (k0_off12 k0_t6) a + S1x1024.size a ≤ S1x8192.size a
  k0_t7_ok : k0_t7_loop.OK
  k0_mult7_dvd : ∀ k0_t7 : Fin k0_t7_loop.trips, 1024 ∣ (k0_mult7 k0_t7).toNat
  k0_off13_inb : ∀ k0_t7 : Fin k0_t7_loop.trips, ∀ a, (k0_off13 k0_t7) a + S1024x128.size a ≤ S8192x128.size a
  k0_off14_inb : ∀ k0_t7 : Fin k0_t7_loop.trips, ∀ a, (k0_off14 k0_t7) a + S1x1024.size a ≤ S1x8192.size a
  k0_t8_ok : k0_t8_loop.OK
  k0_mult8_dvd : ∀ k0_t8 : Fin k0_t8_loop.trips, 1024 ∣ (k0_mult8 k0_t8).toNat
  k0_off15_inb : ∀ k0_t8 : Fin k0_t8_loop.trips, ∀ a, (k0_off15 k0_t8) a + S1024x128.size a ≤ S8192x128.size a
  k0_off16_inb : ∀ k0_t8 : Fin k0_t8_loop.trips, ∀ a, (k0_off16 k0_t8) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .i32 = 32 ∨ (Rect.block (s := S8192x1) S2048x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .i32 = 32 ∨ (Rect.block (s := S1x8192) S1x8192.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S32x1.size a
  hwx0_6 : ∀ i : grid0.Coords, EltTy.bits .f32 = 32 ∨ (Rect.block (s := S32x1) S8x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S32x1.size a
  hwx0_7 : ∀ i : grid0.Coords, EltTy.bits .f32 = 32 ∨ (Rect.block (s := S32x1) S8x1.size (cc0_transform_7 i) (hinb0_7 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S8x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S8x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 85
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S128x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .i32⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .i1⟩
  | .hbm, ⟨46, _⟩ => ⟨S8192x8192, .i1⟩
  | .hbm, ⟨47, _⟩ => ⟨S8192x8192, .i1⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192, .f32⟩
  | .hbm, ⟨60, _⟩ => ⟨S_, .i1⟩
  | .hbm, ⟨61, _⟩ => ⟨S8192, .i1⟩
  | .hbm, ⟨62, _⟩ => ⟨S_, .i1⟩
  | .hbm, ⟨63, _⟩ => ⟨S8192, .i1⟩
  | .hbm, ⟨64, _⟩ => ⟨S8192, .i1⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .i32⟩
  | .hbm, ⟨77, _⟩ => ⟨S_, .i32⟩
  | .hbm, ⟨78, _⟩ => ⟨S_, .i32⟩
  | .hbm, ⟨79, _⟩ => ⟨S_, .f32⟩
  | .hbm, ⟨80, _⟩ => ⟨S_, .f32⟩
  | .hbm, ⟨81, _⟩ => ⟨S_, .i32⟩
  | .hbm, ⟨82, _⟩ => ⟨S_, .i32⟩
  | .hbm, ⟨83, _⟩ => ⟨S_, .f32⟩
  | .hbm, ⟨84, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_call3_v0 : Ref sig .tc := ⟨.hbm, 55, rfl⟩
abbrev main_call3_v1 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩
abbrev main_call4_cst : Ref sig .tc := ⟨.hbm, 69, rfl⟩
abbrev main_call4_v0 : Ref sig .tc := ⟨.hbm, 70, rfl⟩
abbrev main_v44 : Ref sig .tc := ⟨.hbm, 71, rfl⟩
abbrev main_cst_13 : Ref sig .tc := ⟨.hbm, 72, rfl⟩
abbrev main_call5_v0 : Ref sig .tc := ⟨.hbm, 73, rfl⟩
abbrev main_call5_v1 : Ref sig .tc := ⟨.hbm, 74, rfl⟩
abbrev main_v45 : Ref sig .tc := ⟨.hbm, 75, rfl⟩
abbrev main_v46 : Ref sig .tc := ⟨.hbm, 76, rfl⟩
abbrev main_c_14 : Ref sig .tc := ⟨.hbm, 77, rfl⟩
abbrev main_v47 : Ref sig .tc := ⟨.hbm, 78, rfl⟩
abbrev main_cst_15 : Ref sig .tc := ⟨.hbm, 79, rfl⟩
abbrev main_v48 : Ref sig .tc := ⟨.hbm, 80, rfl⟩
abbrev main_c_16 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BitsBody.lean ====
/-
  One run of the kernel body on eight whole staging buffers. The six input buffers hold given contents and are
  handed back as they were; the two output buffers (the per-tile triplet sums and the per-tile valid counts, one
  entry per 256-row tile of the 2048-row block) are handed back with the body's stores written over whatever
  they held. The eight inner loops over the 1024-column chunks are passed through by their invariants: the
  running row-wise maximum over the positive pairs and minimum over the negative pairs.
-/
import proofs.«149814_j11527692222870_2_alg».proof.Proof.Gen.Kernel.Launch
import proofs.«149814_j11527692222870_2_alg».proof.Proof.Gen.Kernel.Skeleton
import proofs.«149814_j11527692222870_2_alg».proof.Proof.Gen.Kernel.Loops
import proofs.«149814_j11527692222870_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body stores into the two output buffers (found by the run), with the body's triple. -/
noncomputable def kernelRun (c : Dev nD) (i : grid0.Coords)
    (arg1 : Memref sig .tc .vmem S2048x128 .f32) (harg1 : arg1.IsWhole) (arg2 : Memref sig .tc .vmem S8192x128 .f32) (harg2 : arg2.IsWhole)
    (arg3 : Memref sig .tc .vmem S2048x1 .f32) (harg3 : arg3.IsWhole) (arg4 : Memref sig .tc .vmem S1x8192 .f32) (harg4 : arg4.IsWhole)
    (arg5 : Memref sig .tc .vmem S2048x1 .i32) (harg5 : arg5.IsWhole) (arg6 : Memref sig .tc .vmem S1x8192 .i32) (harg6 : arg6.IsWhole)
    (arg7 : Memref sig .tc .vmem S8x1 .f32) (harg7 : arg7.IsWhole) (arg8 : Memref sig .tc .vmem S8x1 .f32) (harg8 : arg8.IsWhole)
    (x0 : Vec F S2048x128 .f32) (x1 : Vec F S8192x128 .f32) (x2 : Vec F S2048x1 .f32) (x3 : Vec F S1x8192 .f32)
    (x4 : Vec F S2048x1 .i32) (x5 : Vec F S1x8192 .i32) :
    Σ' (L7 : List (View.Piece (Elt F) S8x1 .f32)), { L8 : List (View.Piece (Elt F) S8x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E
              (cc0__triplet_kernel i arg1 harg1 arg2 harg2 arg3 harg3 arg4 harg4 arg5 harg5 arg6 harg6 arg7 harg7 arg8 harg8) K } := by
  refine ⟨?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    iexists _; iexact H7

end Cert.Kernel.Gen

end
-- ==== Proof.BitsKit.lean ====
/-
  The kernel's launch, first half: what the region finds and what each grid point leaves.
  The host lines before the region compute the row norms ‖x_r‖² and lay the norms and the labels out as a column
  and as a row; the region's eight windows then read the embeddings twice (a 2048-row tile per grid point, and the
  whole array once), the norms and the labels each as a 2048-row tile and as a whole row, and write two 8-entry
  blocks per point (one entry per 256-row tile: the tile's sum of hinge terms and its count of valid anchors).
  Every input buffer holds its block of the array at every point; each output buffer is left at what the body's
  one whole-block store wrote.
-/
import proofs.«149814_j11527692222870_2_alg».proof.Proof.Gen.Kernel.Launch
import proofs.«149814_j11527692222870_2_alg».proof.Proof.Gen.Kernel.Skeleton
import proofs.«149814_j11527692222870_2_alg».proof.Proof.Gen.Kernel.Loops
import proofs.«149814_j11527692222870_2_alg».proof.Proof.Gen.Kernel.Points
import Idealize.ShloMosaic.Lib.Pipeline.FrameBody
import Idealize.ShloMosaic.Lib.Ring
import Idealize.ShloMosaic.Lib.Tactic
import proofs.«149814_j11527692222870_2_alg».proof.Proof.BitsBody
import Idealize.ShloMosaic.Lib.Pipeline.FrameSuffix
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- One staging buffer of each output window, through which its contents are stated (the choice does not matter). -/
abbrev VO0_6 : View sig .tc .vmem S8x1 .f32 := (Memref.whole cc0_stg6_0 : Memref sig .tc .vmem S8x1 .f32).view
abbrev VO0_7 : View sig .tc .vmem S8x1 .f32 := (Memref.whole cc0_stg7_0 : Memref sig .tc .vmem S8x1 .f32).view

/-- Each window's current staging buffer at point `t`, and its wholeness. -/
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1 .f32 := win0_7.stage (cfg0.slots t 7)
abbrev hs0_7 (t : Fin cfg0.N) : (ms0_7 t).IsWhole := hstage0_7 ((cfg0.slots t 7).cast nbuf0_7)

/-! ## What the body leaves in the two outputs -/

/-- The body's run at point `t`, on the point's buffers and input blocks. -/
abbrev runAt (c : Dev nD) (t : Fin cfg0.N) :=
  kernelRun (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (iblk m c 0 t) (iblk m c 1 t) (iblk m c 2 t) (iblk m c 3 t) (iblk m c 4 t) (iblk m c 5 t)

/-- The one store into each output covers its block. -/
theorem cover0_6 (c : Dev nD) (t : Fin cfg0.N) (y : S8x1.Idx) : ∃ pc ∈ (runAt m c t).1, y ∈ pc.1.set :=
  View.cover_of_tiledL (runAt m c t).1 S8x1.size (by sl_kernel_rfl) y
theorem cover0_7 (c : Dev nD) (t : Fin cfg0.N) (y : S8x1.Idx) : ∃ pc ∈ (runAt m c t).2.1, y ∈ pc.1.set :=
  View.cover_of_tiledL (runAt m c t).2.1 S8x1.size (by sl_kernel_rfl) y

/-- What point `t` leaves in the sums' buffer and in the counts' buffer: the stored pieces read back. -/
def out0_6 (c : Dev nD) (t : Fin cfg0.N) : Vec F S8x1 .f32 :=
  VO0_6.read (Elt F) (VO0_6.writes (Elt F) VO0_6.junk (runAt m c t).1)
def out0_7 (c : Dev nD) (t : Fin cfg0.N) : Vec F S8x1 .f32 :=
  VO0_7.read (Elt F) (VO0_7.writes (Elt F) VO0_7.junk (runAt m c t).2.1)

/-! ## The proof data -/

/-- The arrays as the region finds them; after the body each input buffer at its block and each output buffer at what
    the point stored; the two windows on the embeddings each hold half of that array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 m c t
    | ⟨7, _⟩ => out0_7 m c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 m c t := by dsimp only [dats]
theorem after0_7 (c : Dev nD) (t : Fin cfg0.N) : (dats m 0 c).after 7 t = out0_7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point: the inputs' buffers hold their blocks, so the run applies; each output buffer ends at its
    stored pieces, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold out0_6 out0_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt m c t).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_6 m c t)
  · unfold owns; iexists _; isplitr
    swap; · iexact H7
    ipureintro; exact View.read_writes_of_cover _ _ _ _ _ (cover0_7 m c t)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Gen

end
-- ==== Proof.BitsLaunch.lean ====
/-
  The kernel's launch, second half: the whole program's run.
  The embeddings' array is read by two windows; its share is dealt in two halves, one per window, and joined again
  when the region is left. After the region the host lines add up the 32 per-tile sums and the 32 per-tile counts
  and divide the first total by the larger of the second and one.
-/
import proofs.«149814_j11527692222870_2_alg».proof.Proof.Gen.Kernel.Launch
import proofs.«149814_j11527692222870_2_alg».proof.Proof.Gen.Kernel.Skeleton
import proofs.«149814_j11527692222870_2_alg».proof.Proof.Gen.Kernel.Loops
import proofs.«149814_j11527692222870_2_alg».proof.Proof.Gen.Kernel.Points
import Idealize.ShloMosaic.Lib.Pipeline.FrameBody
import Idealize.ShloMosaic.Lib.Ring
import Idealize.ShloMosaic.Lib.Tactic
import proofs.«149814_j11527692222870_2_alg».proof.Proof.BitsKit
import Idealize.ShloMosaic.Lib.Pipeline.FrameSuffix
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays -/

/-- A window's array, a whole buffer, held at a share. -/
theorem arr_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [show (cfg0.win w).arr.view.set = Finset.univ from (arr_whole0 w).set_eq_univ]

theorem share0_0 (c : Dev nD) : (dats m 0 c).share 0 = fullShare.left := by unfold Dat.share; rfl
theorem share0_1 (c : Dev nD) : (dats m 0 c).share 1 = fullShare.right := by unfold Dat.share; rfl
theorem share0_2 (c : Dev nD) : (dats m 0 c).share 2 = fullShare := by unfold Dat.share; rfl
theorem share0_3 (c : Dev nD) : (dats m 0 c).share 3 = fullShare := by unfold Dat.share; rfl
theorem share0_4 (c : Dev nD) : (dats m 0 c).share 4 = fullShare := by unfold Dat.share; rfl
theorem share0_5 (c : Dev nD) : (dats m 0 c).share 5 = fullShare := by unfold Dat.share; rfl
theorem share0_6 (c : Dev nD) : (dats m 0 c).share 6 = fullShare := by unfold Dat.share; rfl
theorem share0_7 (c : Dev nD) : (dats m 0 c).share 7 = fullShare := by unfold Dat.share; rfl

set_option maxHeartbeats 4000000 in
/-- The eight windows' arrays, one by one: the embeddings twice, at the two halves of the share. -/
theorem arrays_chain (c : Dev nD) (Fx : (w : Fin cfg0.W) → Buf (Elt F) ((cfg0.win w).arr.view.loc (c : Thread nD τ))) :
    (dats m 0 c).arrays Fx = iprop(
      (((c : Thread nD τ).loc main_arg0) ↦{fullShare.left} Fx 0) ∗ (((c : Thread nD τ).loc main_arg0) ↦{fullShare.right} Fx 1)
      ∗ (((c : Thread nD τ).loc main_v2) ↦{fullShare} Fx 2) ∗ (((c : Thread nD τ).loc main_v3) ↦{fullShare} Fx 3)
      ∗ (((c : Thread nD τ).loc main_v4) ↦{fullShare} Fx 4) ∗ (((c : Thread nD τ).loc main_v5) ↦{fullShare} Fx 5)
      ∗ (((c : Thread nD τ).loc main_v6_0) ↦{fullShare} Fx 6) ∗ (((c : Thread nD τ).loc main_v6_1) ↦{fullShare} Fx 7)) := by
  unfold Dat.arrays
  rw [bigSep_W0]
  beta_reduce
  rw [arr_pt c 0, arr_pt c 1, arr_pt c 2, arr_pt c 3, arr_pt c 4, arr_pt c 5, arr_pt c 6, arr_pt c 7,
    share0_0, share0_1, share0_2, share0_3, share0_4, share0_5, share0_6, share0_7]

/-- The distinct buffers behind the arrays, one by one. -/
theorem arrBufs_chain (c : Dev nD) (Vx : (b : Ref sig .tc) → Buf (Elt F) ((c : Thread nD τ).loc b)) :
    (Pipeline.arrBufs spec0 c Vx : sProp 𝕄) = iprop(
      (((c : Thread nD τ).loc main_arg0) ↦{fullShare} Vx main_arg0)
      ∗ (((c : Thread nD τ).loc main_v2) ↦{fullShare} Vx main_v2) ∗ (((c : Thread nD τ).loc main_v3) ↦{fullShare} Vx main_v3)
      ∗ (((c : Thread nD τ).loc main_v4) ↦{fullShare} Vx main_v4) ∗ (((c : Thread nD τ).loc main_v5) ↦{fullShare} Vx main_v5)
      ∗ (((c : Thread nD τ).loc main_v6_0) ↦{fullShare} Vx main_v6_0) ∗ (((c : Thread nD τ).loc main_v6_1) ↦{fullShare} Vx main_v6_1)) := by
  unfold Pipeline.arrBufs
  rw [bigSep_eq_bigSepL_of_eq [main_arg0, main_v2, main_v3, main_v4, main_v5, main_v6_0, main_v6_1] (by decide) (by decide)]
  rfl

/-- The buffers behind the arrays at contents `Vx` are the windows' arrays at the same contents, and back. -/
theorem arrays_iff_arrBufs (c : Dev nD) (Vx : (b : Ref sig .tc) → Buf (Elt F) ((c : Thread nD τ).loc b))
    (Fx : (w : Fin cfg0.W) → Buf (Elt F) ((cfg0.win w).arr.view.loc (c : Thread nD τ))) (hF : ∀ w, Fx w = Vx (Pipeline.arrRef spec0 w)) :
    (Pipeline.arrBufs spec0 c Vx : sProp 𝕄) ⊣⊢ (dats m 0 c).arrays Fx := by
  rw [arrays_chain, arrBufs_chain, hF 0, hF 1, hF 2, hF 3, hF 4, hF 5, hF 6, hF 7]
  constructor
  · iintro ⟨H0, H2, H3, H4, H5, H6, H7⟩
    ihave H0' := (pointsTo_share (PosShare.mem_left_op_right fullShare)).1 $$ H0
    icases H0' with ⟨H0l, H0r⟩
    isplitl [H0l]; · iexact H0l
    isplitl [H0r]; · iexact H0r
    isplitl [H2]; · iexact H2
    isplitl [H3]; · iexact H3
    isplitl [H4]; · iexact H4
    isplitl [H5]; · iexact H5
    isplitl [H6]; · iexact H6
    iexact H7
  · iintro ⟨H0l, H0r, H2, H3, H4, H5, H6, H7⟩
    isplitl [H0l H0r]
    · iapply (pointsTo_share (PosShare.mem_left_op_right fullShare)).2
      isplitl [H0l]; · iexact H0l
      iexact H0r
    isplitl [H2]; · iexact H2
    isplitl [H3]; · iexact H3
    isplitl [H4]; · iexact H4
    isplitl [H5]; · iexact H5
    isplitl [H6]; · iexact H6
    iexact H7

/-! ## After the region -/

section Tail
open Classical

/-- The buffers' contents when the region is left: the two outputs at what the write-backs left, every other buffer
    as the region found it. -/
def Wx (c : Dev nD) : Valuation τ sig (Elt F) :=
  Function.update (Function.update (V0 m c) (Proc.devRef .tc main_v6_0) ((dats m 0 c).arrAt 6 cfg0.N))
    (Proc.devRef .tc main_v6_1) ((dats m 0 c).arrAt 7 cfg0.N)

/-- The buffers' contents at the end: after the host lines that follow the region. -/
abbrev Vfin (c : Dev nD) (b : Ref sig .tc) : Buf (Elt F) ((c : Thread nD τ).loc b) :=
  StableHlo.after (List.flatten [hostOps1]) (Wx m c) (Proc.devRef .tc b)

/-- Every window's array leaves the region at what the write-backs made of it (an input's: unchanged). -/
theorem Wx_arr (c : Dev nD) (w : Fin cfg0.W) : Wx m c (Proc.devRef .tc (Pipeline.arrRef spec0 w)) = (dats m 0 c).arrAt w cfg0.N := by
  unfold Wx
  fin_cases w
  · rw [Function.update_of_ne (StableHlo.devRef_ne_of_ne (by decide)), Function.update_of_ne (StableHlo.devRef_ne_of_ne (by decide))]; exact ((dats m 0 c).arrAt_in 0 rfl _).symm
  · rw [Function.update_of_ne (StableHlo.devRef_ne_of_ne (by decide)), Function.update_of_ne (StableHlo.devRef_ne_of_ne (by decide))]; exact ((dats m 0 c).arrAt_in 1 rfl _).symm
  · rw [Function.update_of_ne (StableHlo.devRef_ne_of_ne (by decide)), Function.update_of_ne (StableHlo.devRef_ne_of_ne (by decide))]; exact ((dats m 0 c).arrAt_in 2 rfl _).symm
  · rw [Function.update_of_ne (StableHlo.devRef_ne_of_ne (by decide)), Function.update_of_ne (StableHlo.devRef_ne_of_ne (by decide))]; exact ((dats m 0 c).arrAt_in 3 rfl _).symm
  · rw [Function.update_of_ne (StableHlo.devRef_ne_of_ne (by decide)), Function.update_of_ne (StableHlo.devRef_ne_of_ne (by decide))]; exact ((dats m 0 c).arrAt_in 4 rfl _).symm
  · rw [Function.update_of_ne (StableHlo.devRef_ne_of_ne (by decide)), Function.update_of_ne (StableHlo.devRef_ne_of_ne (by decide))]; exact ((dats m 0 c).arrAt_in 5 rfl _).symm
  · rw [Function.update_of_ne (StableHlo.devRef_ne_of_ne (by decide))]; exact Function.update_self ..
  · exact Function.update_self ..

/-- A buffer that is no window's array leaves the region as it entered it. -/
theorem Wx_rest (c : Dev nD) (b : Ref sig .tc) (hb : b ∈ Pipeline.restRefs sig spec0) : Wx m c (Proc.devRef .tc b) = V0 m c (Proc.devRef .tc b) := by
  have h := (Finset.mem_sdiff.mp hb).2
  have h6 : b ≠ main_v6_0 := fun e => h (Finset.mem_image.mpr ⟨6, Finset.mem_univ _, by rw [e]⟩)
  have h7 : b ≠ main_v6_1 := fun e => h (Finset.mem_image.mpr ⟨7, Finset.mem_univ _, by rw [e]⟩)
  unfold Wx
  rw [Function.update_of_ne (StableHlo.devRef_ne_of_ne h7), Function.update_of_ne (StableHlo.devRef_ne_of_ne h6)]

/-- The host lines after the region write no window's array. -/
theorem tail_keeps : ∀ op ∈ (List.flatten [hostOps1] : List (HloOp τ sig (Elt F))), ∀ w, Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, Finset.mem_singleton] <;> exact StableHlo.devRef_ne_of_ne (by decide)

theorem Vfin_arr (c : Dev nD) (w : Fin cfg0.W) : Vfin m c (Pipeline.arrRef spec0 w) = (dats m 0 c).arrAt w cfg0.N := by
  show StableHlo.after (List.flatten [hostOps1]) (Wx m c) (Proc.devRef .tc (Pipeline.arrRef spec0 w)) = _
  rw [StableHlo.after_of_forall_not_mem _ _ (fun op hop => tail_keeps op hop w), Wx_arr]

/-- Leaving the region: the arrays and the bypassing buffers are all the unscoped buffers at the exit contents. -/
theorem exit_held (c : Dev nD) :
    iprop((dats m 0 c).arrays ((dats m 0 c).arrAt · cfg0.N) ∗ Pipeline.unscopedRest spec0 c (V m c))
      ⊢ (StableHlo.held (c.tc : Thread nD τ) (Pipeline.ucRefs τ sig) (Wx m c) : sProp 𝕄) := by
  rw [← Pipeline.unscopedBufs_held (Ix := Unit) (Name := ℕ) (U := UR sig nD τ) (Lvl := ℕ) c (Wx m c),
    Pipeline.unscopedBufs_split₀ cfgs (0 : Fin 1) winFacts₀0.arr_unscoped c]
  iintro ⟨Ha, Hz⟩
  isplitl [Ha]
  · iapply (arrays_iff_arrBufs m c _ _ (fun w => (Wx_arr m c w).symm)).2; iexact Ha
  · iapply (Entails.of_eq (show (Pipeline.unscopedRest spec0 c (V m c) : sProp 𝕄) = Pipeline.unscopedRest spec0 c (fun b => Wx m c (Proc.devRef .tc b)) from by
      unfold Pipeline.unscopedRest; exact bigSep_congr fun b hb => by beta_reduce; rw [Wx_rest m c b hb]))
    iexact Hz

/-- And back, at the end. -/
theorem held_exit (c : Dev nD) :
    (StableHlo.held (c.tc : Thread nD τ) (Pipeline.ucRefs τ sig) (StableHlo.after (List.flatten [hostOps1]) (Wx m c)) : sProp 𝕄)
      ⊢ iprop((dats m 0 c).arrays ((dats m 0 c).arrAt · cfg0.N) ∗ Pipeline.unscopedRest spec0 c (Vfin m c)) := by
  rw [← Pipeline.unscopedBufs_held (Ix := Unit) (Name := ℕ) (U := UR sig nD τ) (Lvl := ℕ) c (StableHlo.after (List.flatten [hostOps1]) (Wx m c)),
    Pipeline.unscopedBufs_split₀ cfgs (0 : Fin 1) winFacts₀0.arr_unscoped c]
  iintro ⟨Ha, Hz⟩
  isplitl [Ha]
  · iapply (arrays_iff_arrBufs m c _ _ (fun w => (Vfin_arr m c w).symm)).1; iexact Ha
  · iexact Hz

set_option backward.isDefEq.respectTransparency.types false in
/-- The host lines after the region, run from the region's exit. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (Vfin m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain ([hostOps1].map StableHlo.seq)) Q' := by
  rw [Pipeline.unscopedRestP_none, Pipeline.unscopedRestP_none, ← List.append_nil ([hostOps1].map StableHlo.seq)]
  iintro ⟨Hk, Hb, Ha, Hz⟩
  ihave Hh := (exit_held m c) $$ [Ha Hz]
  · isplitl [Ha]; · iexact Ha
    iexact Hz
  iapply (Pipeline.wp_seqs_then (fun q => (cfgs q).toPCfg (Val := Elt F)) defs₀ Variants.none c (Pipeline.ucRefs τ sig) [] [hostOps1]
    (fun ops ho op h => by
      simp only [List.mem_cons, List.mem_nil_iff, or_false] at ho; subst ho
      exact Pipeline.sub_ucRefs op ((List.forall_iff_forall_mem.mp hostOps1_sub) op h))
    (fun ops ho op h => by
      simp only [List.mem_cons, List.mem_nil_iff, or_false] at ho; subst ho
      exact (List.forall_iff_forall_mem.mp hostOps1_fresh) op h) (Wx m c)) $$ [Hb Hh]
  · isplitl [Hb]; · iexact Hb
    iexact Hh
  iintro ⟨Hb, Hh⟩
  rw [Pipeline.chain_nil, wp_pure]
  imodintro
  iapply Hk
  iapply (held_exit m c)
  iexact Hh

end Tail

/-! ## The run -/

set_option backward.isDefEq.respectTransparency.types false in
/-- Every weakly fair execution of the program terminates; at the end every window's array holds what the
    write-backs made of it, and every other unscoped buffer what the host lines after the region left. -/
theorem run_main : θ_run defs (onTc (τ := τ) (main (F := F))) ⟨m, fun _ => 0, ρ⟩
    (fun r => ∀ c : Dev nD,
      (∀ w : Fin cfg0.W, r.2.mem ((spec0 w).arr.view.loc (c.tc : Thread nD τ)) = (dats m 0 c).arrAt w cfg0.N)
      ∧ ∀ b ∈ Pipeline.restRefsP sig Pipeline.Prefetch.none spec0, r.2.mem ((c.tc : Thread nD τ).loc b) = Vfin m c b) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff_arrBufs m c _ _ fun w => rfl).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vfin m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m c Q')
    (QY := fun c s => ∀ b ∈ Pipeline.restRefsP sig Pipeline.Prefetch.none spec0, s.mem ((c.tc : Thread nD τ).loc b) = Vfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vfin m c) s')
      isplitl [HU] <;> iassumption)
    (hQ := fun s h c => ⟨(h c).1, (h c).2.2⟩)

/-! ## The frame -/

theorem pre_keeps_arg0 : ∀ op ∈ (List.flatten [hostOps0] : List (HloOp τ sig (Elt F))), Proc.devRef .tc main_arg0 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

theorem pre_keeps_arg1 : ∀ op ∈ (List.flatten [hostOps0] : List (HloOp τ sig (Elt F))), Proc.devRef .tc main_arg1 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

theorem tail_keeps_arg1 : ∀ op ∈ (List.flatten [hostOps1] : List (HloOp τ sig (Elt F))), Proc.devRef .tc main_arg1 ∉ op.writes := by
  intro op hop
  simp only [List.flatten_cons, List.flatten_nil, List.append_nil, hostOps1, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

/-- The host lines write neither argument. -/
theorem V_main_arg0 (c : Dev nD) : V m c main_arg0 = m ((c : Thread nD τ).loc main_arg0) :=
  StableHlo.after_of_forall_not_mem _ _ pre_keeps_arg0
theorem V_main_arg1 (c : Dev nD) : V m c main_arg1 = m ((c : Thread nD τ).loc main_arg1) :=
  StableHlo.after_of_forall_not_mem _ _ pre_keeps_arg1
theorem Vfin_main_arg1 (c : Dev nD) : Vfin m c main_arg1 = m ((c : Thread nD τ).loc main_arg1) := by
  show StableHlo.after (List.flatten [hostOps1]) (Wx m c) (Proc.devRef .tc main_arg1) = _
  rw [StableHlo.after_of_forall_not_mem _ _ tail_keeps_arg1, Wx_rest m c main_arg1 (by decide)]
  exact V_main_arg1 m c

/-- The program runs to the end, faults nowhere, and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (by decide)).trans (Vfin_main_arg1 m c)⟩) (run_main m ρ)

end Cert.Kernel.Gen

end
-- ==== Proof.IdealBody.lean ====
/-
  One run of the kernel body on eight whole staging buffers. The six input buffers hold given contents and are
  handed back as they were; the two output buffers (the per-tile triplet sums and the per-tile valid counts, one
  entry per 256-row tile of the 2048-row block) are handed back with the body's stores written over whatever
  they held. The eight inner loops over the 1024-column chunks are passed through by their invariants: the
  running row-wise maximum over the positive pairs and minimum over the negative pairs.
-/
import proofs.«149814_j11527692222870_2_alg».proof.Proof.Gen.KernelIdeal.Launch
import proofs.«149814_j11527692222870_2_alg».proof.Proof.Gen.KernelIdeal.Skeleton
import proofs.«149814_j11527692222870_2_alg».proof.Proof.Gen.KernelIdeal.Loops
import proofs.«149814_j11527692222870_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body stores into the two output buffers (found by the run), with the body's triple. -/
noncomputable def kernelRun (c : Dev nD) (i : grid0.Coords)
    (arg1 : Memref sig .tc .vmem S2048x128 .f32) (harg1 : arg1.IsWhole) (arg2 : Memref sig .tc .vmem S8192x128 .f32) (harg2 : arg2.IsWhole)
    (arg3 : Memref sig .tc .vmem S2048x1 .f32) (harg3 : arg3.IsWhole) (arg4 : Memref sig .tc .vmem S1x8192 .f32) (harg4 : arg4.IsWhole)
    (arg5 : Memref sig .tc .vmem S2048x1 .i32) (harg5 : arg5.IsWhole) (arg6 : Memref sig .tc .vmem S1x8192 .i32) (harg6 : arg6.IsWhole)
    (arg7 : Memref sig .tc .vmem S8x1 .f32) (harg7 : arg7.IsWhole) (arg8 : Memref sig .tc .vmem S8x1 .f32) (harg8 : arg8.IsWhole)
    (x0 : Vec F S2048x128 .f32) (x1 : Vec F S8192x128 .f32) (x2 : Vec F S2048x1 .f32) (x3 : Vec F S1x8192 .f32)
    (x4 : Vec F S2048x1 .i32) (x5 : Vec F S1x8192 .i32) :
    Σ' (L7 : List (View.Piece (Elt F) S8x1 .f32)), { L8 : List (View.Piece (Elt F) S8x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E
              (cc0__triplet_kernel i arg1 harg1 arg2 harg2 arg3 harg3 arg4 harg4 arg5 harg5 arg6 harg6 arg7 harg7 arg8 harg8) K } := by
  refine ⟨?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    iexists _; iexact H7

end Cert.KernelIdeal.Gen

end
-- ==== Proof.IdealKit.lean ====
/-
  The kernel's launch, first half: what the region finds and what each grid point leaves.
  The host lines before the region compute the row norms ‖x_r‖² and lay the norms and the labels out as a column
  and as a row; the region's eight windows then read the embeddings twice (a 2048-row tile per grid point, and the
  whole array once), the norms and the labels each as a 2048-row tile and as a whole row, and write two 8-entry
  blocks per point (one entry per 256-row tile: the tile's sum of hinge terms and its count of valid anchors).
  Every input buffer holds its block of the array at every point; each output buffer is left at what the body's
  one whole-block store wrote.
-/
import proofs.«149814_j11527692222870_2_alg».proof.Proof.Gen.KernelIdeal.Launch
import proofs.«149814_j11527692222870_2_alg».proof.Proof.Gen.KernelIdeal.Skeleton
import proofs.«149814_j11527692222870_2_alg».proof.Proof.Gen.KernelIdeal.Loops
import proofs.«149814_j11527692222870_2_alg».proof.Proof.Gen.KernelIdeal.Points
import Idealize.ShloMosaic.Lib.Pipeline.FrameBody
import Idealize.ShloMosaic.Lib.Ring
import Idealize.ShloMosaic.Lib.Tactic
import proofs.«149814_j11527692222870_2_alg».proof.Proof.IdealBody
import Idealize.ShloMosaic.Lib.Pipeline.FrameSuffix
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- One staging buffer of each output window, through which its contents are stated (the choice does not matter). -/
abbrev VO0_6 : View sig .tc .vmem S8x1 .f32 := (Memref.whole cc0_stg6_0 : Memref sig .tc .vmem S8x1 .f32).view
abbrev VO0_7 : View sig .tc .vmem S8x1 .f32 := (Memref.whole cc0_stg7_0 : Memref sig .tc .vmem S8x1 .f32).view

/-- Each window's current staging buffer at point `t`, and its wholeness. -/
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1 .f32 := win0_7.stage (cfg0.slots t 7)
abbrev hs0_7 (t : Fin cfg0.N) : (ms0_7 t).IsWhole := hstage0_7 ((cfg0.slots t 7).cast nbuf0_7)

/-! ## What the body leaves in the two outputs -/

/-- The body's run at point `t`, on the point's buffers and input blocks. -/
abbrev runAt (c : Dev nD) (t : Fin cfg0.N) :=
  kernelRun (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (iblk m c 0 t) (iblk m c 1 t) (iblk m c 2 t) (iblk m c 3 t) (iblk m c 4 t) (iblk m c 5 t)

/-- The one store into each output covers its block. -/
theorem cover0_6 (c : Dev nD) (t : Fin cfg0.N) (y : S8x1.Idx) : ∃ pc ∈ (runAt m c t).1, y ∈ pc.1.set :=
  View.cover_of_tiledL (runAt m c t).1 S8x1.size (by sl_kernel_rfl) y
theorem cover0_7 (c : Dev nD) (t : Fin cfg0.N) (y : S8x1.Idx) : ∃ pc ∈ (runAt m c t).2.1, y ∈ pc.1.set :=
  View.cover_of_tiledL (runAt m c t).2.1 S8x1.size (by sl_kernel_rfl) y

/-- What point `t` leaves in the sums' buffer and in the counts' buffer: the stored pieces read back. -/
def out0_6 (c : Dev nD) (t : Fin cfg0.N) : Vec F S8x1 .f32 :=
  VO0_6.read (Elt F) (VO0_6.writes (Elt F) VO0_6.junk (runAt m c t).1)
def out0_7 (c : Dev nD) (t : Fin cfg0.N) : Vec F S8x1 .f32 :=
  VO0_7.read (Elt F) (VO0_7.writes (Elt F) VO0_7.junk (runAt m c t).2.1)

/-! ## The proof data -/

/-- The arrays as the region finds them; after the body each input buffer at its block and each output buffer at what
    the point stored; the two windows on the embeddings each hold half of that array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 m c t
    | ⟨7, _⟩ => out0_7 m c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 m c t := by dsimp only [dats]
theorem after0_7 (c : Dev nD) (t : Fin cfg0.N) : (dats m 0 c).after 7 t = out0_7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point: the inputs' buffers hold their blocks, so the run applies; each output buffer ends at its
    stored pieces, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold out0_6 out0_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt m c t).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_6 m c t)
  · unfold owns; iexists _; isplitr
    swap; · iexact H7
    ipureintro; exact View.read_writes_of_cover _ _ _ _ _ (cover0_7 m c t)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Gen

end
-- ==== Proof.IdealLaunch.lean ====
/-
  The kernel's launch, second half: the whole program's run.
  The embeddings' array is read by two windows; its share is dealt in two halves, one per window, and joined again
  when the region is left. After the region the host lines add up the 32 per-tile sums and the 32 per-tile counts
  and divide the first total by the larger of the second and one.
-/
import proofs.«149814_j11527692222870_2_alg».proof.Proof.Gen.KernelIdeal.Launch
import proofs.«149814_j11527692222870_2_alg».proof.Proof.Gen.KernelIdeal.Skeleton
import proofs.«149814_j11527692222870_2_alg».proof.Proof.Gen.KernelIdeal.Loops
import proofs.«149814_j11527692222870_2_alg».proof.Proof.Gen.KernelIdeal.Points
import Idealize.ShloMosaic.Lib.Pipeline.FrameBody
import Idealize.ShloMosaic.Lib.Ring
import Idealize.ShloMosaic.Lib.Tactic
import proofs.«149814_j11527692222870_2_alg».proof.Proof.IdealKit
import Idealize.ShloMosaic.Lib.Pipeline.FrameSuffix
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays -/

/-- A window's array, a whole buffer, held at a share. -/
theorem arr_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [show (cfg0.win w).arr.view.set = Finset.univ from (arr_whole0 w).set_eq_univ]

theorem share0_0 (c : Dev nD) : (dats m 0 c).share 0 = fullShare.left := by unfold Dat.share; rfl
theorem share0_1 (c : Dev nD) : (dats m 0 c).share 1 = fullShare.right := by unfold Dat.share; rfl
theorem share0_2 (c : Dev nD) : (dats m 0 c).share 2 = fullShare := by unfold Dat.share; rfl
theorem share0_3 (c : Dev nD) : (dats m 0 c).share 3 = fullShare := by unfold Dat.share; rfl
theorem share0_4 (c : Dev nD) : (dats m 0 c).share 4 = fullShare := by unfold Dat.share; rfl
theorem share0_5 (c : Dev nD) : (dats m 0 c).share 5 = fullShare := by unfold Dat.share; rfl
theorem share0_6 (c : Dev nD) : (dats m 0 c).share 6 = fullShare := by unfold Dat.share; rfl
theorem share0_7 (c : Dev nD) : (dats m 0 c).share 7 = fullShare := by unfold Dat.share; rfl

set_option maxHeartbeats 4000000 in
/-- The eight windows' arrays, one by one: the embeddings twice, at the two halves of the share. -/
theorem arrays_chain (c : Dev nD) (Fx : (w : Fin cfg0.W) → Buf (Elt F) ((cfg0.win w).arr.view.loc (c : Thread nD τ))) :
    (dats m 0 c).arrays Fx = iprop(
      (((c : Thread nD τ).loc main_arg0) ↦{fullShare.left} Fx 0) ∗ (((c : Thread nD τ).loc main_arg0) ↦{fullShare.right} Fx 1)
      ∗ (((c : Thread nD τ).loc main_v2) ↦{fullShare} Fx 2) ∗ (((c : Thread nD τ).loc main_v3) ↦{fullShare} Fx 3)
      ∗ (((c : Thread nD τ).loc main_v4) ↦{fullShare} Fx 4) ∗ (((c : Thread nD τ).loc main_v5) ↦{fullShare} Fx 5)
      ∗ (((c : Thread nD τ).loc main_v6_0) ↦{fullShare} Fx 6) ∗ (((c : Thread nD τ).loc main_v6_1) ↦{fullShare} Fx 7)) := by
  unfold Dat.arrays
  rw [bigSep_W0]
  beta_reduce
  rw [arr_pt c 0, arr_pt c 1, arr_pt c 2, arr_pt c 3, arr_pt c 4, arr_pt c 5, arr_pt c 6, arr_pt c 7,
    share0_0, share0_1, share0_2, share0_3, share0_4, share0_5, share0_6, share0_7]

/-- The distinct buffers behind the arrays, one by one. -/
theorem arrBufs_chain (c : Dev nD) (Vx : (b : Ref sig .tc) → Buf (Elt F) ((c : Thread nD τ).loc b)) :
    (Pipeline.arrBufs spec0 c Vx : sProp 𝕄) = iprop(
      (((c : Thread nD τ).loc main_arg0) ↦{fullShare} Vx main_arg0)
      ∗ (((c : Thread nD τ).loc main_v2) ↦{fullShare} Vx main_v2) ∗ (((c : Thread nD τ).loc main_v3) ↦{fullShare} Vx main_v3)
      ∗ (((c : Thread nD τ).loc main_v4) ↦{fullShare} Vx main_v4) ∗ (((c : Thread nD τ).loc main_v5) ↦{fullShare} Vx main_v5)
      ∗ (((c : Thread nD τ).loc main_v6_0) ↦{fullShare} Vx main_v6_0) ∗ (((c : Thread nD τ).loc main_v6_1) ↦{fullShare} Vx main_v6_1)) := by
  unfold Pipeline.arrBufs
  rw [bigSep_eq_bigSepL_of_eq [main_arg0, main_v2, main_v3, main_v4, main_v5, main_v6_0, main_v6_1] (by decide) (by decide)]
  rfl

/-- The buffers behind the arrays at contents `Vx` are the windows' arrays at the same contents, and back. -/
theorem arrays_iff_arrBufs (c : Dev nD) (Vx : (b : Ref sig .tc) → Buf (Elt F) ((c : Thread nD τ).loc b))
    (Fx : (w : Fin cfg0.W) → Buf (Elt F) ((cfg0.win w).arr.view.loc (c : Thread nD τ))) (hF : ∀ w, Fx w = Vx (Pipeline.arrRef spec0 w)) :
    (Pipeline.arrBufs spec0 c Vx : sProp 𝕄) ⊣⊢ (dats m 0 c).arrays Fx := by
  rw [arrays_chain, arrBufs_chain, hF 0, hF 1, hF 2, hF 3, hF 4, hF 5, hF 6, hF 7]
  constructor
  · iintro ⟨H0, H2, H3, H4, H5, H6, H7⟩
    ihave H0' := (pointsTo_share (PosShare.mem_left_op_right fullShare)).1 $$ H0
    icases H0' with ⟨H0l, H0r⟩
    isplitl [H0l]; · iexact H0l
    isplitl [H0r]; · iexact H0r
    isplitl [H2]; · iexact H2
    isplitl [H3]; · iexact H3
    isplitl [H4]; · iexact H4
    isplitl [H5]; · iexact H5
    isplitl [H6]; · iexact H6
    iexact H7
  · iintro ⟨H0l, H0r, H2, H3, H4, H5, H6, H7⟩
    isplitl [H0l H0r]
    · iapply (pointsTo_share (PosShare.mem_left_op_right fullShare)).2
      isplitl [H0l]; · iexact H0l
      iexact H0r
    isplitl [H2]; · iexact H2
    isplitl [H3]; · iexact H3
    isplitl [H4]; · iexact H4
    isplitl [H5]; · iexact H5
    isplitl [H6]; · iexact H6
    iexact H7

/-! ## After the region -/

section Tail
open Classical

/-- The buffers' contents when the region is left: the two outputs at what the write-backs left, every other buffer
    as the region found it. -/
def Wx (c : Dev nD) : Valuation τ sig (Elt F) :=
  Function.update (Function.update (V0 m c) (Proc.devRef .tc main_v6_0) ((dats m 0 c).arrAt 6 cfg0.N))
    (Proc.devRef .tc main_v6_1) ((dats m 0 c).arrAt 7 cfg0.N)

/-- The buffers' contents at the end: after the host lines that follow the region. -/
abbrev Vfin (c : Dev nD) (b : Ref sig .tc) : Buf (Elt F) ((c : Thread nD τ).loc b) :=
  StableHlo.after (List.flatten [hostOps1]) (Wx m c) (Proc.devRef .tc b)

/-- Every window's array leaves the region at what the write-backs made of it (an input's: unchanged). -/
theorem Wx_arr (c : Dev nD) (w : Fin cfg0.W) : Wx m c (Proc.devRef .tc (Pipeline.arrRef spec0 w)) = (dats m 0 c).arrAt w cfg0.N := by
  unfold Wx
  fin_cases w
  · rw [Function.update_of_ne (StableHlo.devRef_ne_of_ne (by decide)), Function.update_of_ne (StableHlo.devRef_ne_of_ne (by decide))]; exact ((dats m 0 c).arrAt_in 0 rfl _).symm
  · rw [Function.update_of_ne (StableHlo.devRef_ne_of_ne (by decide)), Function.update_of_ne (StableHlo.devRef_ne_of_ne (by decide))]; exact ((dats m 0 c).arrAt_in 1 rfl _).symm
  · rw [Function.update_of_ne (StableHlo.devRef_ne_of_ne (by decide)), Function.update_of_ne (StableHlo.devRef_ne_of_ne (by decide))]; exact ((dats m 0 c).arrAt_in 2 rfl _).symm
  · rw [Function.update_of_ne (StableHlo.devRef_ne_of_ne (by decide)), Function.update_of_ne (StableHlo.devRef_ne_of_ne (by decide))]; exact ((dats m 0 c).arrAt_in 3 rfl _).symm
  · rw [Function.update_of_ne (StableHlo.devRef_ne_of_ne (by decide)), Function.update_of_ne (StableHlo.devRef_ne_of_ne (by decide))]; exact ((dats m 0 c).arrAt_in 4 rfl _).symm
  · rw [Function.update_of_ne (StableHlo.devRef_ne_of_ne (by decide)), Function.update_of_ne (StableHlo.devRef_ne_of_ne (by decide))]; exact ((dats m 0 c).arrAt_in 5 rfl _).symm
  · rw [Function.update_of_ne (StableHlo.devRef_ne_of_ne (by decide))]; exact Function.update_self ..
  · exact Function.update_self ..

/-- A buffer that is no window's array leaves the region as it entered it. -/
theorem Wx_rest (c : Dev nD) (b : Ref sig .tc) (hb : b ∈ Pipeline.restRefs sig spec0) : Wx m c (Proc.devRef .tc b) = V0 m c (Proc.devRef .tc b) := by
  have h := (Finset.mem_sdiff.mp hb).2
  have h6 : b ≠ main_v6_0 := fun e => h (Finset.mem_image.mpr ⟨6, Finset.mem_univ _, by rw [e]⟩)
  have h7 : b ≠ main_v6_1 := fun e => h (Finset.mem_image.mpr ⟨7, Finset.mem_univ _, by rw [e]⟩)
  unfold Wx
  rw [Function.update_of_ne (StableHlo.devRef_ne_of_ne h7), Function.update_of_ne (StableHlo.devRef_ne_of_ne h6)]

/-- The host lines after the region write no window's array. -/
theorem tail_keeps : ∀ op ∈ (List.flatten [hostOps1] : List (HloOp τ sig (Elt F))), ∀ w, Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, Finset.mem_singleton] <;> exact StableHlo.devRef_ne_of_ne (by decide)

theorem Vfin_arr (c : Dev nD) (w : Fin cfg0.W) : Vfin m c (Pipeline.arrRef spec0 w) = (dats m 0 c).arrAt w cfg0.N := by
  show StableHlo.after (List.flatten [hostOps1]) (Wx m c) (Proc.devRef .tc (Pipeline.arrRef spec0 w)) = _
  rw [StableHlo.after_of_forall_not_mem _ _ (fun op hop => tail_keeps op hop w), Wx_arr]

/-- Leaving the region: the arrays and the bypassing buffers are all the unscoped buffers at the exit contents. -/
theorem exit_held (c : Dev nD) :
    iprop((dats m 0 c).arrays ((dats m 0 c).arrAt · cfg0.N) ∗ Pipeline.unscopedRest spec0 c (V m c))
      ⊢ (StableHlo.held (c.tc : Thread nD τ) (Pipeline.ucRefs τ sig) (Wx m c) : sProp 𝕄) := by
  rw [← Pipeline.unscopedBufs_held (Ix := Unit) (Name := ℕ) (U := UR sig nD τ) (Lvl := ℕ) c (Wx m c),
    Pipeline.unscopedBufs_split₀ cfgs (0 : Fin 1) winFacts₀0.arr_unscoped c]
  iintro ⟨Ha, Hz⟩
  isplitl [Ha]
  · iapply (arrays_iff_arrBufs m c _ _ (fun w => (Wx_arr m c w).symm)).2; iexact Ha
  · iapply (Entails.of_eq (show (Pipeline.unscopedRest spec0 c (V m c) : sProp 𝕄) = Pipeline.unscopedRest spec0 c (fun b => Wx m c (Proc.devRef .tc b)) from by
      unfold Pipeline.unscopedRest; exact bigSep_congr fun b hb => by beta_reduce; rw [Wx_rest m c b hb]))
    iexact Hz

/-- And back, at the end. -/
theorem held_exit (c : Dev nD) :
    (StableHlo.held (c.tc : Thread nD τ) (Pipeline.ucRefs τ sig) (StableHlo.after (List.flatten [hostOps1]) (Wx m c)) : sProp 𝕄)
      ⊢ iprop((dats m 0 c).arrays ((dats m 0 c).arrAt · cfg0.N) ∗ Pipeline.unscopedRest spec0 c (Vfin m c)) := by
  rw [← Pipeline.unscopedBufs_held (Ix := Unit) (Name := ℕ) (U := UR sig nD τ) (Lvl := ℕ) c (StableHlo.after (List.flatten [hostOps1]) (Wx m c)),
    Pipeline.unscopedBufs_split₀ cfgs (0 : Fin 1) winFacts₀0.arr_unscoped c]
  iintro ⟨Ha, Hz⟩
  isplitl [Ha]
  · iapply (arrays_iff_arrBufs m c _ _ (fun w => (Vfin_arr m c w).symm)).1; iexact Ha
  · iexact Hz

set_option backward.isDefEq.respectTransparency.types false in
/-- The host lines after the region, run from the region's exit. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (Vfin m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain ([hostOps1].map StableHlo.seq)) Q' := by
  rw [Pipeline.unscopedRestP_none, Pipeline.unscopedRestP_none, ← List.append_nil ([hostOps1].map StableHlo.seq)]
  iintro ⟨Hk, Hb, Ha, Hz⟩
  ihave Hh := (exit_held m c) $$ [Ha Hz]
  · isplitl [Ha]; · iexact Ha
    iexact Hz
  iapply (Pipeline.wp_seqs_then (fun q => (cfgs q).toPCfg (Val := Elt F)) defs₀ Variants.none c (Pipeline.ucRefs τ sig) [] [hostOps1]
    (fun ops ho op h => by
      simp only [List.mem_cons, List.mem_nil_iff, or_false] at ho; subst ho
      exact Pipeline.sub_ucRefs op ((List.forall_iff_forall_mem.mp hostOps1_sub) op h))
    (fun ops ho op h => by
      simp only [List.mem_cons, List.mem_nil_iff, or_false] at ho; subst ho
      exact (List.forall_iff_forall_mem.mp hostOps1_fresh) op h) (Wx m c)) $$ [Hb Hh]
  · isplitl [Hb]; · iexact Hb
    iexact Hh
  iintro ⟨Hb, Hh⟩
  rw [Pipeline.chain_nil, wp_pure]
  imodintro
  iapply Hk
  iapply (held_exit m c)
  iexact Hh

end Tail

/-! ## The run -/

set_option backward.isDefEq.respectTransparency.types false in
/-- Every weakly fair execution of the program terminates; at the end every window's array holds what the
    write-backs made of it, and every other unscoped buffer what the host lines after the region left. -/
theorem run_main : θ_run defs (onTc (τ := τ) (main (F := F))) ⟨m, fun _ => 0, ρ⟩
    (fun r => ∀ c : Dev nD,
      (∀ w : Fin cfg0.W, r.2.mem ((spec0 w).arr.view.loc (c.tc : Thread nD τ)) = (dats m 0 c).arrAt w cfg0.N)
      ∧ ∀ b ∈ Pipeline.restRefsP sig Pipeline.Prefetch.none spec0, r.2.mem ((c.tc : Thread nD τ).loc b) = Vfin m c b) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff_arrBufs m c _ _ fun w => rfl).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vfin m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m c Q')
    (QY := fun c s => ∀ b ∈ Pipeline.restRefsP sig Pipeline.Prefetch.none spec0, s.mem ((c.tc : Thread nD τ).loc b) = Vfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vfin m c) s')
      isplitl [HU] <;> iassumption)
    (hQ := fun s h c => ⟨(h c).1, (h c).2.2⟩)

/-! ## The frame -/

theorem pre_keeps_arg0 : ∀ op ∈ (List.flatten [hostOps0] : List (HloOp τ sig (Elt F))), Proc.devRef .tc main_arg0 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

theorem pre_keeps_arg1 : ∀ op ∈ (List.flatten [hostOps0] : List (HloOp τ sig (Elt F))), Proc.devRef .tc main_arg1 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

theorem tail_keeps_arg1 : ∀ op ∈ (List.flatten [hostOps1] : List (HloOp τ sig (Elt F))), Proc.devRef .tc main_arg1 ∉ op.writes := by
  intro op hop
  simp only [List.flatten_cons, List.flatten_nil, List.append_nil, hostOps1, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

/-- The host lines write neither argument. -/
theorem V_main_arg0 (c : Dev nD) : V m c main_arg0 = m ((c : Thread nD τ).loc main_arg0) :=
  StableHlo.after_of_forall_not_mem _ _ pre_keeps_arg0
theorem V_main_arg1 (c : Dev nD) : V m c main_arg1 = m ((c : Thread nD τ).loc main_arg1) :=
  StableHlo.after_of_forall_not_mem _ _ pre_keeps_arg1
theorem Vfin_main_arg1 (c : Dev nD) : Vfin m c main_arg1 = m ((c : Thread nD τ).loc main_arg1) := by
  show StableHlo.after (List.flatten [hostOps1]) (Wx m c) (Proc.devRef .tc main_arg1) = _
  rw [StableHlo.after_of_forall_not_mem _ _ tail_keeps_arg1, Wx_rest m c main_arg1 (by decide)]
  exact V_main_arg1 m c

/-- The program runs to the end, faults nowhere, and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (by decide)).trans (Vfin_main_arg1 m c)⟩) (run_main m ρ)

end Cert.KernelIdeal.Gen

end
-- ==== Proof.IdealValueRun.lean ====
/-
  The kernel's run with its result named: at the end the result buffer holds what the host lines after the region
  computed from the two output arrays, and both arguments are unchanged.
-/
import proofs.«149814_j11527692222870_2_alg».proof.Proof.IdealLaunch

set_option maxRecDepth 16384

noncomputable section

namespace Cert.KernelIdeal.Gen

open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v10) = Vfin m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v10 (by decide),
      ((h c).1 0).trans (((dats m 0 c).arrAt_in 0 rfl _).trans ((A_eq m c 0).trans (V_main_arg0 m c))),
      ((h c).2 main_arg1 (by decide)).trans (Vfin_main_arg1 m c)⟩) (run_main m ρ)

end Cert.KernelIdeal.Gen

end
-- ==== Proof.LibColRow.lean ====
/-
  Column and row broadcasts of small rank, and a vector viewed as a column, read at an index.

  • A column `[R, 1]` spread over `C` columns reads, at `(p, q)`, the column's entry `(p, 0)`.
  • A row `[1, C]` repeated over `R` rows reads, at `(p, q)`, the row's entry `(0, q)`.
  • A vector `[R]` viewed as a column `[R, 1]` reads, at `(p, 0)`, the vector's entry `p`; a vector `[C]` viewed as a
    row `[1, C]` reads, at `(0, q)`, the vector's entry `q`.
  General in the extents and the element type.
-/
import Idealize.ShloMosaic.Lib.ValueIdx
import Idealize.ShloMosaic.Lib.Pipeline.Value

noncomputable section

namespace Cert.LibColRow

open Idealize.ShloMosaic Idealize.ShloMosaic.ValueIdx

variable {α : Type}

/-- A column `[R, 1]` broadcast to `[R, C]`, at `(p, q)`: the column at `(p, 0)`. -/
theorem bcastTo_col_apply {R C : Nat} (h : (⟨2, ![R, 1]⟩ : Shape).Broadcasts ⟨2, ![R, C]⟩)
    (x : (⟨2, ![R, 1]⟩ : Shape).Idx → α) (p : Fin R) (q : Fin C) :
    broadcastTo ⟨2, ![R, C]⟩ x h (ix2 p q) = x (ix2 p (0 : Fin 1)) := by
  refine broadcastTo_apply x h (ix2 p q) (ix2 p (0 : Fin 1)) fun a => ?_
  match a with
  | ⟨0, _⟩ =>
    show p.val = if R = 1 then 0 else p.val
    split
    · next h1 => have := p.isLt; omega
    · rfl
  | ⟨1, _⟩ =>
    show 0 = if (1 : Nat) = 1 then 0 else q.val
    rw [if_pos rfl]

/-- A row `[1, C]` broadcast to `[R, C]`, at `(p, q)`: the row at `(0, q)`. -/
theorem bcastTo_row_apply {R C : Nat} (h : (⟨2, ![1, C]⟩ : Shape).Broadcasts ⟨2, ![R, C]⟩)
    (x : (⟨2, ![1, C]⟩ : Shape).Idx → α) (p : Fin R) (q : Fin C) :
    broadcastTo ⟨2, ![R, C]⟩ x h (ix2 p q) = x (ix2 (0 : Fin 1) q) := by
  refine broadcastTo_apply x h (ix2 p q) (ix2 (0 : Fin 1) q) fun a => ?_
  match a with
  | ⟨0, _⟩ =>
    show 0 = if (1 : Nat) = 1 then 0 else p.val
    rw [if_pos rfl]
  | ⟨1, _⟩ =>
    show q.val = if C = 1 then 0 else q.val
    split
    · next h1 => have := q.isLt; omega
    · rfl

/-- A vector `[R]` viewed as a column `[R, 1]`, at `(p, z)`: the vector at `p`. -/
theorem shapeCast_col_apply {R : Nat} (h : (⟨1, ![R]⟩ : Shape).ShapeCasts ⟨2, ![R, 1]⟩)
    (x : (⟨1, ![R]⟩ : Shape).Idx → α) (p : Fin R) (z : Fin 1) :
    shapeCast ⟨2, ![R, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- A vector `[C]` viewed as a row `[1, C]`, at `(z, q)`: the vector at `q`. -/
theorem shapeCast_row_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  show q.val = z.val * C + q.val
  have := z.isLt
  have hz : z.val = 0 := by omega
  rw [hz, Nat.zero_mul, Nat.zero_add]

end Cert.LibColRow

end
-- ==== Proof.LibPlainMatmul.lean ====
/-
  A matrix product into a zero accumulator, read at an entry — for ANY record of dimension numbers that contracts the
  left operand's second axis with the right operand's first axis (one contracted axis, no batch axis).

  `matmul0_plain`: given the record's operand indices in coordinates (the left operand is read at `(r, k)`, the right at
  `(k, c)`, `k` the one coordinate of the contraction index — four facts a concrete record proves by unfolding), entry
  `(r, c)` of the product into the zero constant is `∑ k, a (r, k) * b (k, c)` over the extended reals. General in the
  three extents and the operand formats.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

/-- Entry `(r, c)` of `a · b` accumulated into zero is the sum over the contracted coordinate. -/
theorem matmul0_plain {M K N : Nat} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (prec : Option ContractPrecision) (a : FVec Ideal ⟨2, ![M, K]⟩ φ₁) (b : FVec Ideal ⟨2, ![K, N]⟩ φ₂)
    (r : Fin M) (c : Fin N) :
    matmul D prec a b (constant (F := Ideal) ⟨2, ![M, N]⟩ .f32 0x00000000#32) (ix2 r c)
      = ∑ k : Fin K, a (ix2 r k) * b (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun x => Fin.ext (by
    match x with
    | ⟨0, _⟩ => exact hl0 _ _
    | ⟨1, _⟩ => exact (hl1 _ _).trans hk)
  have er : D.rhsIdx (ix2 r c) ((contrEquiv1 D K hr hs).symm k) = ix2 k c := funext fun x => Fin.ext (by
    match x with
    | ⟨0, _⟩ => exact (hr0 _ _).trans hk
    | ⟨1, _⟩ => exact hr1 _ _)
  rw [el, er]

end Cert.LibPlainMatmul

end
-- ==== Proof.Lits.lean ====
/-
  The five float literals the two programs use, read as extended reals: 0, 1, 2, −∞ and +∞.
-/
import Idealize.ShloMosaic.PureOps.Ideal
import Idealize.ShloMosaic.PureOps.Ideal.Laws

namespace Cert.Lits

open Idealize.ShloMosaic

/-- The all-zero pattern denotes 0. -/
theorem zero : Ideal.ofBits .f32 0x00000000#32 = 0 := Ideal.ofBits_zero_f32

/-- Biased exponent 127, empty fraction: 2⁰ = 1. -/
theorem one : Ideal.ofBits .f32 0x3F800000#32 = 1 := by
  simp [Ideal.ofBits, Ideal.ieee, -EReal.coe_mul]; norm_num

/-- Biased exponent 128, empty fraction: 2¹ = 2. -/
theorem two : Ideal.ofBits .f32 0x40000000#32 = 2 := by
  simp [Ideal.ofBits, Ideal.ieee, -EReal.coe_mul]; norm_num
  norm_cast

/-- Sign set, exponent all ones, empty fraction: −∞. -/
theorem negInf : Ideal.ofBits .f32 0xFF800000#32 = ⊥ := by
  simp [Ideal.ofBits, Ideal.ieee]

/-- Sign clear, exponent all ones, empty fraction: +∞. -/
theorem posInf : Ideal.ofBits .f32 0x7F800000#32 = ⊤ := by
  simp [Ideal.ofBits, Ideal.ieee]

end Cert.Lits
-- ==== Proof.IdealTile.lean ====
/-
  One 256-row tile of anchors against one 1024-column chunk, index by index over the extended reals.
  The squared distance of anchor p to column q is (n_p + n_q) − 2·∑ₖ x_p,k · y_q,k; a pair is positive when the labels
  agree and the global row and column numbers differ, negative when the labels differ. One step of the running
  maximum takes, per anchor, the larger of the carried value and the largest squared distance over the chunk's
  positive columns (−∞ where there is none); the running minimum likewise over the negative columns (+∞).
-/
import proofs.«149814_j11527692222870_2_alg».proof.Proof.Gen.KernelIdeal.Skeleton
import proofs.«149814_j11527692222870_2_alg».proof.Proof.LibColRow
import proofs.«149814_j11527692222870_2_alg».proof.Proof.LibPlainMatmul
import proofs.«149814_j11527692222870_2_alg».proof.Proof.Lits
import Idealize.ShloMosaic.Lib.ValueIdx
import Idealize.ShloMosaic.Lib.Affine
import Idealize.ShloMosaic.Lib.ValueLayout
import Idealize.ShloMosaic.Lib.Pipeline.Value
import Idealize.ShloMosaic.PureOps.Ideal.Laws

set_option maxRecDepth 16384

noncomputable section

namespace Cert.KernelIdeal.Tile

open Cert.KernelIdeal
open Cert.KernelIdeal.Gen (k0_pay4 k0_pay5 k0_pay6 k0_pay7)
open Idealize.ShloMosaic Idealize.ShloMosaic.TcCoe Idealize.ShloMosaic.ValueIdx
open Cert.KernelIdeal.Facts₀ Cert.KernelIdeal.Facts

variable {F : FTy → Type} [FloatOps F]

/-- One step of the running maximum for the tile whose first anchor is global row `b`, against the chunk whose first
    column is global column `cs` (both as 32-bit words, as the kernel computes them). -/
noncomputable def maxStepG (b cs : BitVec 32) (v1 : Vec F S256x128 .f32) (v2 : Vec F S256x1 .f32) (v4 : Vec F S256x1 .i32)
    (arg10 : FVec F S256x1 .f32) (v304 : Vec F S1024x128 .f32) (v306 : Vec F S1x1024 .f32) (v309 : Vec F S1x1024 .i32) : FVec F S256x1 .f32 :=
  have v7 : IVec S256x1 32 := iota .tc S256x1 32 [0] iota_S256x1_d0_w32
  have v8 : IVec S256x1 32 := broadcast S256x1 b
  have v9 : IVec S256x1 32 := addi v7 v8
  have v322 : IVec S1x1024 32 := iota .tc S1x1024 32 [1] iota_S1x1024_d1_w32
  have v323 : IVec S1x1024 32 := broadcast S1x1024 cs
  have v324 : IVec S1x1024 32 := addi v322 v323
  have v325 : IVec S256x1024 32 := broadcastTo S256x1024 v9 broadcasts_S256x1_S256x1024
  have v326 : IVec S256x1024 32 := broadcastTo S256x1024 v324 broadcasts_S1x1024_S256x1024
  have v327 : IVec S256x1024 1 := cmpi .eq v325 v326
  have cst_167 : IVec S256x1024 1 := constantI S256x1024 1 1#1
  have v328 : IVec S256x1024 1 := xori v327 cst_167
  have v329 : IVec S256x1024 1 := andi (k0_pay5 v4 v309) v328
  have cst_169 : F .f32 := Scalar.ofBits .f32 0xFF800000#32
  have v331 : FVec F S256x1024 .f32 := broadcast S256x1024 cst_169
  have v332 : FVec F S256x1024 .f32 := select v329 (k0_pay4 v1 v2 v304 v306) v331
  have v333 : FVec F S256 .f32 := multiReduction .maximumf [1] S256 v332 0xFF800000#32 reduces_S256x1024_S256 (.inl rfl) rfl
  have v334 : FVec F S256x1 .f32 := shapeCast S256x1 v333 shapeCasts_S256_S256x1
  have v335 : FVec F S256x1 .f32 := maximumf arg10 v334
  v335

/-- The first tile's step is the general one. -/
theorem pay6_eq (i : grid0.Coords) (v1 : Vec F S256x128 .f32) (v2 : Vec F S256x1 .f32) (v4 : Vec F S256x1 .i32) (k : Fin k0_t1_loop.trips)
    (arg10 : FVec F S256x1 .f32) (v304 : Vec F S1024x128 .f32) (v306 : Vec F S1x1024 .f32) (v309 : Vec F S1x1024 .i32) :
    k0_pay6 i v1 v2 v4 k arg10 v304 v306 v309
      = maxStepG (Scalar.addi (Scalar.muli (BitVec.ofNat 32 (i 0).val) 2048#32) 0#32) (Scalar.muli (Scf.iv 0#32 1#32 k) 1024#32) v1 v2 v4 arg10 v304 v306 v309 := rfl

/-! ## The four facts of the product's dimension record -/

abbrev DD : DotDims S256x128 S128x1024 S256x1024 := dot_S256x128_S128x1024_S256x1024_1_0_0_1_n_n

theorem D_l0 (j : S256x1024.Idx) (q : DD.contr.Idx) : (DD.lhsIdx j q 0).val = (j 0).val := by
  unfold DotDims.lhsIdx
  rw [dif_neg (show ¬(0 : Fin S256x128.rank) ∈ DD.lhsBatch by decide), dif_pos (show (0 : Fin S256x128.rank) ∈ DD.lhsNonContracting by decide)]
  rfl
theorem D_l1 (j : S256x1024.Idx) (q : DD.contr.Idx) : (DD.lhsIdx j q 1).val = (q ⟨0, by decide⟩).val :=
  DD.lhsIdx_val_of_single rfl j q
theorem D_r0 (j : S256x1024.Idx) (q : DD.contr.Idx) : (DD.rhsIdx j q 0).val = (q ⟨0, by decide⟩).val :=
  DD.rhsIdx_val_of_single rfl j q
theorem D_r1 (j : S256x1024.Idx) (q : DD.contr.Idx) : (DD.rhsIdx j q 1).val = (j 1).val := by
  unfold DotDims.rhsIdx
  rw [dif_neg (show ¬(1 : Fin S128x1024.rank) ∈ DD.rhsBatch by decide), dif_pos (show (1 : Fin S128x1024.rank) ∈ DD.rhsNonContracting by decide)]
  rfl

/-! ## The squared distances of a tile against a chunk -/

/-- Entry (p, q): (n_p + n_q) − 2 · ⟨x_p, y_q⟩. -/
theorem pay4_apply (v1 : Vec Ideal S256x128 .f32) (v2 : Vec Ideal S256x1 .f32) (v304 : Vec Ideal S1024x128 .f32) (v306 : Vec Ideal S1x1024 .f32)
    (p : Fin 256) (q : Fin 1024) :
    k0_pay4 (F := Ideal) v1 v2 v304 v306 (ix2 p q)
      = (v2 (ix2 p (0 : Fin 1)) + v306 (ix2 (0 : Fin 1) q)) - 2 * ∑ k : Fin 128, v1 (ix2 p k) * v304 (ix2 q k) := by
  unfold k0_pay4
  simp only [subf_apply, addf_apply, mulf_apply, broadcast_apply]
  rw [Cert.LibColRow.bcastTo_col_apply, Cert.LibColRow.bcastTo_row_apply, shapeCast_self, shapeCast_self,
    Cert.LibPlainMatmul.matmul0_plain DD rfl rfl D_l0 D_l1 D_r0 D_r1]
  rw [Ideal.ofBits_def, Cert.Lits.two]
  refine congrArg (fun z => _ - 2 * z) (Finset.sum_congr rfl fun k _ => ?_)
  exact congrArg (v1 (ix2 p k) * ·) (transpose_ix2_apply v304 _ k q)

/-! ## The masks -/

/-- Anchor p (global row p + b) and column q (global column q + cs) make a positive pair. -/
def posW (b cs : BitVec 32) (v4 : Vec Ideal S256x1 .i32) (v309 : Vec Ideal S1x1024 .i32) (p : Fin 256) (q : Fin 1024) : Prop :=
  v4 (ix2 p (0 : Fin 1)) = v309 (ix2 (0 : Fin 1) q) ∧ ¬ (BitVec.ofNat 32 p.val + b = BitVec.ofNat 32 q.val + cs)
/-- They make a negative pair. -/
def negW (v4 : Vec Ideal S256x1 .i32) (v309 : Vec Ideal S1x1024 .i32) (p : Fin 256) (q : Fin 1024) : Prop :=
  ¬ v4 (ix2 p (0 : Fin 1)) = v309 (ix2 (0 : Fin 1) q)
instance (b cs : BitVec 32) (v4 : Vec Ideal S256x1 .i32) (v309 : Vec Ideal S1x1024 .i32) (p : Fin 256) (q : Fin 1024) :
    Decidable (posW b cs v4 v309 p q) := inferInstanceAs (Decidable (_ ∧ _))
instance (v4 : Vec Ideal S256x1 .i32) (v309 : Vec Ideal S1x1024 .i32) (p : Fin 256) (q : Fin 1024) :
    Decidable (negW v4 v309 p q) := inferInstanceAs (Decidable (¬ _))
/-- Their squared distance. -/
def sqW (v1 : Vec Ideal S256x128 .f32) (v2 : Vec Ideal S256x1 .f32) (v304 : Vec Ideal S1024x128 .f32) (v306 : Vec Ideal S1x1024 .f32)
    (p : Fin 256) (q : Fin 1024) : EReal :=
  (v2 (ix2 p (0 : Fin 1)) + v306 (ix2 (0 : Fin 1) q)) - 2 * ∑ k : Fin 128, v1 (ix2 p k) * v304 (ix2 q k)

theorem xori_one_eq_one {c : BitVec 1} : IntOp.xori c 1#1 = 1#1 ↔ ¬ c = 1#1 := by revert c; decide

theorem pay5_apply (v4 : Vec Ideal S256x1 .i32) (v309 : Vec Ideal S1x1024 .i32) (p : Fin 256) (q : Fin 1024) :
    k0_pay5 (F := Ideal) v4 v309 (ix2 p q) = 1#1 ↔ v4 (ix2 p (0 : Fin 1)) = v309 (ix2 (0 : Fin 1) q) := by
  unfold k0_pay5
  simp only [cmpi]
  rw [Cert.LibColRow.bcastTo_col_apply, Cert.LibColRow.bcastTo_row_apply, shapeCast_self, shapeCast_self]
  exact IntOp.cmpi_eq

/-- The coordinate a row's reduction over the columns inserts. -/
theorem lift_row (p : Fin 256) (q : Fin 1024) : reduces_S256x1024_S256.lift (ix1 p) q = ix2 p q :=
  funext fun a => Fin.ext (by match a with | ⟨0, _⟩ => rfl | ⟨1, _⟩ => rfl)

/-- The masked squared distances of the running maximum, at (p, q): the squared distance on a positive pair, the
    sentinel elsewhere. -/
theorem maxSel_apply (z : EReal) (b cs : BitVec 32) (v1 : Vec Ideal S256x128 .f32) (v2 : Vec Ideal S256x1 .f32) (v4 : Vec Ideal S256x1 .i32)
    (v304 : Vec Ideal S1024x128 .f32) (v306 : Vec Ideal S1x1024 .f32) (v309 : Vec Ideal S1x1024 .i32) (p : Fin 256) (q : Fin 1024) :
    select (andi (k0_pay5 (F := Ideal) v4 v309) (xori (cmpi .eq
        (broadcastTo S256x1024 (addi (iota .tc S256x1 32 [0] iota_S256x1_d0_w32) (broadcast S256x1 b)) broadcasts_S256x1_S256x1024)
        (broadcastTo S256x1024 (addi (iota .tc S1x1024 32 [1] iota_S1x1024_d1_w32) (broadcast S1x1024 cs)) broadcasts_S1x1024_S256x1024))
        (constantI S256x1024 1 1#1)))
      (k0_pay4 (F := Ideal) v1 v2 v304 v306) (broadcast S256x1024 z) (ix2 p q)
      = if posW b cs v4 v309 p q then sqW v1 v2 v304 v306 p q else z := by
  rw [select_apply, broadcast_apply, pay4_apply]
  unfold Scalar.select
  refine if_congr ?_ rfl rfl
  simp only [andi, xori, cmpi, constantI_apply, addi, broadcast_apply]
  show (IntOp.andi _ _ = 1#1) ↔ _
  rw [IntOp.andi_eq_one, pay5_apply, xori_one_eq_one, IntOp.cmpi_eq, Cert.LibColRow.bcastTo_col_apply, Cert.LibColRow.bcastTo_row_apply]
  show _ ∧ ¬ (IntOp.addi (iota .tc S256x1 32 [0] iota_S256x1_d0_w32 (ix2 p (0 : Fin 1))) b
      = IntOp.addi (iota .tc S1x1024 32 [1] iota_S1x1024_d1_w32 (ix2 (0 : Fin 1) q)) cs) ↔ _
  rw [iota_single_apply, iota_single_apply]
  rfl

/-- The masked squared distances of the running minimum, at (p, q). -/
theorem minSel_apply (z : EReal) (v1 : Vec Ideal S256x128 .f32) (v2 : Vec Ideal S256x1 .f32) (v4 : Vec Ideal S256x1 .i32)
    (v304 : Vec Ideal S1024x128 .f32) (v306 : Vec Ideal S1x1024 .f32) (v309 : Vec Ideal S1x1024 .i32) (p : Fin 256) (q : Fin 1024) :
    select (xori (k0_pay5 (F := Ideal) v4 v309) (constantI S256x1024 1 1#1)) (k0_pay4 (F := Ideal) v1 v2 v304 v306) (broadcast S256x1024 z) (ix2 p q)
      = if negW v4 v309 p q then sqW v1 v2 v304 v306 p q else z := by
  rw [select_apply, broadcast_apply, pay4_apply]
  unfold Scalar.select
  refine if_congr ?_ rfl rfl
  simp only [xori, constantI_apply]
  show (IntOp.xori _ 1#1 = 1#1) ↔ _
  rw [xori_one_eq_one, pay5_apply]
  rfl

/-- One step of the running maximum, at anchor p. -/
theorem maxStepG_apply (b cs : BitVec 32) (v1 : Vec Ideal S256x128 .f32) (v2 : Vec Ideal S256x1 .f32) (v4 : Vec Ideal S256x1 .i32)
    (acc : FVec Ideal S256x1 .f32) (v304 : Vec Ideal S1024x128 .f32) (v306 : Vec Ideal S1x1024 .f32) (v309 : Vec Ideal S1x1024 .i32) (p : Fin 256) :
    maxStepG (F := Ideal) b cs v1 v2 v4 acc v304 v306 v309 (ix2 p (0 : Fin 1))
      = max (acc (ix2 p (0 : Fin 1))) ((Finset.univ : Finset (Fin 1024)).fold max ⊥
          fun q => if posW b cs v4 v309 p q then sqW v1 v2 v304 v306 p q else ⊥) := by
  unfold maxStepG
  simp only [maximumf_apply]
  rw [Cert.LibColRow.shapeCast_col_apply]
  refine congrArg (max _) ?_
  refine (Ideal.multiReduction_maximumf_single _ _ reduces_S256x1024_S256 _ _ (ix1 p)).trans ?_
  rw [Ideal.ofBits_def, Cert.Lits.negInf]
  refine Finset.fold_congr fun q _ => ?_
  exact (congrArg _ (lift_row p q)).trans (maxSel_apply ⊥ b cs v1 v2 v4 v304 v306 v309 p q)

/-- One step of the running minimum, at anchor p. -/
theorem pay7_apply (v1 : Vec Ideal S256x128 .f32) (v2 : Vec Ideal S256x1 .f32) (v4 : Vec Ideal S256x1 .i32)
    (acc : FVec Ideal S256x1 .f32) (v304 : Vec Ideal S1024x128 .f32) (v306 : Vec Ideal S1x1024 .f32) (v309 : Vec Ideal S1x1024 .i32) (p : Fin 256) :
    k0_pay7 (F := Ideal) v1 v2 v4 acc v304 v306 v309 (ix2 p (0 : Fin 1))
      = min (acc (ix2 p (0 : Fin 1))) ((Finset.univ : Finset (Fin 1024)).fold min ⊤
          fun q => if negW v4 v309 p q then sqW v1 v2 v304 v306 p q else ⊤) := by
  unfold k0_pay7
  simp only [minimumf_apply]
  rw [Cert.LibColRow.shapeCast_col_apply]
  refine congrArg (min _) ?_
  refine ((multiReduction_minimumf_eq_fold _ _ reduces_S256x1024_S256 _ _ (ix1 p)).trans
    (reduces_S256x1024_S256.fold_filter_drop_single _ _ _ (ix1 p))).trans ?_
  show Finset.fold min _ _ _ = _
  rw [Ideal.ofBits_def, Cert.Lits.posInf]
  refine Finset.fold_congr fun q _ => ?_
  exact (congrArg _ (lift_row p q)).trans (minSel_apply ⊤ v1 v2 v4 v304 v306 v309 p q)

end Cert.KernelIdeal.Tile

end
-- ==== Proof.IdealLoops.lean ====
/-
  The eight inner loops of the kernel body: one trip of each is one step of the running maximum and minimum of its
  tile against one chunk of columns, read off the trip's own run.
-/
import proofs.«149814_j11527692222870_2_alg».proof.Proof.Gen.KernelIdeal.Loops
import proofs.«149814_j11527692222870_2_alg».proof.Proof.IdealTile

set_option maxRecDepth 16384
set_option maxHeartbeats 1000000

noncomputable section

namespace Cert.KernelIdeal.Tile

open Cert.KernelIdeal Cert.KernelIdeal.Gen
open Idealize.ShloMosaic Idealize.ShloMosaic.TcCoe Idealize.ShloMosaic.ValueIdx
open Idealize.SL.Sem

variable {F : FTy → Type} [FloatOps F]

theorem tripR_eq_1 (𝒱 : Variants) (c : Dev nD) (bd : Option 𝒱.V) (i : grid0.Coords) (arg1 : Memref sig .tc .vmem S2048x128 .f32) (harg1 : arg1.IsWhole) (arg2 : Memref sig .tc .vmem S8192x128 .f32) (harg2 : arg2.IsWhole) (arg3 : Memref sig .tc .vmem S2048x1 .f32) (harg3 : arg3.IsWhole) (arg4 : Memref sig .tc .vmem S1x8192 .f32) (harg4 : arg4.IsWhole) (arg5 : Memref sig .tc .vmem S2048x1 .i32) (harg5 : arg5.IsWhole) (arg6 : Memref sig .tc .vmem S1x8192 .i32) (harg6 : arg6.IsWhole) (arg7 : Memref sig .tc .vmem S8x1 .f32) (harg7 : arg7.IsWhole) (arg8 : Memref sig .tc .vmem S8x1 .f32) (harg8 : arg8.IsWhole) (v1 : Vec F S256x128 .f32) (v2 : Vec F S256x1 .f32) (v4 : Vec F S256x1 .i32) (X_arg2 : BufTy.Contents (Elt F) arg2.view.ty) (X_arg4 : BufTy.Contents (Elt F) arg4.view.ty) (X_arg6 : BufTy.Contents (Elt F) arg6.view.ty) (k : Fin k0_t1_loop.trips) (acc : FVec F S256x1 .f32 × FVec F S256x1 .f32) :
    tripR_k0_t1 (F := F) 𝒱 c bd i arg1 harg1 arg2 harg2 arg3 harg3 arg4 harg4 arg5 harg5 arg6 harg6 arg7 harg7 arg8 harg8 v1 v2 v4 X_arg2 X_arg4 X_arg6 k acc
      = (maxStepG (Scalar.addi (Scalar.muli (BitVec.ofNat 32 (i 0).val) 2048#32) 0#32) (Scalar.muli (Scf.iv 0#32 1#32 k) 1024#32) v1 v2 v4 acc.1 (View.readAt (Elt F) arg2.view (Rect.unit (s := S8192x128) (k0_off1 k) S1024x128.size (k0_off1_inb k)).toLoadRect X_arg2) (View.readAt (Elt F) arg4.view (Rect.unit (s := S1x8192) (k0_off2 k) S1x1024.size (k0_off2_inb k)).toLoadRect X_arg4) (View.readAt (Elt F) arg6.view (Rect.unit (s := S1x8192) (k0_off2 k) S1x1024.size (k0_off2_inb k)).toLoadRect X_arg6),
         k0_pay7 v1 v2 v4 acc.2 (View.readAt (Elt F) arg2.view (Rect.unit (s := S8192x128) (k0_off1 k) S1024x128.size (k0_off1_inb k)).toLoadRect X_arg2) (View.readAt (Elt F) arg4.view (Rect.unit (s := S1x8192) (k0_off2 k) S1x1024.size (k0_off2_inb k)).toLoadRect X_arg4) (View.readAt (Elt F) arg6.view (Rect.unit (s := S1x8192) (k0_off2 k) S1x1024.size (k0_off2_inb k)).toLoadRect X_arg6)) := by
  unfold tripR_k0_t1 trip_k0_t1
  rfl

theorem tripR_eq_2 (𝒱 : Variants) (c : Dev nD) (bd : Option 𝒱.V) (i : grid0.Coords) (arg1 : Memref sig .tc .vmem S2048x128 .f32) (harg1 : arg1.IsWhole) (arg2 : Memref sig .tc .vmem S8192x128 .f32) (harg2 : arg2.IsWhole) (arg3 : Memref sig .tc .vmem S2048x1 .f32) (harg3 : arg3.IsWhole) (arg4 : Memref sig .tc .vmem S1x8192 .f32) (harg4 : arg4.IsWhole) (arg5 : Memref sig .tc .vmem S2048x1 .i32) (harg5 : arg5.IsWhole) (arg6 : Memref sig .tc .vmem S1x8192 .i32) (harg6 : arg6.IsWhole) (arg7 : Memref sig .tc .vmem S8x1 .f32) (harg7 : arg7.IsWhole) (arg8 : Memref sig .tc .vmem S8x1 .f32) (harg8 : arg8.IsWhole) (v0 : BitVec 32) (v35 : FVec F S256x1 .f32) (v38 : Vec F S256x128 .f32) (v39 : Vec F S256x1 .f32) (v41 : Vec F S256x1 .i32) (X_arg2 : BufTy.Contents (Elt F) arg2.view.ty) (X_arg4 : BufTy.Contents (Elt F) arg4.view.ty) (X_arg6 : BufTy.Contents (Elt F) arg6.view.ty) (k : Fin k0_t2_loop.trips) (acc : FVec F S256x1 .f32 × FVec F S256x1 .f32) :
    tripR_k0_t2 (F := F) 𝒱 c bd i arg1 harg1 arg2 harg2 arg3 harg3 arg4 harg4 arg5 harg5 arg6 harg6 arg7 harg7 arg8 harg8 v0 v35 v38 v39 v41 X_arg2 X_arg4 X_arg6 k acc
      = (maxStepG (Scalar.addi v0 256#32) (Scalar.muli (Scf.iv 0#32 1#32 k) 1024#32) v38 v39 v41 acc.1 (View.readAt (Elt F) arg2.view (Rect.unit (s := S8192x128) (k0_off3 k) S1024x128.size (k0_off3_inb k)).toLoadRect X_arg2) (View.readAt (Elt F) arg4.view (Rect.unit (s := S1x8192) (k0_off4 k) S1x1024.size (k0_off4_inb k)).toLoadRect X_arg4) (View.readAt (Elt F) arg6.view (Rect.unit (s := S1x8192) (k0_off4 k) S1x1024.size (k0_off4_inb k)).toLoadRect X_arg6),
         k0_pay7 v38 v39 v41 acc.2 (View.readAt (Elt F) arg2.view (Rect.unit (s := S8192x128) (k0_off3 k) S1024x128.size (k0_off3_inb k)).toLoadRect X_arg2) (View.readAt (Elt F) arg4.view (Rect.unit (s := S1x8192) (k0_off4 k) S1x1024.size (k0_off4_inb k)).toLoadRect X_arg4) (View.readAt (Elt F) arg6.view (Rect.unit (s := S1x8192) (k0_off4 k) S1x1024.size (k0_off4_inb k)).toLoadRect X_arg6)) := by
  unfold tripR_k0_t2 trip_k0_t2
  rfl

theorem tripR_eq_3 (𝒱 : Variants) (c : Dev nD) (bd : Option 𝒱.V) (i : grid0.Coords) (arg1 : Memref sig .tc .vmem S2048x128 .f32) (harg1 : arg1.IsWhole) (arg2 : Memref sig .tc .vmem S8192x128 .f32) (harg2 : arg2.IsWhole) (arg3 : Memref sig .tc .vmem S2048x1 .f32) (harg3 : arg3.IsWhole) (arg4 : Memref sig .tc .vmem S1x8192 .f32) (harg4 : arg4.IsWhole) (arg5 : Memref sig .tc .vmem S2048x1 .i32) (harg5 : arg5.IsWhole) (arg6 : Memref sig .tc .vmem S1x8192 .i32) (harg6 : arg6.IsWhole) (arg7 : Memref sig .tc .vmem S8x1 .f32) (harg7 : arg7.IsWhole) (arg8 : Memref sig .tc .vmem S8x1 .f32) (harg8 : arg8.IsWhole) (v0 : BitVec 32) (v73 : FVec F S1 .f32) (v75 : Vec F S256x128 .f32) (v76 : Vec F S256x1 .f32) (v78 : Vec F S256x1 .i32) (X_arg2 : BufTy.Contents (Elt F) arg2.view.ty) (X_arg4 : BufTy.Contents (Elt F) arg4.view.ty) (X_arg6 : BufTy.Contents (Elt F) arg6.view.ty) (k : Fin k0_t3_loop.trips) (acc : FVec F S256x1 .f32 × FVec F S256x1 .f32) :
    tripR_k0_t3 (F := F) 𝒱 c bd i arg1 harg1 arg2 harg2 arg3 harg3 arg4 harg4 arg5 harg5 arg6 harg6 arg7 harg7 arg8 harg8 v0 v73 v75 v76 v78 X_arg2 X_arg4 X_arg6 k acc
      = (maxStepG (Scalar.addi v0 512#32) (Scalar.muli (Scf.iv 0#32 1#32 k) 1024#32) v75 v76 v78 acc.1 (View.readAt (Elt F) arg2.view (Rect.unit (s := S8192x128) (k0_off5 k) S1024x128.size (k0_off5_inb k)).toLoadRect X_arg2) (View.readAt (Elt F) arg4.view (Rect.unit (s := S1x8192) (k0_off6 k) S1x1024.size (k0_off6_inb k)).toLoadRect X_arg4) (View.readAt (Elt F) arg6.view (Rect.unit (s := S1x8192) (k0_off6 k) S1x1024.size (k0_off6_inb k)).toLoadRect X_arg6),
         k0_pay7 v75 v76 v78 acc.2 (View.readAt (Elt F) arg2.view (Rect.unit (s := S8192x128) (k0_off5 k) S1024x128.size (k0_off5_inb k)).toLoadRect X_arg2) (View.readAt (Elt F) arg4.view (Rect.unit (s := S1x8192) (k0_off6 k) S1x1024.size (k0_off6_inb k)).toLoadRect X_arg4) (View.readAt (Elt F) arg6.view (Rect.unit (s := S1x8192) (k0_off6 k) S1x1024.size (k0_off6_inb k)).toLoadRect X_arg6)) := by
  unfold tripR_k0_t3 trip_k0_t3
  rfl

theorem tripR_eq_4 (𝒱 : Variants) (c : Dev nD) (bd : Option 𝒱.V) (i : grid0.Coords) (arg1 : Memref sig .tc .vmem S2048x128 .f32) (harg1 : arg1.IsWhole) (arg2 : Memref sig .tc .vmem S8192x128 .f32) (harg2 : arg2.IsWhole) (arg3 : Memref sig .tc .vmem S2048x1 .f32) (harg3 : arg3.IsWhole) (arg4 : Memref sig .tc .vmem S1x8192 .f32) (harg4 : arg4.IsWhole) (arg5 : Memref sig .tc .vmem S2048x1 .i32) (harg5 : arg5.IsWhole) (arg6 : Memref sig .tc .vmem S1x8192 .i32) (harg6 : arg6.IsWhole) (arg7 : Memref sig .tc .vmem S8x1 .f32) (harg7 : arg7.IsWhole) (arg8 : Memref sig .tc .vmem S8x1 .f32) (harg8 : arg8.IsWhole) (v0 : BitVec 32) (v112 : Vec F S256x128 .f32) (v113 : Vec F S256x1 .f32) (v115 : Vec F S256x1 .i32) (X_arg2 : BufTy.Contents (Elt F) arg2.view.ty) (X_arg4 : BufTy.Contents (Elt F) arg4.view.ty) (X_arg6 : BufTy.Contents (Elt F) arg6.view.ty) (k : Fin k0_t4_loop.trips) (acc : FVec F S256x1 .f32 × FVec F S256x1 .f32) :
    tripR_k0_t4 (F := F) 𝒱 c bd i arg1 harg1 arg2 harg2 arg3 harg3 arg4 harg4 arg5 harg5 arg6 harg6 arg7 harg7 arg8 harg8 v0 v112 v113 v115 X_arg2 X_arg4 X_arg6 k acc
      = (maxStepG (Scalar.addi v0 768#32) (Scalar.muli (Scf.iv 0#32 1#32 k) 1024#32) v112 v113 v115 acc.1 (View.readAt (Elt F) arg2.view (Rect.unit (s := S8192x128) (k0_off7 k) S1024x128.size (k0_off7_inb k)).toLoadRect X_arg2) (View.readAt (Elt F) arg4.view (Rect.unit (s := S1x8192) (k0_off8 k) S1x1024.size (k0_off8_inb k)).toLoadRect X_arg4) (View.readAt (Elt F) arg6.view (Rect.unit (s := S1x8192) (k0_off8 k) S1x1024.size (k0_off8_inb k)).toLoadRect X_arg6),
         k0_pay7 v112 v113 v115 acc.2 (View.readAt (Elt F) arg2.view (Rect.unit (s := S8192x128) (k0_off7 k) S1024x128.size (k0_off7_inb k)).toLoadRect X_arg2) (View.readAt (Elt F) arg4.view (Rect.unit (s := S1x8192) (k0_off8 k) S1x1024.size (k0_off8_inb k)).toLoadRect X_arg4) (View.readAt (Elt F) arg6.view (Rect.unit (s := S1x8192) (k0_off8 k) S1x1024.size (k0_off8_inb k)).toLoadRect X_arg6)) := by
  unfold tripR_k0_t4 trip_k0_t4
  rfl

theorem tripR_eq_5 (𝒱 : Variants) (c : Dev nD) (bd : Option 𝒱.V) (i : grid0.Coords) (arg1 : Memref sig .tc .vmem S2048x128 .f32) (harg1 : arg1.IsWhole) (arg2 : Memref sig .tc .vmem S8192x128 .f32) (harg2 : arg2.IsWhole) (arg3 : Memref sig .tc .vmem S2048x1 .f32) (harg3 : arg3.IsWhole) (arg4 : Memref sig .tc .vmem S1x8192 .f32) (harg4 : arg4.IsWhole) (arg5 : Memref sig .tc .vmem S2048x1 .i32) (harg5 : arg5.IsWhole) (arg6 : Memref sig .tc .vmem S1x8192 .i32) (harg6 : arg6.IsWhole) (arg7 : Memref sig .tc .vmem S8x1 .f32) (harg7 : arg7.IsWhole) (arg8 : Memref sig .tc .vmem S8x1 .f32) (harg8 : arg8.IsWhole) (v0 : BitVec 32) (v149 : Vec F S256x128 .f32) (v150 : Vec F S256x1 .f32) (v152 : Vec F S256x1 .i32) (X_arg2 : BufTy.Contents (Elt F) arg2.view.ty) (X_arg4 : BufTy.Contents (Elt F) arg4.view.ty) (X_arg6 : BufTy.Contents (Elt F) arg6.view.ty) (k : Fin k0_t5_loop.trips) (acc : FVec F S256x1 .f32 × FVec F S256x1 .f32) :
    tripR_k0_t5 (F := F) 𝒱 c bd i arg1 harg1 arg2 harg2 arg3 harg3 arg4 harg4 arg5 harg5 arg6 harg6 arg7 harg7 arg8 harg8 v0 v149 v150 v152 X_arg2 X_arg4 X_arg6 k acc
      = (maxStepG (Scalar.addi v0 1024#32) (Scalar.muli (Scf.iv 0#32 1#32 k) 1024#32) v149 v150 v152 acc.1 (View.readAt (Elt F) arg2.view (Rect.unit (s := S8192x128) (k0_off9 k) S1024x128.size (k0_off9_inb k)).toLoadRect X_arg2) (View.readAt (Elt F) arg4.view (Rect.unit (s := S1x8192) (k0_off10 k) S1x1024.size (k0_off10_inb k)).toLoadRect X_arg4) (View.readAt (Elt F) arg6.view (Rect.unit (s := S1x8192) (k0_off10 k) S1x1024.size (k0_off10_inb k)).toLoadRect X_arg6),
         k0_pay7 v149 v150 v152 acc.2 (View.readAt (Elt F) arg2.view (Rect.unit (s := S8192x128) (k0_off9 k) S1024x128.size (k0_off9_inb k)).toLoadRect X_arg2) (View.readAt (Elt F) arg4.view (Rect.unit (s := S1x8192) (k0_off10 k) S1x1024.size (k0_off10_inb k)).toLoadRect X_arg4) (View.readAt (Elt F) arg6.view (Rect.unit (s := S1x8192) (k0_off10 k) S1x1024.size (k0_off10_inb k)).toLoadRect X_arg6)) := by
  unfold tripR_k0_t5 trip_k0_t5
  rfl

theorem tripR_eq_6 (𝒱 : Variants) (c : Dev nD) (bd : Option 𝒱.V) (i : grid0.Coords) (arg1 : Memref sig .tc .vmem S2048x128 .f32) (harg1 : arg1.IsWhole) (arg2 : Memref sig .tc .vmem S8192x128 .f32) (harg2 : arg2.IsWhole) (arg3 : Memref sig .tc .vmem S2048x1 .f32) (harg3 : arg3.IsWhole) (arg4 : Memref sig .tc .vmem S1x8192 .f32) (harg4 : arg4.IsWhole) (arg5 : Memref sig .tc .vmem S2048x1 .i32) (harg5 : arg5.IsWhole) (arg6 : Memref sig .tc .vmem S1x8192 .i32) (harg6 : arg6.IsWhole) (arg7 : Memref sig .tc .vmem S8x1 .f32) (harg7 : arg7.IsWhole) (arg8 : Memref sig .tc .vmem S8x1 .f32) (harg8 : arg8.IsWhole) (v0 : BitVec 32) (v186 : Vec F S256x128 .f32) (v187 : Vec F S256x1 .f32) (v189 : Vec F S256x1 .i32) (X_arg2 : BufTy.Contents (Elt F) arg2.view.ty) (X_arg4 : BufTy.Contents (Elt F) arg4.view.ty) (X_arg6 : BufTy.Contents (Elt F) arg6.view.ty) (k : Fin k0_t6_loop.trips) (acc : FVec F S256x1 .f32 × FVec F S256x1 .f32) :
    tripR_k0_t6 (F := F) 𝒱 c bd i arg1 harg1 arg2 harg2 arg3 harg3 arg4 harg4 arg5 harg5 arg6 harg6 arg7 harg7 arg8 harg8 v0 v186 v187 v189 X_arg2 X_arg4 X_arg6 k acc
      = (maxStepG (Scalar.addi v0 1280#32) (Scalar.muli (Scf.iv 0#32 1#32 k) 1024#32) v186 v187 v189 acc.1 (View.readAt (Elt F) arg2.view (Rect.unit (s := S8192x128) (k0_off11 k) S1024x128.size (k0_off11_inb k)).toLoadRect X_arg2) (View.readAt (Elt F) arg4.view (Rect.unit (s := S1x8192) (k0_off12 k) S1x1024.size (k0_off12_inb k)).toLoadRect X_arg4) (View.readAt (Elt F) arg6.view (Rect.unit (s := S1x8192) (k0_off12 k) S1x1024.size (k0_off12_inb k)).toLoadRect X_arg6),
         k0_pay7 v186 v187 v189 acc.2 (View.readAt (Elt F) arg2.view (Rect.unit (s := S8192x128) (k0_off11 k) S1024x128.size (k0_off11_inb k)).toLoadRect X_arg2) (View.readAt (Elt F) arg4.view (Rect.unit (s := S1x8192) (k0_off12 k) S1x1024.size (k0_off12_inb k)).toLoadRect X_arg4) (View.readAt (Elt F) arg6.view (Rect.unit (s := S1x8192) (k0_off12 k) S1x1024.size (k0_off12_inb k)).toLoadRect X_arg6)) := by
  unfold tripR_k0_t6 trip_k0_t6
  rfl

theorem tripR_eq_7 (𝒱 : Variants) (c : Dev nD) (bd : Option 𝒱.V) (i : grid0.Coords) (arg1 : Memref sig .tc .vmem S2048x128 .f32) (harg1 : arg1.IsWhole) (arg2 : Memref sig .tc .vmem S8192x128 .f32) (harg2 : arg2.IsWhole) (arg3 : Memref sig .tc .vmem S2048x1 .f32) (harg3 : arg3.IsWhole) (arg4 : Memref sig .tc .vmem S1x8192 .f32) (harg4 : arg4.IsWhole) (arg5 : Memref sig .tc .vmem S2048x1 .i32) (harg5 : arg5.IsWhole) (arg6 : Memref sig .tc .vmem S1x8192 .i32) (harg6 : arg6.IsWhole) (arg7 : Memref sig .tc .vmem S8x1 .f32) (harg7 : arg7.IsWhole) (arg8 : Memref sig .tc .vmem S8x1 .f32) (harg8 : arg8.IsWhole) (v0 : BitVec 32) (v223 : Vec F S256x128 .f32) (v224 : Vec F S256x1 .f32) (v226 : Vec F S256x1 .i32) (X_arg2 : BufTy.Contents (Elt F) arg2.view.ty) (X_arg4 : BufTy.Contents (Elt F) arg4.view.ty) (X_arg6 : BufTy.Contents (Elt F) arg6.view.ty) (k : Fin k0_t7_loop.trips) (acc : FVec F S256x1 .f32 × FVec F S256x1 .f32) :
    tripR_k0_t7 (F := F) 𝒱 c bd i arg1 harg1 arg2 harg2 arg3 harg3 arg4 harg4 arg5 harg5 arg6 harg6 arg7 harg7 arg8 harg8 v0 v223 v224 v226 X_arg2 X_arg4 X_arg6 k acc
      = (maxStepG (Scalar.addi v0 1536#32) (Scalar.muli (Scf.iv 0#32 1#32 k) 1024#32) v223 v224 v226 acc.1 (View.readAt (Elt F) arg2.view (Rect.unit (s := S8192x128) (k0_off13 k) S1024x128.size (k0_off13_inb k)).toLoadRect X_arg2) (View.readAt (Elt F) arg4.view (Rect.unit (s := S1x8192) (k0_off14 k) S1x1024.size (k0_off14_inb k)).toLoadRect X_arg4) (View.readAt (Elt F) arg6.view (Rect.unit (s := S1x8192) (k0_off14 k) S1x1024.size (k0_off14_inb k)).toLoadRect X_arg6),
         k0_pay7 v223 v224 v226 acc.2 (View.readAt (Elt F) arg2.view (Rect.unit (s := S8192x128) (k0_off13 k) S1024x128.size (k0_off13_inb k)).toLoadRect X_arg2) (View.readAt (Elt F) arg4.view (Rect.unit (s := S1x8192) (k0_off14 k) S1x1024.size (k0_off14_inb k)).toLoadRect X_arg4) (View.readAt (Elt F) arg6.view (Rect.unit (s := S1x8192) (k0_off14 k) S1x1024.size (k0_off14_inb k)).toLoadRect X_arg6)) := by
  unfold tripR_k0_t7 trip_k0_t7
  rfl

theorem tripR_eq_8 (𝒱 : Variants) (c : Dev nD) (bd : Option 𝒱.V) (i : grid0.Coords) (arg1 : Memref sig .tc .vmem S2048x128 .f32) (harg1 : arg1.IsWhole) (arg2 : Memref sig .tc .vmem S8192x128 .f32) (harg2 : arg2.IsWhole) (arg3 : Memref sig .tc .vmem S2048x1 .f32) (harg3 : arg3.IsWhole) (arg4 : Memref sig .tc .vmem S1x8192 .f32) (harg4 : arg4.IsWhole) (arg5 : Memref sig .tc .vmem S2048x1 .i32) (harg5 : arg5.IsWhole) (arg6 : Memref sig .tc .vmem S1x8192 .i32) (harg6 : arg6.IsWhole) (arg7 : Memref sig .tc .vmem S8x1 .f32) (harg7 : arg7.IsWhole) (arg8 : Memref sig .tc .vmem S8x1 .f32) (harg8 : arg8.IsWhole) (v0 : BitVec 32) (v33 : FVec F S1x1 .f32) (v70 : FVec F S1x1 .f32) (v107 : FVec F S1x1 .f32) (v144 : FVec F S1x1 .f32) (v181 : FVec F S1x1 .f32) (v218 : FVec F S1x1 .f32) (v255 : FVec F S1x1 .f32) (v260 : Vec F S256x128 .f32) (v261 : Vec F S256x1 .f32) (v263 : Vec F S256x1 .i32) (X_arg2 : BufTy.Contents (Elt F) arg2.view.ty) (X_arg4 : BufTy.Contents (Elt F) arg4.view.ty) (X_arg6 : BufTy.Contents (Elt F) arg6.view.ty) (k : Fin k0_t8_loop.trips) (acc : FVec F S256x1 .f32 × FVec F S256x1 .f32) :
    tripR_k0_t8 (F := F) 𝒱 c bd i arg1 harg1 arg2 harg2 arg3 harg3 arg4 harg4 arg5 harg5 arg6 harg6 arg7 harg7 arg8 harg8 v0 v33 v70 v107 v144 v181 v218 v255 v260 v261 v263 X_arg2 X_arg4 X_arg6 k acc
      = (maxStepG (Scalar.addi v0 1792#32) (Scalar.muli (Scf.iv 0#32 1#32 k) 1024#32) v260 v261 v263 acc.1 (View.readAt (Elt F) arg2.view (Rect.unit (s := S8192x128) (k0_off15 k) S1024x128.size (k0_off15_inb k)).toLoadRect X_arg2) (View.readAt (Elt F) arg4.view (Rect.unit (s := S1x8192) (k0_off16 k) S1x1024.size (k0_off16_inb k)).toLoadRect X_arg4) (View.readAt (Elt F) arg6.view (Rect.unit (s := S1x8192) (k0_off16 k) S1x1024.size (k0_off16_inb k)).toLoadRect X_arg6),
         k0_pay7 v260 v261 v263 acc.2 (View.readAt (Elt F) arg2.view (Rect.unit (s := S8192x128) (k0_off15 k) S1024x128.size (k0_off15_inb k)).toLoadRect X_arg2) (View.readAt (Elt F) arg4.view (Rect.unit (s := S1x8192) (k0_off16 k) S1x1024.size (k0_off16_inb k)).toLoadRect X_arg4) (View.readAt (Elt F) arg6.view (Rect.unit (s := S1x8192) (k0_off16 k) S1x1024.size (k0_off16_inb k)).toLoadRect X_arg6)) := by
  unfold tripR_k0_t8 trip_k0_t8
  rfl

end Cert.KernelIdeal.Tile

end
-- ==== Proof.IdealLoads.lean ====
/-
  A load of a unit-stride block out of a whole buffer, read at an index: the buffer's contents at the block's offset
  plus the index. Four shapes: a 256-row tile of a 2048-row buffer (width 128 and width 1), a 1024-row chunk of an
  8192-row buffer of width 128, and a 1024-column chunk of a one-row buffer of 8192 columns.
-/
import proofs.«149814_j11527692222870_2_alg».proof.Proof.Gen.KernelIdeal
import Idealize.ShloMosaic.Lib.ValueIdx
import Idealize.ShloMosaic.Lib.Pipeline.FrameBody
import Idealize.ShloMosaic.Lib.Pipeline.Frame

noncomputable section

namespace Cert.KernelIdeal.Tile

open Cert.KernelIdeal
open Idealize.ShloMosaic Idealize.ShloMosaic.TcCoe Idealize.ShloMosaic.ValueIdx
open Idealize.SL.Sem

variable {F : FTy → Type} [FloatOps F]

/-- Rows o … o+255 of a 2048 × 128 buffer. -/
theorem ld_tile128 {e' : EltTy} (a : Memref sig .tc .vmem S2048x128 e') (ha : a.IsWhole) (x : Vec F S2048x128 e') (o : ℕ)
    (inb : ∀ d, (![o, 0] : Fin 2 → ℕ) d + S256x128.size d ≤ S2048x128.size d) (p : Fin 256) (k : Fin 128) (h : o + p.val < 2048) :
    View.readAt (Elt F) a.view (Rect.unit (s := S2048x128) ![o, 0] S256x128.size inb).toLoadRect (ha.unread x) (ix2 p k)
      = x (ix2 ⟨o + p.val, h⟩ k) := by
  show View.ld (a.view.read (Elt F) (ha.unread x)) (Rect.unit (s := S2048x128) ![o, 0] S256x128.size inb) (ix2 p k) = _
  rw [ha.read_unread]
  show x ((Rect.unit (s := S2048x128) ![o, 0] S256x128.size inb).idx (ix2 p k)) = _
  congr 1; funext d; apply Fin.ext
  match d with
  | ⟨0, _⟩ => show o + 1 * p.val = o + p.val; omega
  | ⟨1, _⟩ => show 0 + 1 * k.val = k.val; omega

/-- Rows o … o+255 of a 2048 × 1 buffer. -/
theorem ld_tile1 {e' : EltTy} (a : Memref sig .tc .vmem S2048x1 e') (ha : a.IsWhole) (x : Vec F S2048x1 e') (o : ℕ)
    (inb : ∀ d, (![o, 0] : Fin 2 → ℕ) d + S256x1.size d ≤ S2048x1.size d) (p : Fin 256) (z : Fin 1) (h : o + p.val < 2048) :
    View.readAt (Elt F) a.view (Rect.unit (s := S2048x1) ![o, 0] S256x1.size inb).toLoadRect (ha.unread x) (ix2 p z)
      = x (ix2 ⟨o + p.val, h⟩ z) := by
  show View.ld (a.view.read (Elt F) (ha.unread x)) (Rect.unit (s := S2048x1) ![o, 0] S256x1.size inb) (ix2 p z) = _
  rw [ha.read_unread]
  show x ((Rect.unit (s := S2048x1) ![o, 0] S256x1.size inb).idx (ix2 p z)) = _
  congr 1; funext d; apply Fin.ext
  match d with
  | ⟨0, _⟩ => show o + 1 * p.val = o + p.val; omega
  | ⟨1, _⟩ => show 0 + 1 * z.val = z.val; omega

/-- Rows 1024n … 1024n+1023 of an 8192 × 128 buffer. -/
theorem ld_chunk128 {e' : EltTy} (a : Memref sig .tc .vmem S8192x128 e') (ha : a.IsWhole) (x : Vec F S8192x128 e') (off : Fin 2 → ℕ) (n : ℕ)
    (hoff : off = ![1024 * n, 0]) (inb : ∀ d, off d + S1024x128.size d ≤ S8192x128.size d) (q : Fin 1024) (k : Fin 128) (h : 1024 * n + q.val < 8192) :
    View.readAt (Elt F) a.view (Rect.unit (s := S8192x128) off S1024x128.size inb).toLoadRect (ha.unread x) (ix2 q k)
      = x (ix2 ⟨1024 * n + q.val, h⟩ k) := by
  subst hoff
  show View.ld (a.view.read (Elt F) (ha.unread x)) (Rect.unit (s := S8192x128) ![1024 * n, 0] S1024x128.size inb) (ix2 q k) = _
  rw [ha.read_unread]
  show x ((Rect.unit (s := S8192x128) ![1024 * n, 0] S1024x128.size inb).idx (ix2 q k)) = _
  congr 1; funext d; apply Fin.ext
  match d with
  | ⟨0, _⟩ => show 1024 * n + 1 * q.val = 1024 * n + q.val; omega
  | ⟨1, _⟩ => show 0 + 1 * k.val = k.val; omega

/-- Columns 1024n … 1024n+1023 of a 1 × 8192 buffer. -/
theorem ld_chunk1 {e' : EltTy} (a : Memref sig .tc .vmem S1x8192 e') (ha : a.IsWhole) (x : Vec F S1x8192 e') (off : Fin 2 → ℕ) (n : ℕ)
    (hoff : off = ![0, 1024 * n]) (inb : ∀ d, off d + S1x1024.size d ≤ S1x8192.size d) (z : Fin 1) (q : Fin 1024) (h : 1024 * n + q.val < 8192) :
    View.readAt (Elt F) a.view (Rect.unit (s := S1x8192) off S1x1024.size inb).toLoadRect (ha.unread x) (ix2 z q)
      = x (ix2 z ⟨1024 * n + q.val, h⟩) := by
  subst hoff
  show View.ld (a.view.read (Elt F) (ha.unread x)) (Rect.unit (s := S1x8192) ![0, 1024 * n] S1x1024.size inb) (ix2 z q) = _
  rw [ha.read_unread]
  show x ((Rect.unit (s := S1x8192) ![0, 1024 * n] S1x1024.size inb).idx (ix2 z q)) = _
  congr 1; funext d; apply Fin.ext
  match d with
  | ⟨0, _⟩ => show 0 + 1 * z.val = z.val; omega
  | ⟨1, _⟩ => show 1024 * n + 1 * q.val = 1024 * n + q.val; omega

end Cert.KernelIdeal.Tile

end
-- ==== Proof.IdealChunks.lean ====
/-
  Two pure facts about how a tile walks over the columns.
  * The 8192 columns are eight chunks of 1024: taking, chunk after chunk, the larger of the carried value and the
    chunk's largest value (from −∞) gives the largest value over all columns; likewise with the smallest (from +∞).
  * The 32-bit words the row and column numbers are computed in never wrap for numbers this small: the word of a
    tile's first row, the word of a chunk's first column, and equality of two sums of small words.
-/
import Mathlib.Data.EReal.Basic
import Mathlib.Data.Finset.Fold
import Mathlib.Data.Finset.Lattice.Fold
import Idealize.ShloMosaic.Lib.Scf
import Idealize.ShloMosaic.PureOps

noncomputable section

namespace Cert.KernelIdeal.Tile

open Idealize.ShloMosaic

/-! ## Eight chunks of 1024 columns -/

/-- The largest value over the first `n` chunks (at most eight), taken chunk after chunk from −∞. -/
def chunkSup (f : Fin 8192 → EReal) : ℕ → EReal
  | 0 => ⊥
  | n + 1 =>
    if h : n < 8 then
      max (chunkSup f n)
        ((Finset.univ : Finset (Fin 1024)).fold max ⊥ fun q => f ⟨1024 * n + q.val, by have := q.isLt; omega⟩)
    else chunkSup f n

/-- The smallest value over the first `n` chunks (at most eight), taken chunk after chunk from +∞. -/
def chunkInf (f : Fin 8192 → EReal) : ℕ → EReal
  | 0 => ⊤
  | n + 1 =>
    if h : n < 8 then
      min (chunkInf f n)
        ((Finset.univ : Finset (Fin 1024)).fold min ⊤ fun q => f ⟨1024 * n + q.val, by have := q.isLt; omega⟩)
    else chunkInf f n

/-- What lies above the first `n` chunks' largest value: what lies above every value in those chunks. -/
theorem chunkSup_le_iff (f : Fin 8192 → EReal) (x : EReal) (n : ℕ) (hn : n ≤ 8) :
    chunkSup f n ≤ x ↔ ∀ r : Fin 8192, r.val < 1024 * n → f r ≤ x := by
  induction n with
  | zero =>
    constructor
    · intro _ r hr; omega
    · intro _; exact bot_le
  | succ n ih =>
    have hn' : n < 8 := by omega
    rw [chunkSup, dif_pos hn', max_le_iff, ih (by omega), Finset.fold_max_le]
    constructor
    · rintro ⟨h1, -, h2⟩ r hr
      by_cases hlt : r.val < 1024 * n
      · exact h1 r hlt
      · have hq : r.val - 1024 * n < 1024 := by omega
        have := h2 ⟨r.val - 1024 * n, hq⟩ (Finset.mem_univ _)
        have hr' : (⟨1024 * n + (r.val - 1024 * n), by omega⟩ : Fin 8192) = r := Fin.ext (by show 1024 * n + (r.val - 1024 * n) = r.val; omega)
        rw [hr'] at this
        exact this
    · intro h
      refine ⟨fun r hr => h r (by omega), bot_le, fun q _ => h _ ?_⟩
      show 1024 * n + q.val < 1024 * (n + 1)
      have := q.isLt
      omega

/-- Dually below the smallest value. -/
theorem le_chunkInf_iff (f : Fin 8192 → EReal) (x : EReal) (n : ℕ) (hn : n ≤ 8) :
    x ≤ chunkInf f n ↔ ∀ r : Fin 8192, r.val < 1024 * n → x ≤ f r := by
  induction n with
  | zero =>
    constructor
    · intro _ r hr; omega
    · intro _; exact le_top
  | succ n ih =>
    have hn' : n < 8 := by omega
    rw [chunkInf, dif_pos hn', le_min_iff, ih (by omega), Finset.le_fold_min]
    constructor
    · rintro ⟨h1, -, h2⟩ r hr
      by_cases hlt : r.val < 1024 * n
      · exact h1 r hlt
      · have hq : r.val - 1024 * n < 1024 := by omega
        have := h2 ⟨r.val - 1024 * n, hq⟩ (Finset.mem_univ _)
        have hr' : (⟨1024 * n + (r.val - 1024 * n), by omega⟩ : Fin 8192) = r := Fin.ext (by show 1024 * n + (r.val - 1024 * n) = r.val; omega)
        rw [hr'] at this
        exact this
    · intro h
      refine ⟨fun r hr => h r (by omega), le_top, fun q _ => h _ ?_⟩
      show 1024 * n + q.val < 1024 * (n + 1)
      have := q.isLt
      omega

/-- Eight chunks cover the columns: the chunked maximum is the maximum over all columns. -/
theorem chunkSup_eight (f : Fin 8192 → EReal) : chunkSup f 8 = Finset.univ.sup f := by
  refine eq_of_forall_ge_iff fun c => ?_
  rw [chunkSup_le_iff f c 8 le_rfl, Finset.sup_le_iff]
  exact ⟨fun h r _ => h r r.isLt, fun h r _ => h r (Finset.mem_univ r)⟩

/-- The chunked minimum is the minimum over all columns. -/
theorem chunkInf_eight (f : Fin 8192 → EReal) : chunkInf f 8 = Finset.univ.inf f := by
  refine eq_of_forall_le_iff fun c => ?_
  rw [le_chunkInf_iff f c 8 le_rfl, Finset.le_inf_iff]
  exact ⟨fun h r _ => h r r.isLt, fun h r _ => h r (Finset.mem_univ r)⟩

/-! ## Row and column numbers as 32-bit words -/

/-- The first row of sub-tile `s` of grid step `t`: 2048·t + 256·s, computed in words. -/
theorem row_word (t : Fin 4) (s : Fin 8) :
    Scalar.addi (Scalar.muli (BitVec.ofNat 32 t.val) 2048#32) (BitVec.ofNat 32 (256 * s.val))
      = BitVec.ofNat 32 (2048 * t.val + 256 * s.val) := by
  show BitVec.ofNat 32 t.val * 2048#32 + BitVec.ofNat 32 (256 * s.val) = _
  apply BitVec.eq_of_toNat_eq
  simp only [BitVec.toNat_add, BitVec.toNat_mul, BitVec.toNat_ofNat]
  have := t.isLt
  have := s.isLt
  omega

/-- The first column of chunk `k`: 1024·k, computed in words from the loop's counter. -/
theorem col_word (k : ℕ) : Scalar.muli (Scf.iv 0#32 1#32 k) 1024#32 = BitVec.ofNat 32 (1024 * k) := by
  show (0#32 + BitVec.ofNat 32 k * 1#32) * 1024#32 = _
  apply BitVec.eq_of_toNat_eq
  simp only [BitVec.toNat_add, BitVec.toNat_mul, BitVec.toNat_ofNat]
  omega

/-- Two sums of small words are equal exactly when the sums of the numbers are. -/
theorem word_eq_iff (a b c d : ℕ) (h : a + b < 2 ^ 31) (h' : c + d < 2 ^ 31) :
    BitVec.ofNat 32 a + BitVec.ofNat 32 b = BitVec.ofNat 32 c + BitVec.ofNat 32 d ↔ a + b = c + d := by
  constructor
  · intro he
    have := congrArg BitVec.toNat he
    simp only [BitVec.toNat_add, BitVec.toNat_ofNat] at this
    omega
  · intro he
    apply BitVec.eq_of_toNat_eq
    simp only [BitVec.toNat_add, BitVec.toNat_ofNat]
    omega

end Cert.KernelIdeal.Tile

end
-- ==== Proof.Spec.lean ====
/-
  The loss as one function of the embeddings `e` (8192 rows of width 128, as extended reals) and the labels, written
  twice: in the kernel's arrangement and in the reference's.
  Both start from the squared distance sq r j = (‖x_r‖² + ‖x_j‖²) − 2⟨x_r, x_j⟩, the positive pairs (same label, other
  row) and the negative pairs (another label).
  The kernel's arrangement: per anchor the largest sq over the positives and the smallest over the negatives, −∞ / +∞
  standing for "none"; an anchor counts when neither sentinel survived; the square root of the clamped extremes goes
  into the hinge; the hinge terms and the counts are added tile by tile (32 tiles of 256 anchors) and then over tiles.
  The reference's arrangement: the distance of every pair first (its guarded square root), then the largest and the
  smallest distance; an anchor counts when it has a positive and a negative; one sum over all anchors, one integer
  count.
-/
import Idealize.ShloMosaic.PureOps.Ideal
import Idealize.ShloMosaic.PureOps.Ideal.Laws

noncomputable section

namespace Cert.Spec

open Idealize.ShloMosaic

variable (e : Fin 8192 → Fin 128 → EReal) (lab : Fin 8192 → BitVec 32)

/-- ‖x_r‖² as the host sums it: the initial value 0 plus the sum of the squares. -/
def nrm (r : Fin 8192) : EReal := 0 + ∑ k : Fin 128, e r k * e r k
/-- ⟨x_r, x_j⟩. -/
def gram (r j : Fin 8192) : EReal := ∑ k : Fin 128, e r k * e j k
/-- The squared distance, as both programs compute it. -/
def sq (r j : Fin 8192) : EReal := (nrm e r + nrm e j) - 2 * gram e r j

/-- A positive pair: the same label, another row. -/
def pos (r j : Fin 8192) : Prop := lab r = lab j ∧ r ≠ j
/-- A negative pair: another label. -/
def neg (r j : Fin 8192) : Prop := lab r ≠ lab j
instance (r j : Fin 8192) : Decidable (pos lab r j) := inferInstanceAs (Decidable (_ ∧ _))
instance (r j : Fin 8192) : Decidable (neg lab r j) := inferInstanceAs (Decidable (_ ≠ _))

/-- The hinge of a positive and a negative distance, margin 1. -/
def hinge (a b : EReal) : EReal := max (a - b + 1) 0
/-- The square root of a value clamped at zero. -/
def root (x : EReal) : EReal := Ideal.sqrt (max x 0)

/-! ## The kernel's arrangement -/

def mpos (r : Fin 8192) : EReal := Finset.univ.sup fun j => if pos lab r j then sq e r j else ⊥
def mneg (r : Fin 8192) : EReal := Finset.univ.inf fun j => if neg lab r j then sq e r j else ⊤
def validK (r : Fin 8192) : Prop := ⊥ < mpos e lab r ∧ mneg e lab r < ⊤
instance (r : Fin 8192) : Decidable (validK e lab r) := Classical.propDecidable _
def tripK (r : Fin 8192) : EReal := if validK e lab r then hinge (root (mpos e lab r)) (root (mneg e lab r)) else 0
def cntK (r : Fin 8192) : EReal := if validK e lab r then 1 else 0
/-- Anchor `p` of tile `T`. -/
def row (T : Fin 32) (p : Fin 256) : Fin 8192 := ⟨256 * T.val + p.val, by omega⟩
def outK : EReal :=
  Ideal.div (0 + ∑ T : Fin 32, ∑ p : Fin 256, tripK e lab (row T p))
    (max (0 + ∑ T : Fin 32, ∑ p : Fin 256, cntK e lab (row T p)) 1)

/-! ## The reference's arrangement -/

def dist (r j : Fin 8192) : EReal :=
  if 0 < max (sq e r j) 0 then Ideal.sqrt (if 0 < max (sq e r j) 0 then max (sq e r j) 0 else 1) else 0
def hpos (r : Fin 8192) : EReal := Finset.univ.sup fun j => if pos lab r j then dist e r j else ⊥
def hneg (r : Fin 8192) : EReal := Finset.univ.inf fun j => if neg lab r j then dist e r j else ⊤
def validR (r : Fin 8192) : Prop := (∃ j, pos lab r j) ∧ (∃ j, neg lab r j)
instance (r : Fin 8192) : Decidable (validR lab r) := Classical.propDecidable _
def tripR (r : Fin 8192) : EReal := if validR lab r then hinge (hpos e lab r) (hneg e lab r) else 0
/-- How many anchors have both a positive and a negative. -/
def cntR : ℕ := (Finset.univ.filter fun r => validR lab r).card
def outR : EReal :=
  Ideal.div (0 + ∑ r : Fin 8192, tripR e lab r) (((max (cntR lab) 1 : ℕ) : ℝ) : EReal)

end Cert.Spec

end
-- ==== Proof.IdealTileSum.lean ====
/-
  The two sums a tile of 256 anchors contributes, over the extended reals.
  An anchor counts when its running maximum (over its positives) is above −∞ and its running minimum (over its
  negatives) is below +∞. The tile's hinge sum adds, over its anchors, max(√max(a,0) − √max(b,0) + 1, 0) where the
  anchor counts and 0 where it does not; the tile's count adds 1 and 0 likewise (the one-bit mask widened to a word
  and read as an integer).
-/
import proofs.«149814_j11527692222870_2_alg».proof.Proof.Gen.KernelIdeal.Skeleton
import proofs.«149814_j11527692222870_2_alg».proof.Proof.LibColRow
import proofs.«149814_j11527692222870_2_alg».proof.Proof.Lits
import proofs.«149814_j11527692222870_2_alg».proof.Proof.Spec
import Idealize.ShloMosaic.Lib.ValueIdx
import Idealize.ShloMosaic.Lib.Affine
import Idealize.ShloMosaic.Lib.Pipeline.Value
import Idealize.ShloMosaic.PureOps.Ideal.Laws

set_option maxRecDepth 16384

noncomputable section

namespace Cert.KernelIdeal.Tile

open Cert.KernelIdeal
open Cert.KernelIdeal.Gen (k0_pay8 k0_pay9 k0_pay10 k0_pay11)
open Idealize.ShloMosaic Idealize.ShloMosaic.TcCoe Idealize.ShloMosaic.ValueIdx
open Cert.KernelIdeal.Facts₀ Cert.KernelIdeal.Facts

/-- A one-bit word made from a truth value is 1 exactly when the value is true. -/
theorem ofBool_eq_one_iff {b : Bool} : BitVec.ofBool b = 1#1 ↔ b = true := by cases b <;> decide

/-- The ordered "greater than" on the extended reals. -/
theorem cmp_ogt_eq_one (x y : EReal) : Ideal.cmp .ogt x y = 1#1 ↔ y < x := by
  unfold Ideal.cmp
  rw [ofBool_eq_one_iff]
  exact decide_eq_true_iff
/-- The ordered "less than" on the extended reals. -/
theorem cmp_olt_eq_one (x y : EReal) : Ideal.cmp .olt x y = 1#1 ↔ x < y := by
  unfold Ideal.cmp
  rw [ofBool_eq_one_iff]
  exact decide_eq_true_iff

theorem scalar_ofBits_f32 (b : BitVec 32) : (Scalar.ofBits .f32 b : Ideal .f32) = Ideal.ofBits .f32 b := rfl

/-- Anchor p counts: its running maximum is above −∞ and its running minimum below +∞. -/
theorem pay8_apply (A B : FVec Ideal S256x1 .f32) (p : Fin 256) :
    k0_pay8 (F := Ideal) A B (ix2 p (0 : Fin 1)) = 1#1 ↔ (⊥ < A (ix2 p (0 : Fin 1)) ∧ B (ix2 p (0 : Fin 1)) < ⊤) := by
  unfold k0_pay8
  simp only [andi, cmpf_apply, broadcast_apply]
  rw [IntOp.andi_eq_one]
  show Ideal.cmp .ogt _ _ = 1#1 ∧ Ideal.cmp .olt _ _ = 1#1 ↔ _
  rw [cmp_ogt_eq_one, cmp_olt_eq_one, scalar_ofBits_f32, scalar_ofBits_f32, Cert.Lits.negInf, Cert.Lits.posInf]

/-- The coordinate the reduction over the 256 anchors inserts. -/
theorem lift_col (p : Fin 256) : reduces_S256x1_S1.lift (ix1 (0 : Fin 1)) p = ix2 p (0 : Fin 1) :=
  funext fun a => Fin.ext (by match a with | ⟨0, _⟩ => rfl | ⟨1, _⟩ => rfl)

/-- The vector square root at an index. -/
theorem sqrt_apply' {s : Shape} {φ : FTy} (a : FVec Ideal s φ) (i : s.Idx) : sqrt a i = Ideal.sqrt (a i) := rfl

/-- The tile's hinge sum: over its 256 anchors, the hinge of the roots of the running extremes where the anchor
    counts, 0 where it does not. -/
theorem pay9_apply (A B : FVec Ideal S256x1 .f32) :
    k0_pay9 (F := Ideal) A B (ix2 (0 : Fin 1) (0 : Fin 1))
      = ∑ p : Fin 256, (if (⊥ < A (ix2 p (0 : Fin 1)) ∧ B (ix2 p (0 : Fin 1)) < ⊤) then
          Cert.Spec.hinge (Cert.Spec.root (A (ix2 p (0 : Fin 1)))) (Cert.Spec.root (B (ix2 p (0 : Fin 1)))) else 0) := by
  unfold k0_pay9
  rw [Cert.LibColRow.shapeCast_col_apply]
  refine (Ideal.multiReduction_add_single _ _ reduces_S256x1_S1 _ _ _).trans ?_
  refine Fintype.sum_congr _ _ fun (p : Fin 256) => ?_
  show select _ _ _ (reduces_S256x1_S1.lift (ix1 (0 : Fin 1)) p) = _
  rw [lift_col, select_apply]
  unfold Scalar.select
  refine if_congr (pay8_apply A B p) ?_ ?_
  · simp only [maximumf_apply, addf_apply, subf_apply, broadcast_apply, sqrt_apply']
    rw [scalar_ofBits_f32, scalar_ofBits_f32, Cert.Lits.zero, Cert.Lits.one]
    rfl
  · rw [broadcast_apply, scalar_ofBits_f32, Cert.Lits.zero]

/-- A one-bit word widened to 32 bits and read as a signed integer: 1 or 0. -/
theorem sitofp_extui_bit (c : BitVec 1) :
    (FloatOps.sitofp (F := Ideal) .f32 (c.setWidth 32) : EReal) = if c = 1#1 then 1 else 0 := by
  have hc : c = 0#1 ∨ c = 1#1 := by revert c; decide
  rcases hc with rfl | rfl
  · show (((BitVec.setWidth 32 0#1).toInt : ℝ) : EReal) = _
    have h0 : (BitVec.setWidth 32 0#1).toInt = 0 := by decide
    rw [h0, if_neg (by decide)]
    simp
  · show (((BitVec.setWidth 32 1#1).toInt : ℝ) : EReal) = _
    have h1 : (BitVec.setWidth 32 1#1).toInt = 1 := by decide
    rw [h1, if_pos rfl]
    simp

/-- The tile's count: the number of its anchors that count, as a sum of ones and zeros. -/
theorem pay11_apply (A B : FVec Ideal S256x1 .f32) :
    k0_pay11 (F := Ideal) (k0_pay10 (F := Ideal) A B) (ix2 (0 : Fin 1) (0 : Fin 1))
      = ∑ p : Fin 256, (if (⊥ < A (ix2 p (0 : Fin 1)) ∧ B (ix2 p (0 : Fin 1)) < ⊤) then (1 : EReal) else 0) := by
  unfold k0_pay11 k0_pay10
  rw [Cert.LibColRow.shapeCast_col_apply]
  refine (Ideal.multiReduction_add_single _ _ reduces_S256x1_S1 _ _ _).trans ?_
  refine Fintype.sum_congr _ _ fun (p : Fin 256) => ?_
  show sitofp _ _ (reduces_S256x1_S1.lift (ix1 (0 : Fin 1)) p) = _
  rw [lift_col, sitofp_apply, extui_apply, sitofp_extui_bit]
  exact if_congr (pay8_apply A B p) rfl rfl

end Cert.KernelIdeal.Tile

end
-- ==== Proof.IdealTileMain.lean ====
/-
  One tile of 256 anchors, run against the eight chunks of 1024 columns, over the extended reals.
  The tile starts at global row R0. Step k takes, per anchor, the larger of the carried maximum and the largest
  squared distance to the positive columns of chunk k (−∞ where there is none), and the smaller of the carried
  minimum and the smallest squared distance to the negative columns of chunk k (+∞). Inside a chunk a pair is
  positive when the labels agree and the global row and column numbers (computed in 32-bit words, which do not wrap
  for numbers below 8192) differ; it is negative when the labels differ. So after the eight steps anchor p carries the
  largest squared distance over all its positives and the smallest over all its negatives, and the tile's hinge sum
  and count are the sums of the anchors' hinge terms and counts.
-/
import proofs.«149814_j11527692222870_2_alg».proof.Proof.IdealTile
import proofs.«149814_j11527692222870_2_alg».proof.Proof.IdealChunks
import proofs.«149814_j11527692222870_2_alg».proof.Proof.IdealTileSum
import proofs.«149814_j11527692222870_2_alg».proof.Proof.Spec

set_option maxRecDepth 16384

noncomputable section

namespace Cert.KernelIdeal.Tile

open Cert.KernelIdeal
open Cert.KernelIdeal.Gen (k0_pay7 k0_pay9 k0_pay10 k0_pay11)
open Idealize.ShloMosaic Idealize.ShloMosaic.TcCoe Idealize.ShloMosaic.ValueIdx
open Cert.KernelIdeal.Facts₀ Cert.KernelIdeal.Facts

/-- One more chunk (of the first eight): the larger of what the chunks so far gave and the chunk's largest value. -/
theorem chunkSup_succ (f : Fin 8192 → EReal) (n : ℕ) (h : n < 8) :
    chunkSup f (n + 1) = max (chunkSup f n)
      ((Finset.univ : Finset (Fin 1024)).fold max ⊥ fun q => f ⟨1024 * n + q.val, by omega⟩) := by
  rw [chunkSup, dif_pos h]
/-- Dually for the smallest value. -/
theorem chunkInf_succ (f : Fin 8192 → EReal) (n : ℕ) (h : n < 8) :
    chunkInf f (n + 1) = min (chunkInf f n)
      ((Finset.univ : Finset (Fin 1024)).fold min ⊤ fun q => f ⟨1024 * n + q.val, by omega⟩) := by
  rw [chunkInf, dif_pos h]

/-- What a tile's run is made of: the tile's rows of the embeddings, norms and labels (rows R0 … R0+255), the eight
    chunks' rows of the same (chunk k: columns 1024k … 1024k+1023), the words of the first row and of the chunks'
    first columns, and the carried pair, started at (−∞, +∞) and stepped once per chunk. -/
structure TileRun (e : Fin 8192 → Fin 128 → EReal) (lab : Fin 8192 → BitVec 32) (R0 : ℕ) (hR : R0 + 256 ≤ 8192)
    (b : BitVec 32) (v1 : Vec Ideal S256x128 .f32) (v2 : Vec Ideal S256x1 .f32) (v4 : Vec Ideal S256x1 .i32)
    (cs : ℕ → BitVec 32) (L2 : ℕ → Vec Ideal S1024x128 .f32) (L4 : ℕ → Vec Ideal S1x1024 .f32)
    (L6 : ℕ → Vec Ideal S1x1024 .i32) (S : ℕ → FVec Ideal S256x1 .f32 × FVec Ideal S256x1 .f32) : Prop where
  hb : b = BitVec.ofNat 32 R0
  hv1 : ∀ (p : Fin 256) (k : Fin 128), v1 (ix2 p k) = e ⟨R0 + p.val, by omega⟩ k
  hv2 : ∀ p : Fin 256, v2 (ix2 p (0 : Fin 1)) = Cert.Spec.nrm e ⟨R0 + p.val, by omega⟩
  hv4 : ∀ p : Fin 256, v4 (ix2 p (0 : Fin 1)) = lab ⟨R0 + p.val, by omega⟩
  hcs : ∀ k, k < 8 → cs k = BitVec.ofNat 32 (1024 * k)
  hL2 : ∀ k (hk : k < 8) (q : Fin 1024) (k' : Fin 128), L2 k (ix2 q k') = e ⟨1024 * k + q.val, by omega⟩ k'
  hL4 : ∀ k (hk : k < 8) (q : Fin 1024), L4 k (ix2 (0 : Fin 1) q) = Cert.Spec.nrm e ⟨1024 * k + q.val, by omega⟩
  hL6 : ∀ k (hk : k < 8) (q : Fin 1024), L6 k (ix2 (0 : Fin 1) q) = lab ⟨1024 * k + q.val, by omega⟩
  h0 : ∀ p : Fin 256, (S 0).1 (ix2 p (0 : Fin 1)) = ⊥ ∧ (S 0).2 (ix2 p (0 : Fin 1)) = ⊤
  hS : ∀ k, k < 8 → S (k + 1) = (maxStepG b (cs k) v1 v2 v4 (S k).1 (L2 k) (L4 k) (L6 k),
        k0_pay7 v1 v2 v4 (S k).2 (L2 k) (L4 k) (L6 k))

section Run
variable {e : Fin 8192 → Fin 128 → EReal} {lab : Fin 8192 → BitVec 32} {R0 : ℕ} {hR : R0 + 256 ≤ 8192}
  {b : BitVec 32} {v1 : Vec Ideal S256x128 .f32} {v2 : Vec Ideal S256x1 .f32} {v4 : Vec Ideal S256x1 .i32}
  {cs : ℕ → BitVec 32} {L2 : ℕ → Vec Ideal S1024x128 .f32} {L4 : ℕ → Vec Ideal S1x1024 .f32}
  {L6 : ℕ → Vec Ideal S1x1024 .i32} {S : ℕ → FVec Ideal S256x1 .f32 × FVec Ideal S256x1 .f32}

/-- Inside chunk k the kernel's positive pairs are the specification's: equal labels, and the global row R0 + p is not
    the global column 1024k + q. -/
theorem TileRun.posW_iff (H : TileRun e lab R0 hR b v1 v2 v4 cs L2 L4 L6 S) (k : ℕ) (hk : k < 8) (p : Fin 256)
    (q : Fin 1024) :
    posW b (cs k) v4 (L6 k) p q ↔ Cert.Spec.pos lab ⟨R0 + p.val, by omega⟩ ⟨1024 * k + q.val, by omega⟩ := by
  unfold posW Cert.Spec.pos
  rw [H.hv4 p, H.hL6 k hk q, H.hb, H.hcs k hk,
    word_eq_iff p.val R0 q.val (1024 * k) (by have := p.isLt; omega) (by have := q.isLt; omega)]
  refine and_congr Iff.rfl (not_congr ?_)
  rw [Fin.ext_iff]
  show p.val + R0 = q.val + 1024 * k ↔ R0 + p.val = 1024 * k + q.val
  omega

/-- The negative pairs likewise: other labels. -/
theorem TileRun.negW_iff (H : TileRun e lab R0 hR b v1 v2 v4 cs L2 L4 L6 S) (k : ℕ) (hk : k < 8) (p : Fin 256)
    (q : Fin 1024) :
    negW v4 (L6 k) p q ↔ Cert.Spec.neg lab ⟨R0 + p.val, by omega⟩ ⟨1024 * k + q.val, by omega⟩ := by
  unfold negW Cert.Spec.neg
  rw [H.hv4 p, H.hL6 k hk q]

/-- The tile's squared distance to a column of chunk k is the specification's. -/
theorem TileRun.sqW_eq (H : TileRun e lab R0 hR b v1 v2 v4 cs L2 L4 L6 S) (k : ℕ) (hk : k < 8) (p : Fin 256)
    (q : Fin 1024) :
    sqW v1 v2 (L2 k) (L4 k) p q = Cert.Spec.sq e ⟨R0 + p.val, by omega⟩ ⟨1024 * k + q.val, by omega⟩ := by
  unfold sqW Cert.Spec.sq Cert.Spec.gram
  rw [H.hv2 p, H.hL4 k hk q]
  refine congrArg (fun t => _ - 2 * t) (Finset.sum_congr rfl fun k' _ => ?_)
  rw [H.hv1 p k', H.hL2 k hk q k']

/-- After n steps (n ≤ 8) anchor p carries the extremes over the first n chunks. -/
theorem TileRun.run (H : TileRun e lab R0 hR b v1 v2 v4 cs L2 L4 L6 S) (p : Fin 256) (n : ℕ) (hn : n ≤ 8) :
    (S n).1 (ix2 p (0 : Fin 1))
        = chunkSup (fun j => if Cert.Spec.pos lab ⟨R0 + p.val, by omega⟩ j then Cert.Spec.sq e ⟨R0 + p.val, by omega⟩ j else ⊥) n
      ∧ (S n).2 (ix2 p (0 : Fin 1))
        = chunkInf (fun j => if Cert.Spec.neg lab ⟨R0 + p.val, by omega⟩ j then Cert.Spec.sq e ⟨R0 + p.val, by omega⟩ j else ⊤) n := by
  induction n with
  | zero => exact H.h0 p
  | succ n ih =>
    have hk : n < 8 := by omega
    obtain ⟨ih1, ih2⟩ := ih (by omega)
    rw [H.hS n hk]
    constructor
    · show maxStepG b (cs n) v1 v2 v4 (S n).1 (L2 n) (L4 n) (L6 n) (ix2 p (0 : Fin 1)) = _
      rw [maxStepG_apply, chunkSup_succ _ n hk, ih1]
      refine congrArg (max _) (Finset.fold_congr fun q _ => ?_)
      exact if_congr (H.posW_iff n hk p q) (H.sqW_eq n hk p q) rfl
    · show k0_pay7 v1 v2 v4 (S n).2 (L2 n) (L4 n) (L6 n) (ix2 p (0 : Fin 1)) = _
      rw [pay7_apply, chunkInf_succ _ n hk, ih2]
      refine congrArg (min _) (Finset.fold_congr fun q _ => ?_)
      exact if_congr (H.negW_iff n hk p q) (H.sqW_eq n hk p q) rfl

/-- After the eight steps anchor p carries the largest squared distance over its positives and the smallest over
    its negatives. -/
theorem tile_seq (H : TileRun e lab R0 hR b v1 v2 v4 cs L2 L4 L6 S) (p : Fin 256) :
    (S 8).1 (ix2 p (0 : Fin 1)) = Cert.Spec.mpos e lab ⟨R0 + p.val, by omega⟩
      ∧ (S 8).2 (ix2 p (0 : Fin 1)) = Cert.Spec.mneg e lab ⟨R0 + p.val, by omega⟩ := by
  obtain ⟨h1, h2⟩ := H.run p 8 le_rfl
  rw [h1, h2, chunkSup_eight, chunkInf_eight]
  exact ⟨rfl, rfl⟩

/-- The tile's hinge sum is the sum of its anchors' hinge terms. -/
theorem tile_sum (H : TileRun e lab R0 hR b v1 v2 v4 cs L2 L4 L6 S) :
    k0_pay9 (F := Ideal) (S 8).1 (S 8).2 (ix2 (0 : Fin 1) (0 : Fin 1))
      = ∑ p : Fin 256, Cert.Spec.tripK e lab ⟨R0 + p.val, by omega⟩ := by
  rw [pay9_apply]
  refine Fintype.sum_congr _ _ fun p => ?_
  obtain ⟨h1, h2⟩ := tile_seq H p
  rw [h1, h2]
  unfold Cert.Spec.tripK
  refine if_congr ?_ rfl rfl
  unfold Cert.Spec.validK
  exact Iff.rfl

/-- The tile's count is the sum of its anchors' counts. -/
theorem tile_cnt (H : TileRun e lab R0 hR b v1 v2 v4 cs L2 L4 L6 S) :
    k0_pay11 (F := Ideal) (k0_pay10 (F := Ideal) (S 8).1 (S 8).2) (ix2 (0 : Fin 1) (0 : Fin 1))
      = ∑ p : Fin 256, Cert.Spec.cntK e lab ⟨R0 + p.val, by omega⟩ := by
  rw [pay11_apply]
  refine Fintype.sum_congr _ _ fun p => ?_
  obtain ⟨h1, h2⟩ := tile_seq H p
  rw [h1, h2]
  unfold Cert.Spec.cntK
  refine if_congr ?_ rfl rfl
  unfold Cert.Spec.validK
  exact Iff.rfl

end Run

end Cert.KernelIdeal.Tile

end
-- ==== Proof.IdealOutA.lean ====
/-
  What one grid point leaves in its two 8-entry output blocks, read down to the eight tiles' loop results.
  The body handles the point's 2048 rows as eight tiles of 256 rows. For each tile a loop over the column chunks
  carries the row-wise maximum over the positive pairs and minimum over the negative pairs; from the final pair the tile's
  sum of hinge terms and its count of valid anchors are formed; the eight sums are concatenated into one 8-entry
  column and stored whole, and so are the eight counts. So each output block is its one stored column.
-/
import proofs.«149814_j11527692222870_2_alg».proof.Proof.IdealKit
import Idealize.ShloMosaic.Lib.ValueIdx
import Idealize.ShloMosaic.Lib.Pipeline.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)
/-- The first row of the point's 2048-row block, as a 32-bit word. -/
abbrev rowBase (t : Fin cfg0.N) : BitVec 32 := Scalar.muli (BitVec.ofNat 32 ((grid0.coords t) 0).val) 2048#32

/-- Tile 0 of point `t` (rows 0 … 255 of the block): the running row maxima over the positives and row minima over
    the negatives after all column chunks. -/
abbrev stAt1 (c : Dev nD) (t : Fin cfg0.N) : FVec F S256x1 .f32 × FVec F S256x1 .f32 :=
  st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (View.readAt (Elt F) (ms0_0 t).view (Rect.unit (s := S2048x128) ![0, 0] S256x128.size inb_S2048x128_S256x128_0_0).toLoadRect ((hs0_0 t).unread (iblk m c 0 t)))
    (View.readAt (Elt F) (ms0_2 t).view (Rect.unit (s := S2048x1) ![0, 0] S256x1.size inb_S2048x1_S256x1_0_0).toLoadRect ((hs0_2 t).unread (iblk m c 2 t)))
    (View.readAt (Elt F) (ms0_4 t).view (Rect.unit (s := S2048x1) ![0, 0] S256x1.size inb_S2048x1_S256x1_0_0).toLoadRect ((hs0_4 t).unread (iblk m c 4 t)))
    ((hs0_1 t).unread (iblk m c 1 t)) ((hs0_3 t).unread (iblk m c 3 t)) ((hs0_5 t).unread (iblk m c 5 t)) (k0_pay2, k0_pay3) (Scf.trips k0_t1_loop.lb k0_t1_loop.ub k0_t1_loop.st)

/-- Tile 1 of point `t` (rows 256 … 511 of the block): the running row maxima over the positives and row minima over
    the negatives after all column chunks. -/
abbrev stAt2 (c : Dev nD) (t : Fin cfg0.N) : FVec F S256x1 .f32 × FVec F S256x1 .f32 :=
  st_k0_t2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (k0_pay10 (stAt1 m c t).1 (stAt1 m c t).2) (View.readAt (Elt F) (ms0_0 t).view (Rect.unit (s := S2048x128) ![256, 0] S256x128.size inb_S2048x128_S256x128_256_0).toLoadRect ((hs0_0 t).unread (iblk m c 0 t)))
    (View.readAt (Elt F) (ms0_2 t).view (Rect.unit (s := S2048x1) ![256, 0] S256x1.size inb_S2048x1_S256x1_256_0).toLoadRect ((hs0_2 t).unread (iblk m c 2 t)))
    (View.readAt (Elt F) (ms0_4 t).view (Rect.unit (s := S2048x1) ![256, 0] S256x1.size inb_S2048x1_S256x1_256_0).toLoadRect ((hs0_4 t).unread (iblk m c 4 t)))
    ((hs0_1 t).unread (iblk m c 1 t)) ((hs0_3 t).unread (iblk m c 3 t)) ((hs0_5 t).unread (iblk m c 5 t)) (k0_pay12, k0_pay13) (Scf.trips k0_t2_loop.lb k0_t2_loop.ub k0_t2_loop.st)

/-- Tile 2 of point `t` (rows 512 … 767 of the block): the running row maxima over the positives and row minima over
    the negatives after all column chunks. -/
abbrev stAt3 (c : Dev nD) (t : Fin cfg0.N) : FVec F S256x1 .f32 × FVec F S256x1 .f32 :=
  st_k0_t3 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (k0_pay20 (stAt2 m c t).1 (stAt2 m c t).2) (View.readAt (Elt F) (ms0_0 t).view (Rect.unit (s := S2048x128) ![512, 0] S256x128.size inb_S2048x128_S256x128_512_0).toLoadRect ((hs0_0 t).unread (iblk m c 0 t)))
    (View.readAt (Elt F) (ms0_2 t).view (Rect.unit (s := S2048x1) ![512, 0] S256x1.size inb_S2048x1_S256x1_512_0).toLoadRect ((hs0_2 t).unread (iblk m c 2 t)))
    (View.readAt (Elt F) (ms0_4 t).view (Rect.unit (s := S2048x1) ![512, 0] S256x1.size inb_S2048x1_S256x1_512_0).toLoadRect ((hs0_4 t).unread (iblk m c 4 t)))
    ((hs0_1 t).unread (iblk m c 1 t)) ((hs0_3 t).unread (iblk m c 3 t)) ((hs0_5 t).unread (iblk m c 5 t)) (k0_pay22, k0_pay23) (Scf.trips k0_t3_loop.lb k0_t3_loop.ub k0_t3_loop.st)

/-- Tile 3 of point `t` (rows 768 … 1023 of the block): the running row maxima over the positives and row minima over
    the negatives after all column chunks. -/
abbrev stAt4 (c : Dev nD) (t : Fin cfg0.N) : FVec F S256x1 .f32 × FVec F S256x1 .f32 :=
  st_k0_t4 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (View.readAt (Elt F) (ms0_0 t).view (Rect.unit (s := S2048x128) ![768, 0] S256x128.size inb_S2048x128_S256x128_768_0).toLoadRect ((hs0_0 t).unread (iblk m c 0 t)))
    (View.readAt (Elt F) (ms0_2 t).view (Rect.unit (s := S2048x1) ![768, 0] S256x1.size inb_S2048x1_S256x1_768_0).toLoadRect ((hs0_2 t).unread (iblk m c 2 t)))
    (View.readAt (Elt F) (ms0_4 t).view (Rect.unit (s := S2048x1) ![768, 0] S256x1.size inb_S2048x1_S256x1_768_0).toLoadRect ((hs0_4 t).unread (iblk m c 4 t)))
    ((hs0_1 t).unread (iblk m c 1 t)) ((hs0_3 t).unread (iblk m c 3 t)) ((hs0_5 t).unread (iblk m c 5 t)) (k0_pay31, k0_pay32) (Scf.trips k0_t4_loop.lb k0_t4_loop.ub k0_t4_loop.st)

/-- Tile 4 of point `t` (rows 1024 … 1279 of the block): the running row maxima over the positives and row minima over
    the negatives after all column chunks. -/
abbrev stAt5 (c : Dev nD) (t : Fin cfg0.N) : FVec F S256x1 .f32 × FVec F S256x1 .f32 :=
  st_k0_t5 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (View.readAt (Elt F) (ms0_0 t).view (Rect.unit (s := S2048x128) ![1024, 0] S256x128.size inb_S2048x128_S256x128_1024_0).toLoadRect ((hs0_0 t).unread (iblk m c 0 t)))
    (View.readAt (Elt F) (ms0_2 t).view (Rect.unit (s := S2048x1) ![1024, 0] S256x1.size inb_S2048x1_S256x1_1024_0).toLoadRect ((hs0_2 t).unread (iblk m c 2 t)))
    (View.readAt (Elt F) (ms0_4 t).view (Rect.unit (s := S2048x1) ![1024, 0] S256x1.size inb_S2048x1_S256x1_1024_0).toLoadRect ((hs0_4 t).unread (iblk m c 4 t)))
    ((hs0_1 t).unread (iblk m c 1 t)) ((hs0_3 t).unread (iblk m c 3 t)) ((hs0_5 t).unread (iblk m c 5 t)) (k0_pay40, k0_pay41) (Scf.trips k0_t5_loop.lb k0_t5_loop.ub k0_t5_loop.st)

/-- Tile 5 of point `t` (rows 1280 … 1535 of the block): the running row maxima over the positives and row minima over
    the negatives after all column chunks. -/
abbrev stAt6 (c : Dev nD) (t : Fin cfg0.N) : FVec F S256x1 .f32 × FVec F S256x1 .f32 :=
  st_k0_t6 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (View.readAt (Elt F) (ms0_0 t).view (Rect.unit (s := S2048x128) ![1280, 0] S256x128.size inb_S2048x128_S256x128_1280_0).toLoadRect ((hs0_0 t).unread (iblk m c 0 t)))
    (View.readAt (Elt F) (ms0_2 t).view (Rect.unit (s := S2048x1) ![1280, 0] S256x1.size inb_S2048x1_S256x1_1280_0).toLoadRect ((hs0_2 t).unread (iblk m c 2 t)))
    (View.readAt (Elt F) (ms0_4 t).view (Rect.unit (s := S2048x1) ![1280, 0] S256x1.size inb_S2048x1_S256x1_1280_0).toLoadRect ((hs0_4 t).unread (iblk m c 4 t)))
    ((hs0_1 t).unread (iblk m c 1 t)) ((hs0_3 t).unread (iblk m c 3 t)) ((hs0_5 t).unread (iblk m c 5 t)) (k0_pay49, k0_pay50) (Scf.trips k0_t6_loop.lb k0_t6_loop.ub k0_t6_loop.st)

/-- Tile 6 of point `t` (rows 1536 … 1791 of the block): the running row maxima over the positives and row minima over
    the negatives after all column chunks. -/
abbrev stAt7 (c : Dev nD) (t : Fin cfg0.N) : FVec F S256x1 .f32 × FVec F S256x1 .f32 :=
  st_k0_t7 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (View.readAt (Elt F) (ms0_0 t).view (Rect.unit (s := S2048x128) ![1536, 0] S256x128.size inb_S2048x128_S256x128_1536_0).toLoadRect ((hs0_0 t).unread (iblk m c 0 t)))
    (View.readAt (Elt F) (ms0_2 t).view (Rect.unit (s := S2048x1) ![1536, 0] S256x1.size inb_S2048x1_S256x1_1536_0).toLoadRect ((hs0_2 t).unread (iblk m c 2 t)))
    (View.readAt (Elt F) (ms0_4 t).view (Rect.unit (s := S2048x1) ![1536, 0] S256x1.size inb_S2048x1_S256x1_1536_0).toLoadRect ((hs0_4 t).unread (iblk m c 4 t)))
    ((hs0_1 t).unread (iblk m c 1 t)) ((hs0_3 t).unread (iblk m c 3 t)) ((hs0_5 t).unread (iblk m c 5 t)) (k0_pay58, k0_pay59) (Scf.trips k0_t7_loop.lb k0_t7_loop.ub k0_t7_loop.st)

/-- Tile 7 of point `t` (rows 1792 … 2047 of the block): the running row maxima over the positives and row minima over
    the negatives after all column chunks. -/
abbrev stAt8 (c : Dev nD) (t : Fin cfg0.N) : FVec F S256x1 .f32 × FVec F S256x1 .f32 :=
  st_k0_t8 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (k0_pay9 (stAt1 m c t).1 (stAt1 m c t).2) (k0_pay19 (stAt2 m c t).1 (stAt2 m c t).2) (k0_pay29 (stAt3 m c t).1 (stAt3 m c t).2) (k0_pay38 (stAt4 m c t).1 (stAt4 m c t).2) (k0_pay47 (stAt5 m c t).1 (stAt5 m c t).2) (k0_pay56 (stAt6 m c t).1 (stAt6 m c t).2) (k0_pay65 (stAt7 m c t).1 (stAt7 m c t).2) (View.readAt (Elt F) (ms0_0 t).view (Rect.unit (s := S2048x128) ![1792, 0] S256x128.size inb_S2048x128_S256x128_1792_0).toLoadRect ((hs0_0 t).unread (iblk m c 0 t)))
    (View.readAt (Elt F) (ms0_2 t).view (Rect.unit (s := S2048x1) ![1792, 0] S256x1.size inb_S2048x1_S256x1_1792_0).toLoadRect ((hs0_2 t).unread (iblk m c 2 t)))
    (View.readAt (Elt F) (ms0_4 t).view (Rect.unit (s := S2048x1) ![1792, 0] S256x1.size inb_S2048x1_S256x1_1792_0).toLoadRect ((hs0_4 t).unread (iblk m c 4 t)))
    ((hs0_1 t).unread (iblk m c 1 t)) ((hs0_3 t).unread (iblk m c 3 t)) ((hs0_5 t).unread (iblk m c 5 t)) (k0_pay67, k0_pay68) (Scf.trips k0_t8_loop.lb k0_t8_loop.ub k0_t8_loop.st)

/-- The zero offset of a whole-block store. -/
theorem hz00 : (![0, 0] : Fin S8x1.rank → Nat) = fun _ => 0 := by
  funext a
  match a with
  | ⟨0, _⟩ => rfl
  | ⟨1, _⟩ => rfl

/-- The sums' block of point `t`: the concatenation of the eight tiles' sums (the last one still inside the
    concatenating function). -/
theorem out0_6_eq (c : Dev nD) (t : Fin cfg0.N) :
    out0_6 m c t = k0_pay75 (k0_pay9 (stAt1 m c t).1 (stAt1 m c t).2) (k0_pay19 (stAt2 m c t).1 (stAt2 m c t).2) (k0_pay29 (stAt3 m c t).1 (stAt3 m c t).2) (k0_pay38 (stAt4 m c t).1 (stAt4 m c t).2) (k0_pay47 (stAt5 m c t).1 (stAt5 m c t).2) (k0_pay56 (stAt6 m c t).1 (stAt6 m c t).2) (k0_pay65 (stAt7 m c t).1 (stAt7 m c t).2) (stAt8 m c t).1 (stAt8 m c t).2 := by
  unfold out0_6
  rw [View.read_writes_junk_eq_canon]
  unfold runAt kernelRun
  dsimp only
  rw [View.canon_unit_zero hz00]
  sl_unfold_run_names
  rfl

/-- The counts' block of point `t`: the concatenation of the eight tiles' counts. -/
theorem out0_7_eq (c : Dev nD) (t : Fin cfg0.N) :
    out0_7 m c t = k0_pay1 (k0_pay11 (k0_pay10 (stAt1 m c t).1 (stAt1 m c t).2)) (k0_pay21 (k0_pay20 (stAt2 m c t).1 (stAt2 m c t).2)) (k0_pay30 (stAt3 m c t).1 (stAt3 m c t).2) (k0_pay39 (stAt4 m c t).1 (stAt4 m c t).2) (k0_pay48 (stAt5 m c t).1 (stAt5 m c t).2) (k0_pay57 (stAt6 m c t).1 (stAt6 m c t).2) (k0_pay66 (stAt7 m c t).1 (stAt7 m c t).2) (k0_pay74 (stAt8 m c t).1 (stAt8 m c t).2) := by
  unfold out0_7
  rw [View.read_writes_junk_eq_canon]
  unfold runAt kernelRun
  dsimp only
  rw [View.canon_unit_zero hz00]
  sl_unfold_run_names
  rfl

end Cert.KernelIdeal.Gen

end
-- ==== Proof.IdealHostA.lean ====
/-
  The kernel's launch, the host side after the region and the two output arrays.
  Each grid point leaves an 8-entry block in the sums' buffer and one in the counts' buffer (one entry per 256-row
  tile). The write-backs lay the four points' blocks one under the other, so each of the two 32-entry output arrays
  holds at row r the entry r mod 8 of what point r div 8 left. The host lines after the region add up each array
  from the initial value zero and divide the first total by the larger of the second total and one.
-/
import proofs.«149814_j11527692222870_2_alg».proof.Proof.IdealLaunch
import proofs.«149814_j11527692222870_2_alg».proof.Proof.Spec
import Idealize.ShloMosaic.Lib.IdealHost
import Idealize.ShloMosaic.Lib.Pipeline.Value
import Idealize.ShloMosaic.Lib.ValueIdx
import Idealize.ShloMosaic.Lib.ValueLayout
set_option maxRecDepth 16384

noncomputable section

namespace Cert.KernelIdeal.Gen

open Idealize.ShloMosaic Idealize.ShloMosaic.TcCoe Idealize.ShloMosaic.Tactic
open Idealize.ShloMosaic.StableHlo
open Idealize.SL Idealize.SL.Sem
open Idealize.ShloMosaic.ValueIdx
open Idealize.ShloMosaic.Pipeline (Dat Cfg Window)

variable (m : (ℓ : Loc nD τ sig) → Buf (Elt Ideal) ℓ)

/-! ## The host lines after the region -/

/-- The host lines after the region, on any two 32-entry columns: the first column's total (from the initial value zero)
    divided by the larger of the second column's total (from zero) and one. The sum over all indices of a [32,1] array
    is the sum over its 32 rows. -/
theorem tail_apply (A B : FVec Ideal S32x1 .f32) :
    Host.divf (F := Ideal) (Host.reduceAdd (F := Ideal) A (constant (F := Ideal) S_ .f32 0x00000000#32) reducesTo_S32x1_S_d0_1 h_S_)
        (maximumf (F := Ideal) (Host.reduceAdd (F := Ideal) B (constant (F := Ideal) S_ .f32 0x00000000#32) reducesTo_S32x1_S_d0_1 h_S_)
          (constant (F := Ideal) S_ .f32 0x3F800000#32)) ix0
      = Ideal.div (0 + ∑ i : Fin 32, A (ix2 i 0)) (max (0 + ∑ i : Fin 32, B (ix2 i 0)) 1) := by
  rw [hostDivf_apply, maximumf_apply, hostReduceAdd_apply, hostReduceAdd_apply, constant_apply, constant_apply,
    Ideal.hostReduceAdd_total _ (fun b => b.elim0), Ideal.hostReduceAdd_total _ (fun b => b.elim0),
    Ideal.ofBits_zero_f32, Ideal.ofBits_one_f32, sum_idx2, sum_idx2]
  simp only [Fin.sum_univ_one]

/-- The sums' array and the counts' array when the region is left, as 32-entry columns of extended reals. -/
abbrev sumsArr (c : Dev nD) : FVec Ideal S32x1 .f32 := (dats (F := Ideal) m 0 c).arrAt 6 cfg0.N
abbrev cntsArr (c : Dev nD) : FVec Ideal S32x1 .f32 := (dats (F := Ideal) m 0 c).arrAt 7 cfg0.N

/-- The program's result: the 32 per-tile sums added up, over the larger of the added-up counts and one. -/
theorem Vfin_main_v10 (c : Dev nD) :
    (Vfin (F := Ideal) m c main_v10 : FVec Ideal S_ .f32) ix0
      = Ideal.div (0 + ∑ i : Fin 32, sumsArr m c (ix2 i 0)) (max (0 + ∑ i : Fin 32, cntsArr m c (ix2 i 0)) 1) := by
  show (StableHlo.after (List.flatten [hostOps1]) (Wx m c) (Proc.devRef .tc main_v10) : FVec Ideal S_ .f32) ix0 = _
  simp only [hostOps1, List.flatten_cons, List.flatten_nil, List.append_nil]
  after_results
  rw [show Wx m c (Proc.devRef .tc main_v6_0) = (dats m 0 c).arrAt 6 cfg0.N from Wx_arr m c 6,
    show Wx m c (Proc.devRef .tc main_v6_1) = (dats m 0 c).arrAt 7 cfg0.N from Wx_arr m c 7]
  exact tail_apply (sumsArr m c) (cntsArr m c)

/-! ## From the points' blocks to the two output arrays -/

/-- The grid point whose block holds row `r` of a 32-row output array: 8 rows per point. -/
def ptOf (r : Nat) (h : r < 32) : Fin cfg0.N := ⟨r / 8, by rw [show cfg0.N = 4 from N_0]; omega⟩

/-- Both output windows' block index at point `t` is `(t, 0)`. -/
theorem idx0_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx0_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- A 32-row column pieced together from one 8-row block per point: row `r` is entry `r % 8` of point `r / 8`'s block. -/
def pieced (f : Fin cfg0.N → FVec Ideal S8x1 .f32) : FVec Ideal S32x1 .f32 := fun j =>
  f (ptOf (j 0).val (idx2_lt0 j)) (ix2 ⟨(j 0).val % 8, Nat.mod_lt _ (by decide)⟩ 0)

/-- Read at row `8 t + y` it is entry `y` of point `t`'s block: division by 8 gives back the point, the remainder the entry. -/
theorem pieced_at (f : Fin cfg0.N → FVec Ideal S8x1 .f32) (t : Fin cfg0.N) (y : S8x1.Idx) (j : S32x1.Idx)
    (h0 : (j 0).val = t.val * 8 + 1 * (y 0).val) : pieced f j = f t y := by
  have hy : (y 0).val < 8 := idx2_lt0 y
  have hy1 : (y 1).val < 1 := idx2_lt1 y
  have e1 : ptOf (j 0).val (idx2_lt0 j) = t := Fin.ext (by show (j 0).val / 8 = t.val; omega)
  have e2 : (ix2 ⟨(j 0).val % 8, Nat.mod_lt _ (by decide)⟩ 0 : S8x1.Idx) = y := by
    funext a; apply Fin.ext
    match a with
    | ⟨0, _⟩ => show (j 0).val % 8 = (y 0).val; omega
    | ⟨1, _⟩ => show 0 = (y 1).val; omega
  unfold pieced
  rw [e1, e2]

/-- What point `t` writes back into the sums' array is block `t` of the column pieced from the points' blocks:
    the block's row `y` sits at row `8 t + y` of the array. -/
theorem flushed0_6_eq (c : Dev nD) (t : Fin cfg0.N) (hf : (cfg0.win 6).flush t = true) :
    (dats (F := Ideal) m 0 c).flushed 6 t
      = ((cfg0.win 6).blk t).view.read (Elt Ideal) (pieced (fun t => out0_6 (F := Ideal) m c t)) := by
  show (cfg0.win 6).cut (grid0.coords t) ((dats m 0 c).after 6 t) = _
  rw [after0_6]
  funext y
  rw [View.read_apply]
  refine (pieced_at (fun t => out0_6 (F := Ideal) m c t) t y _ ?_).symm
  show win0_6.index t 0 * 8 + 1 * (y 0).val = _
  rw [(idx0_6 t).1]

/-- Every row `r` of the sums' array lies in the block of point `r / 8`, which is written back. -/
theorem cover0_6_arr (c : Dev nD) (j : ((cfg0.win 6).arr.view.loc (c.tc : Thread nD τ)).2.ty.Idx) :
    ∃ t : Fin cfg0.N, (cfg0.win 6).flush t = true ∧ j ∈ ((cfg0.win 6).blk t).view.set := by
  have h0 : (j 0 : Nat) < 32 := (j 0).isLt
  have h1 : (j 1 : Nat) < 1 := (j 1).isLt
  refine ⟨ptOf (j 0).val h0, flush0_6 _, ?_⟩
  show j ∈ ((View.whole main_v6_0).slice (win0_6.rect (ptOf (j 0).val h0))).set
  rw [View.set_slice_whole, Rect.mem_set_unit]
  intro a
  match a with
  | ⟨0, _⟩ =>
    show win0_6.index (ptOf (j 0).val h0) 0 * 8 ≤ (j 0 : Nat) ∧ (j 0 : Nat) < win0_6.index (ptOf (j 0).val h0) 0 * 8 + 8
    rw [(idx0_6 _).1]
    show (j 0).val / 8 * 8 ≤ (j 0 : Nat) ∧ (j 0 : Nat) < (j 0).val / 8 * 8 + 8
    omega
  | ⟨1, _⟩ =>
    show win0_6.index (ptOf (j 0).val h0) 1 * 1 ≤ (j 1 : Nat) ∧ (j 1 : Nat) < win0_6.index (ptOf (j 0).val h0) 1 * 1 + 1
    rw [(idx0_6 _).2]
    omega

/-- The sums' array when the region is left: row `i` is entry `i % 8` of what point `i / 8` left. -/
theorem sumsArr_apply (c : Dev nD) (i : Fin 32) :
    sumsArr m c (ix2 i 0)
      = (out0_6 (F := Ideal) m c (ptOf i.val i.isLt) : FVec Ideal S8x1 .f32) (ix2 ⟨i.val % 8, Nat.mod_lt _ (by decide)⟩ 0) := by
  have h := (dats (F := Ideal) m 0 c).arrAt_eq_of_cover 6 (pieced (fun t => out0_6 (F := Ideal) m c t))
    (flushed0_6_eq m c) (cover0_6_arr c)
  show (dats (F := Ideal) m 0 c).arrAt 6 cfg0.N (ix2 i 0) = _
  rw [h]
  rfl

/-- What point `t` writes back into the counts' array is block `t` of the column pieced from the points' blocks:
    the block's row `y` sits at row `8 t + y` of the array. -/
theorem flushed0_7_eq (c : Dev nD) (t : Fin cfg0.N) (hf : (cfg0.win 7).flush t = true) :
    (dats (F := Ideal) m 0 c).flushed 7 t
      = ((cfg0.win 7).blk t).view.read (Elt Ideal) (pieced (fun t => out0_7 (F := Ideal) m c t)) := by
  show (cfg0.win 7).cut (grid0.coords t) ((dats m 0 c).after 7 t) = _
  rw [after0_7]
  funext y
  rw [View.read_apply]
  refine (pieced_at (fun t => out0_7 (F := Ideal) m c t) t y _ ?_).symm
  show win0_7.index t 0 * 8 + 1 * (y 0).val = _
  rw [(idx0_7 t).1]

/-- Every row `r` of the counts' array lies in the block of point `r / 8`, which is written back. -/
theorem cover0_7_arr (c : Dev nD) (j : ((cfg0.win 7).arr.view.loc (c.tc : Thread nD τ)).2.ty.Idx) :
    ∃ t : Fin cfg0.N, (cfg0.win 7).flush t = true ∧ j ∈ ((cfg0.win 7).blk t).view.set := by
  have h0 : (j 0 : Nat) < 32 := (j 0).isLt
  have h1 : (j 1 : Nat) < 1 := (j 1).isLt
  refine ⟨ptOf (j 0).val h0, flush0_7 _, ?_⟩
  show j ∈ ((View.whole main_v6_1).slice (win0_7.rect (ptOf (j 0).val h0))).set
  rw [View.set_slice_whole, Rect.mem_set_unit]
  intro a
  match a with
  | ⟨0, _⟩ =>
    show win0_7.index (ptOf (j 0).val h0) 0 * 8 ≤ (j 0 : Nat) ∧ (j 0 : Nat) < win0_7.index (ptOf (j 0).val h0) 0 * 8 + 8
    rw [(idx0_7 _).1]
    show (j 0).val / 8 * 8 ≤ (j 0 : Nat) ∧ (j 0 : Nat) < (j 0).val / 8 * 8 + 8
    omega
  | ⟨1, _⟩ =>
    show win0_7.index (ptOf (j 0).val h0) 1 * 1 ≤ (j 1 : Nat) ∧ (j 1 : Nat) < win0_7.index (ptOf (j 0).val h0) 1 * 1 + 1
    rw [(idx0_7 _).2]
    omega

/-- The counts' array when the region is left: row `i` is entry `i % 8` of what point `i / 8` left. -/
theorem cntsArr_apply (c : Dev nD) (i : Fin 32) :
    cntsArr m c (ix2 i 0)
      = (out0_7 (F := Ideal) m c (ptOf i.val i.isLt) : FVec Ideal S8x1 .f32) (ix2 ⟨i.val % 8, Nat.mod_lt _ (by decide)⟩ 0) := by
  have h := (dats (F := Ideal) m 0 c).arrAt_eq_of_cover 7 (pieced (fun t => out0_7 (F := Ideal) m c t))
    (flushed0_7_eq m c) (cover0_7_arr c)
  show (dats (F := Ideal) m 0 c).arrAt 7 cfg0.N (ix2 i 0) = _
  rw [h]
  rfl

end Cert.KernelIdeal.Gen

end
-- ==== Proof.IdealHostB.lean ====
/-
  The kernel's launch, the host side before the region and the six input windows.
  The host lines before the region square the embeddings, add up each row from the initial value zero (the row norm
  ‖x_r‖²), lay the norms out as a column and, reshaped, as a row, and lay the labels out as a column and as a row;
  none of them writes the two arguments. Three windows cut a 2048-row tile per grid point out of the embeddings, the
  norms' column and the labels' column (row y of point t's tile is row 2048 t + y); three windows hold the whole
  embeddings, the whole norms' row and the whole labels' row at every point.
-/
import proofs.«149814_j11527692222870_2_alg».proof.Proof.IdealLaunch
import proofs.«149814_j11527692222870_2_alg».proof.Proof.Spec
import Idealize.ShloMosaic.Lib.IdealHost
import Idealize.ShloMosaic.Lib.Pipeline.Value
import Idealize.ShloMosaic.Lib.ValueIdx
import Idealize.ShloMosaic.Lib.ValueLayout
set_option maxRecDepth 16384

noncomputable section

namespace Cert.KernelIdeal.Gen

open Idealize.ShloMosaic Idealize.ShloMosaic.TcCoe Idealize.ShloMosaic.Tactic
open Idealize.ShloMosaic.StableHlo
open Idealize.SL Idealize.SL.Sem
open Idealize.ShloMosaic.ValueIdx
open Idealize.ShloMosaic.Pipeline (Dat Cfg Window)

variable (m : (ℓ : Loc nD τ sig) → Buf (Elt Ideal) ℓ)

/-! ## The two arguments -/

/-- The embeddings: entry `k` of row `r` of the first argument. -/
abbrev argE (c : Dev nD) : Fin 8192 → Fin 128 → EReal := fun r k =>
  (m ((c : Thread nD τ).loc main_arg0) : FVec Ideal S8192x128 .f32) (ix2 r k)
/-- The labels: entry `r` of the second argument. -/
abbrev argLab (c : Dev nD) : Fin 8192 → BitVec 32 := fun r =>
  (m ((c : Thread nD τ).loc main_arg1) : S8192.Idx → BitVec 32) (ix1 r)

/-! ## Two reshapes at an index -/

/-- An `[a]` array cast to an `[a, 1]` column reads, at `(i, u)`, the operand at `i`: both sit at row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column cast to a `[1, a]` row reads, at `(u, i)`, the column at `(i, 0)`: both sit at row-major position `i`. -/
theorem shapeCast_a1_1a_apply {α : Type} {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu]; omega)

/-! ## The host lines before the region -/

/-- The column of row norms of any embeddings: entry `r` is the initial value zero plus the sum over the 128 lanes of
    the squares of row `r`. -/
theorem normsCol_apply (X : FVec Ideal S8192x128 .f32) (r : Fin 8192) :
    (broadcastInDim S8192x1 ![0] bcast_S8192_S8192x1_0
        (Host.reduceAdd (F := Ideal) (mulf (F := Ideal) X X) (constant (F := Ideal) S_ .f32 0x00000000#32) reducesTo_S8192x128_S8192_d1 h_S_)
      : FVec Ideal S8192x1 .f32) (ix2 r 0)
      = 0 + ∑ k : Fin 128, X (ix2 r k) * X (ix2 r k) := by
  have hR : S8192x128.Reduces [1] S8192 := by decide
  rw [broadcastInDim_apply _ bcast_S8192_S8192x1_0 _ (ix2 r 0) (ix1 r) (fun a => match a with
      | ⟨0, _⟩ => by show r.val = if (8192 : Nat) = 1 then 0 else r.val; rw [if_neg (by decide)]),
    hostReduceAdd_apply, Ideal.hostReduceAdd_single reducesTo_S8192x128_S8192_d1 hR, constant_apply, Ideal.ofBits_zero_f32]
  refine congrArg (0 + ·) (Finset.sum_congr rfl fun k _ => ?_)
  rw [mulf_apply]
  have e : hR.lift (ix1 r) k = ix2 r k := funext fun a => Fin.ext (by match a with | ⟨0, _⟩ => rfl | ⟨1, _⟩ => rfl)
  rw [e]
  rfl

/-- The embeddings' array enters the region as the first argument. -/
theorem V_arg0_apply (c : Dev nD) (r : Fin 8192) (k : Fin 128) :
    (V (F := Ideal) m c main_arg0 : FVec Ideal S8192x128 .f32) (ix2 r k) = argE m c r k := by
  rw [V_main_arg0]

/-- The norms' column enters the region at ‖x_r‖² in row `r`. -/
theorem V_v2_apply (c : Dev nD) (r : Fin 8192) :
    (V (F := Ideal) m c main_v2 : FVec Ideal S8192x1 .f32) (ix2 r 0) = Cert.Spec.nrm (argE m c) r := by
  dsimp only [V, V0]
  simp only [hostOps0, List.flatten_cons, List.flatten_nil, List.append_nil]
  after_results
  exact normsCol_apply (m ((c : Thread nD τ).loc main_arg0)) r

/-- The norms' row enters the region at ‖x_j‖² in column `j`: the column, reshaped. -/
theorem V_v3_apply (c : Dev nD) (j : Fin 8192) :
    (V (F := Ideal) m c main_v3 : FVec Ideal S1x8192 .f32) (ix2 0 j) = Cert.Spec.nrm (argE m c) j := by
  dsimp only [V, V0]
  simp only [hostOps0, List.flatten_cons, List.flatten_nil, List.append_nil]
  after_results
  show shapeCast S1x8192 (broadcastInDim S8192x1 ![0] bcast_S8192_S8192x1_0
      (Host.reduceAdd (F := Ideal) (mulf (F := Ideal) (m ((c : Thread nD τ).loc main_arg0)) (m ((c : Thread nD τ).loc main_arg0)))
        (constant (F := Ideal) S_ .f32 0x00000000#32) reducesTo_S8192x128_S8192_d1 h_S_))
    shapeCasts_S8192x1_S1x8192 (ix2 0 j) = _
  rw [shapeCast_a1_1a_apply]
  exact normsCol_apply (m ((c : Thread nD τ).loc main_arg0)) j

/-- The labels' column enters the region at the label of row `r`. -/
theorem V_v4_apply (c : Dev nD) (r : Fin 8192) :
    (V (F := Ideal) m c main_v4 : S8192x1.Idx → BitVec 32) (ix2 r 0) = argLab m c r := by
  dsimp only [V, V0]
  simp only [hostOps0, List.flatten_cons, List.flatten_nil, List.append_nil]
  after_results
  show shapeCast S8192x1 (m ((c : Thread nD τ).loc main_arg1) : S8192.Idx → BitVec 32) shapeCasts_S8192_S8192x1 (ix2 r 0) = _
  rw [shapeCast_a_a1_apply]

/-- The labels' row enters the region at the label of column `j`. -/
theorem V_v5_apply (c : Dev nD) (j : Fin 8192) :
    (V (F := Ideal) m c main_v5 : S1x8192.Idx → BitVec 32) (ix2 0 j) = argLab m c j := by
  dsimp only [V, V0]
  simp only [hostOps0, List.flatten_cons, List.flatten_nil, List.append_nil]
  after_results
  show shapeCast S1x8192 (m ((c : Thread nD τ).loc main_arg1) : S8192.Idx → BitVec 32) shapeCasts_S8192_S1x8192 (ix2 0 j) = _
  rw [shapeCast_a_1a_apply]

/-! ## The input windows' blocks at an index -/

/-- The grid has four points. -/
theorem pt_lt (t : Fin cfg0.N) : t.val < 4 := Nat.lt_of_lt_of_eq t.isLt N_0

/-- Row `y` of point `t`'s 2048-row tile is row `2048 t + y` of the array. -/
def rowOf (t : Fin cfg0.N) (y : Fin 2048) : Fin 8192 := ⟨2048 * t.val + y.val, by have := pt_lt t; omega⟩

/-- The tiled input windows (0, 2, 4) have block index `(t, 0)` at point `t`; the whole-array ones (1, 3, 5) have `(0, 0)`.
    An element of a block sits in the array, on each axis, at the block index times the block's size plus its own coordinate. -/
theorem idx0_in : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0) :=
  (by decide +kernel : ∀ t : Fin grid0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0))

/-- Window 0: the embeddings' tile at point `t` is rows `2048 t … 2048 t + 2047` of the array. -/
theorem iblk0_apply (c : Dev nD) (t : Fin cfg0.N) (y : Fin 2048) (k : Fin 128) :
    (iblk (F := Ideal) m c 0 t : FVec Ideal S2048x128 .f32) (ix2 y k)
      = (V (F := Ideal) m c main_arg0 : FVec Ideal S8192x128 .f32) (ix2 (rowOf t y) k) := by
  unfold iblk
  rw [View.read_apply]
  show V m c main_arg0 _ = V m c main_arg0 _
  refine congrArg (V m c main_arg0) (funext fun a => Fin.ext ?_)
  match a with
  | ⟨0, _⟩ => show win0_0.index t 0 * 2048 + 1 * y.val = 2048 * t.val + y.val; rw [(idx0_in t).1.1] <;> omega
  | ⟨1, _⟩ => show win0_0.index t 1 * 128 + 1 * k.val = k.val; rw [(idx0_in t).1.2] <;> omega

/-- Window 1: the whole embeddings' array at every point. -/
theorem iblk1_apply (c : Dev nD) (t : Fin cfg0.N) (j : Fin 8192) (k : Fin 128) :
    (iblk (F := Ideal) m c 1 t : FVec Ideal S8192x128 .f32) (ix2 j k)
      = (V (F := Ideal) m c main_arg0 : FVec Ideal S8192x128 .f32) (ix2 j k) := by
  unfold iblk
  rw [View.read_apply]
  show V m c main_arg0 _ = V m c main_arg0 _
  refine congrArg (V m c main_arg0) (funext fun a => Fin.ext ?_)
  match a with
  | ⟨0, _⟩ => show win0_1.index t 0 * 8192 + 1 * j.val = j.val; rw [(idx0_in t).2.1.1] <;> omega
  | ⟨1, _⟩ => show win0_1.index t 1 * 128 + 1 * k.val = k.val; rw [(idx0_in t).2.1.2] <;> omega

/-- Window 2: the norms' column tile at point `t` is rows `2048 t … 2048 t + 2047` of the column. -/
theorem iblk2_apply (c : Dev nD) (t : Fin cfg0.N) (y : Fin 2048) :
    (iblk (F := Ideal) m c 2 t : FVec Ideal S2048x1 .f32) (ix2 y (0 : Fin 1))
      = (V (F := Ideal) m c main_v2 : FVec Ideal S8192x1 .f32) (ix2 (rowOf t y) (0 : Fin 1)) := by
  unfold iblk
  rw [View.read_apply]
  show V m c main_v2 _ = V m c main_v2 _
  refine congrArg (V m c main_v2) (funext fun a => Fin.ext ?_)
  match a with
  | ⟨0, _⟩ => show win0_2.index t 0 * 2048 + 1 * y.val = 2048 * t.val + y.val; rw [(idx0_in t).2.2.1.1] <;> omega
  | ⟨1, _⟩ => show win0_2.index t 1 * 1 + 1 * 0 = 0; rw [(idx0_in t).2.2.1.2] <;> omega

/-- Window 3: the whole norms' row at every point. -/
theorem iblk3_apply (c : Dev nD) (t : Fin cfg0.N) (j : Fin 8192) :
    (iblk (F := Ideal) m c 3 t : FVec Ideal S1x8192 .f32) (ix2 (0 : Fin 1) j)
      = (V (F := Ideal) m c main_v3 : FVec Ideal S1x8192 .f32) (ix2 (0 : Fin 1) j) := by
  unfold iblk
  rw [View.read_apply]
  show V m c main_v3 _ = V m c main_v3 _
  refine congrArg (V m c main_v3) (funext fun a => Fin.ext ?_)
  match a with
  | ⟨0, _⟩ => show win0_3.index t 0 * 1 + 1 * 0 = 0; rw [(idx0_in t).2.2.2.1.1] <;> omega
  | ⟨1, _⟩ => show win0_3.index t 1 * 8192 + 1 * j.val = j.val; rw [(idx0_in t).2.2.2.1.2] <;> omega

/-- Window 4: the labels' column tile at point `t` is rows `2048 t … 2048 t + 2047` of the column. -/
theorem iblk4_apply (c : Dev nD) (t : Fin cfg0.N) (y : Fin 2048) :
    (iblk (F := Ideal) m c 4 t : S2048x1.Idx → BitVec 32) (ix2 y (0 : Fin 1))
      = (V (F := Ideal) m c main_v4 : S8192x1.Idx → BitVec 32) (ix2 (rowOf t y) (0 : Fin 1)) := by
  unfold iblk
  rw [View.read_apply]
  show V m c main_v4 _ = V m c main_v4 _
  refine congrArg (V m c main_v4) (funext fun a => Fin.ext ?_)
  match a with
  | ⟨0, _⟩ => show win0_4.index t 0 * 2048 + 1 * y.val = 2048 * t.val + y.val; rw [(idx0_in t).2.2.2.2.1.1] <;> omega
  | ⟨1, _⟩ => show win0_4.index t 1 * 1 + 1 * 0 = 0; rw [(idx0_in t).2.2.2.2.1.2] <;> omega

/-- Window 5: the whole labels' row at every point. -/
theorem iblk5_apply (c : Dev nD) (t : Fin cfg0.N) (j : Fin 8192) :
    (iblk (F := Ideal) m c 5 t : S1x8192.Idx → BitVec 32) (ix2 (0 : Fin 1) j)
      = (V (F := Ideal) m c main_v5 : S1x8192.Idx → BitVec 32) (ix2 (0 : Fin 1) j) := by
  unfold iblk
  rw [View.read_apply]
  show V m c main_v5 _ = V m c main_v5 _
  refine congrArg (V m c main_v5) (funext fun a => Fin.ext ?_)
  match a with
  | ⟨0, _⟩ => show win0_5.index t 0 * 1 + 1 * 0 = 0; rw [(idx0_in t).2.2.2.2.2.1] <;> omega
  | ⟨1, _⟩ => show win0_5.index t 1 * 8192 + 1 * j.val = j.val; rw [(idx0_in t).2.2.2.2.2.2] <;> omega

end Cert.KernelIdeal.Gen

end
-- ==== Proof.IdealHost.lean ====
/-
  The kernel's host side, collected. The first imported module reads the program's result off the two output arrays
  and the output arrays off the grid points' blocks; the second reads the arrays the region finds off the two
  arguments and the input windows' blocks off those arrays. Here the two steps of each side are composed: every input
  block at an index in terms of the embeddings e and the labels, and the result in terms of what the points left.
-/
import proofs.«149814_j11527692222870_2_alg».proof.Proof.IdealHostA
import proofs.«149814_j11527692222870_2_alg».proof.Proof.IdealHostB
set_option maxRecDepth 16384

noncomputable section

namespace Cert.KernelIdeal.Gen

open Idealize.ShloMosaic Idealize.ShloMosaic.TcCoe Idealize.ShloMosaic.Tactic
open Idealize.SL Idealize.SL.Sem
open Idealize.ShloMosaic.ValueIdx
open Idealize.ShloMosaic.Pipeline (Dat Cfg Window)

variable (m : (ℓ : Loc nD τ sig) → Buf (Elt Ideal) ℓ)

/-! ## The input blocks in terms of the arguments -/

/-- Point `t`'s tile of the embeddings: row `y` is row `2048 t + y` of the embeddings. -/
theorem iblk0_arg (c : Dev nD) (t : Fin cfg0.N) (y : Fin 2048) (k : Fin 128) :
    (iblk (F := Ideal) m c 0 t : FVec Ideal S2048x128 .f32) (ix2 y k) = argE m c (rowOf t y) k := by
  rw [iblk0_apply, V_arg0_apply]
/-- The whole embeddings, at every point. -/
theorem iblk1_arg (c : Dev nD) (t : Fin cfg0.N) (j : Fin 8192) (k : Fin 128) :
    (iblk (F := Ideal) m c 1 t : FVec Ideal S8192x128 .f32) (ix2 j k) = argE m c j k := by
  rw [iblk1_apply, V_arg0_apply]
/-- Point `t`'s tile of the norms' column: row `y` is ‖x‖² of row `2048 t + y`. -/
theorem iblk2_arg (c : Dev nD) (t : Fin cfg0.N) (y : Fin 2048) :
    (iblk (F := Ideal) m c 2 t : FVec Ideal S2048x1 .f32) (ix2 y (0 : Fin 1)) = Cert.Spec.nrm (argE m c) (rowOf t y) := by
  rw [iblk2_apply, V_v2_apply]
/-- The whole norms' row, at every point. -/
theorem iblk3_arg (c : Dev nD) (t : Fin cfg0.N) (j : Fin 8192) :
    (iblk (F := Ideal) m c 3 t : FVec Ideal S1x8192 .f32) (ix2 (0 : Fin 1) j) = Cert.Spec.nrm (argE m c) j := by
  rw [iblk3_apply, V_v3_apply]
/-- Point `t`'s tile of the labels' column: row `y` is the label of row `2048 t + y`. -/
theorem iblk4_arg (c : Dev nD) (t : Fin cfg0.N) (y : Fin 2048) :
    (iblk (F := Ideal) m c 4 t : S2048x1.Idx → BitVec 32) (ix2 y (0 : Fin 1)) = argLab m c (rowOf t y) := by
  rw [iblk4_apply, V_v4_apply]
/-- The whole labels' row, at every point. -/
theorem iblk5_arg (c : Dev nD) (t : Fin cfg0.N) (j : Fin 8192) :
    (iblk (F := Ideal) m c 5 t : S1x8192.Idx → BitVec 32) (ix2 (0 : Fin 1) j) = argLab m c j := by
  rw [iblk5_apply, V_v5_apply]

/-! ## The result in terms of what the points left -/

/-- The program's result: over the 32 tiles, entry `i % 8` of what point `i / 8` left in the sums' buffer, added up from
    zero, divided by the larger of the same total of the counts' buffer and one. -/
theorem result_of_points (c : Dev nD) :
    (Vfin (F := Ideal) m c main_v10 : FVec Ideal S_ .f32) ix0
      = Ideal.div
          (0 + ∑ i : Fin 32, (out0_6 (F := Ideal) m c (ptOf i.val i.isLt) : FVec Ideal S8x1 .f32) (ix2 ⟨i.val % 8, Nat.mod_lt _ (by decide)⟩ 0))
          (max (0 + ∑ i : Fin 32, (out0_7 (F := Ideal) m c (ptOf i.val i.isLt) : FVec Ideal S8x1 .f32) (ix2 ⟨i.val % 8, Nat.mod_lt _ (by decide)⟩ 0)) 1) := by
  rw [Vfin_main_v10, Finset.sum_congr rfl fun i _ => sumsArr_apply m c i, Finset.sum_congr rfl fun i _ => cntsArr_apply m c i]

end Cert.KernelIdeal.Gen

end
-- ==== Proof.IdealLoopsMain.lean ====
/-
  The eight tiles of a grid point, one after the other: each inner loop's carried pair after its eight trips is the
  anchors' largest squared distance over the positives and smallest over the negatives, so each tile's stored sum is
  the sum of its anchors' hinge terms and each stored count the number of its valid anchors.
-/
import proofs.«149814_j11527692222870_2_alg».proof.Proof.IdealLoops
import proofs.«149814_j11527692222870_2_alg».proof.Proof.IdealLoads
import proofs.«149814_j11527692222870_2_alg».proof.Proof.IdealTileMain
import proofs.«149814_j11527692222870_2_alg».proof.Proof.IdealOutA
import proofs.«149814_j11527692222870_2_alg».proof.Proof.IdealHost

set_option maxRecDepth 16384
set_option maxHeartbeats 2000000

noncomputable section

namespace Cert.KernelIdeal.Gen

open Idealize.ShloMosaic Idealize.ShloMosaic.TcCoe Idealize.ShloMosaic.ValueIdx
open Idealize.SL.Sem
open Cert.KernelIdeal.Tile

variable (m : (ℓ : Loc nD τ sig) → Buf (Elt Ideal) ℓ) (c : Dev nD) (t : Fin cfg0.N)

/-- The grid has one axis: a point's coordinate is its number. -/
theorem coords0 : ∀ t : Fin cfg0.N, ((grid0.coords t) 0).val = t.val :=
  (by decide +kernel : ∀ t : Fin grid0.N, ((grid0.coords t) 0).val = t.val)

/-! ## Tile 0 (rows 0 … 255 of the point's block) -/

theorem trips1 : k0_t1_loop.trips = 8 := by decide

/-- Tile 0's carried pair after n chunks. -/
def seq1 (n : ℕ) : FVec Ideal S256x1 .f32 × FVec Ideal S256x1 .f32 :=
  st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (View.readAt (Elt Ideal) (ms0_0 t).view (Rect.unit (s := S2048x128) ![0, 0] S256x128.size inb_S2048x128_S256x128_0_0).toLoadRect ((hs0_0 t).unread (iblk m c 0 t)))
    (View.readAt (Elt Ideal) (ms0_2 t).view (Rect.unit (s := S2048x1) ![0, 0] S256x1.size inb_S2048x1_S256x1_0_0).toLoadRect ((hs0_2 t).unread (iblk m c 2 t)))
    (View.readAt (Elt Ideal) (ms0_4 t).view (Rect.unit (s := S2048x1) ![0, 0] S256x1.size inb_S2048x1_S256x1_0_0).toLoadRect ((hs0_4 t).unread (iblk m c 4 t)))
    ((hs0_1 t).unread (iblk m c 1 t)) ((hs0_3 t).unread (iblk m c 3 t)) ((hs0_5 t).unread (iblk m c 5 t)) (k0_pay2, k0_pay3) n

theorem stAt1_eq : stAt1 (F := Ideal) m c t = seq1 m c t 8 :=
  (show stAt1 (F := Ideal) m c t = seq1 m c t (Scf.trips k0_t1_loop.lb k0_t1_loop.ub k0_t1_loop.st) from rfl).trans
    (congrArg (seq1 m c t) trips1)

/-- Chunk k's rows of the embeddings, norms and labels, as trip k loads them. -/
def chE1 (k : ℕ) : Vec Ideal S1024x128 .f32 :=
  if h : k < k0_t1_loop.trips then
    View.readAt (Elt Ideal) (ms0_1 t).view (Rect.unit (s := S8192x128) (k0_off1 ⟨k, h⟩) S1024x128.size (k0_off1_inb ⟨k, h⟩)).toLoadRect ((hs0_1 t).unread (iblk m c 1 t))
  else fun _ => 0
def chN1 (k : ℕ) : Vec Ideal S1x1024 .f32 :=
  if h : k < k0_t1_loop.trips then
    View.readAt (Elt Ideal) (ms0_3 t).view (Rect.unit (s := S1x8192) (k0_off2 ⟨k, h⟩) S1x1024.size (k0_off2_inb ⟨k, h⟩)).toLoadRect ((hs0_3 t).unread (iblk m c 3 t))
  else fun _ => 0
def chL1 (k : ℕ) : Vec Ideal S1x1024 .i32 :=
  if h : k < k0_t1_loop.trips then
    View.readAt (Elt Ideal) (ms0_5 t).view (Rect.unit (s := S1x8192) (k0_off2 ⟨k, h⟩) S1x1024.size (k0_off2_inb ⟨k, h⟩)).toLoadRect ((hs0_5 t).unread (iblk m c 5 t))
  else fun _ => 0

theorem run1 : TileRun (argE m c) (argLab m c) (2048 * t.val + 0) (by have := pt_lt t; omega) (Scalar.addi (Scalar.muli (BitVec.ofNat 32 ((grid0.coords t) 0).val) 2048#32) 0#32)
    (View.readAt (Elt Ideal) (ms0_0 t).view (Rect.unit (s := S2048x128) ![0, 0] S256x128.size inb_S2048x128_S256x128_0_0).toLoadRect ((hs0_0 t).unread (iblk m c 0 t)))
    (View.readAt (Elt Ideal) (ms0_2 t).view (Rect.unit (s := S2048x1) ![0, 0] S256x1.size inb_S2048x1_S256x1_0_0).toLoadRect ((hs0_2 t).unread (iblk m c 2 t)))
    (View.readAt (Elt Ideal) (ms0_4 t).view (Rect.unit (s := S2048x1) ![0, 0] S256x1.size inb_S2048x1_S256x1_0_0).toLoadRect ((hs0_4 t).unread (iblk m c 4 t)))
    (fun k => Scalar.muli (Scf.iv 0#32 1#32 k) 1024#32) (chE1 m c t) (chN1 m c t) (chL1 m c t) (seq1 m c t) where
  hb := by
    show Scalar.addi (Scalar.muli (BitVec.ofNat 32 ((grid0.coords t) 0).val) 2048#32) 0#32 = _
    rw [coords0 t]
    exact row_word ⟨t.val, pt_lt t⟩ ⟨0, by omega⟩
  hv1 := fun p k =>
    (ld_tile128 (F := Ideal) (ms0_0 t) (hs0_0 t) (iblk m c 0 t) 0 inb_S2048x128_S256x128_0_0 p k (by have := p.isLt; omega)).trans
      ((iblk0_arg m c t ⟨0 + p.val, by have := p.isLt; omega⟩ k).trans
        (congrArg (fun r => argE m c r k) (Fin.ext (by show 2048 * t.val + (0 + p.val) = 2048 * t.val + 0 + p.val; omega))))
  hv2 := fun p =>
    (ld_tile1 (F := Ideal) (ms0_2 t) (hs0_2 t) (iblk m c 2 t) 0 inb_S2048x1_S256x1_0_0 p 0 (by have := p.isLt; omega)).trans
      ((iblk2_arg m c t ⟨0 + p.val, by have := p.isLt; omega⟩).trans
        (congrArg (fun r => Cert.Spec.nrm (argE m c) r) (Fin.ext (by show 2048 * t.val + (0 + p.val) = 2048 * t.val + 0 + p.val; omega))))
  hv4 := fun p =>
    (ld_tile1 (F := Ideal) (ms0_4 t) (hs0_4 t) (iblk m c 4 t) 0 inb_S2048x1_S256x1_0_0 p 0 (by have := p.isLt; omega)).trans
      ((iblk4_arg m c t ⟨0 + p.val, by have := p.isLt; omega⟩).trans
        (congrArg (fun r => argLab m c r) (Fin.ext (by show 2048 * t.val + (0 + p.val) = 2048 * t.val + 0 + p.val; omega))))
  hcs := fun k _ => col_word k
  hL2 := fun k hk q k' => by
    have hk' : k < k0_t1_loop.trips := by rw [trips1]; exact hk
    unfold chE1; rw [dif_pos hk']
    exact (ld_chunk128 (F := Ideal) (ms0_1 t) (hs0_1 t) (iblk m c 1 t) _ k (k0_off1_eq ⟨k, hk'⟩) _ q k' (by have := q.isLt; omega)).trans
      (iblk1_arg m c t _ k')
  hL4 := fun k hk q => by
    have hk' : k < k0_t1_loop.trips := by rw [trips1]; exact hk
    unfold chN1; rw [dif_pos hk']
    exact (ld_chunk1 (F := Ideal) (ms0_3 t) (hs0_3 t) (iblk m c 3 t) _ k (k0_off2_eq ⟨k, hk'⟩) _ 0 q (by have := q.isLt; omega)).trans
      (iblk3_arg m c t _)
  hL6 := fun k hk q => by
    have hk' : k < k0_t1_loop.trips := by rw [trips1]; exact hk
    unfold chL1; rw [dif_pos hk']
    exact (ld_chunk1 (F := Ideal) (ms0_5 t) (hs0_5 t) (iblk m c 5 t) _ k (k0_off2_eq ⟨k, hk'⟩) _ 0 q (by have := q.isLt; omega)).trans
      (iblk5_arg m c t _)
  h0 := fun p =>
    ⟨(show (k0_pay2 (F := Ideal)) (ix2 p (0 : Fin 1)) = Ideal.ofBits .f32 0xFF800000#32 from rfl).trans Cert.Lits.negInf,
     (show (k0_pay3 (F := Ideal)) (ix2 p (0 : Fin 1)) = Ideal.ofBits .f32 0x7F800000#32 from rfl).trans Cert.Lits.posInf⟩
  hS := fun k hk => by
    have hk' : k < k0_t1_loop.trips := by rw [trips1]; exact hk
    unfold seq1
    refine (st_k0_t1_succ (F := Ideal) _ _ _ _ _ _ _ _ _ _ _ _ _ _ _ _ _ _ _ _ _ _ _ _ _ _ _ ⟨k, hk'⟩).trans ((tripR_eq_1 (F := Ideal) _ _ _ _ _ _ _ _ _ _ _ _ _ _ _ _ _ _ _ _ _ _ _ _ _ _ _ _ ).trans ?_)
    unfold chE1 chN1 chL1
    rw [dif_pos hk', dif_pos hk', dif_pos hk']

/-- Tile 0's sum of hinge terms and its count of valid anchors. -/
theorem sum1 : k0_pay9 (F := Ideal) (stAt1 (F := Ideal) m c t).1 (stAt1 (F := Ideal) m c t).2 (ix2 (0 : Fin 1) (0 : Fin 1))
    = ∑ p : Fin 256, Cert.Spec.tripK (argE m c) (argLab m c) ⟨2048 * t.val + 0 + p.val, by have := pt_lt t; have := p.isLt; omega⟩ := by
  rw [stAt1_eq]; exact tile_sum (run1 m c t)
theorem cnt1 : k0_pay11 (F := Ideal) (k0_pay10 (F := Ideal) (stAt1 (F := Ideal) m c t).1 (stAt1 (F := Ideal) m c t).2) (ix2 (0 : Fin 1) (0 : Fin 1))
    = ∑ p : Fin 256, Cert.Spec.cntK (argE m c) (argLab m c) ⟨2048 * t.val + 0 + p.val, by have := pt_lt t; have := p.isLt; omega⟩ := by
  rw [stAt1_eq]; exact tile_cnt (run1 m c t)

/-! ## Tile 1 (rows 256 … 511 of the point's block) -/

theorem trips2 : k0_t2_loop.trips = 8 := by decide

/-- Tile 1's carried pair after n chunks. -/
def seq2 (n : ℕ) : FVec Ideal S256x1 .f32 × FVec Ideal S256x1 .f32 :=
  st_k0_t2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (k0_pay10 (stAt1 (F := Ideal) m c t).1 (stAt1 (F := Ideal) m c t).2) (View.readAt (Elt Ideal) (ms0_0 t).view (Rect.unit (s := S2048x128) ![256, 0] S256x128.size inb_S2048x128_S256x128_256_0).toLoadRect ((hs0_0 t).unread (iblk m c 0 t)))
    (View.readAt (Elt Ideal) (ms0_2 t).view (Rect.unit (s := S2048x1) ![256, 0] S256x1.size inb_S2048x1_S256x1_256_0).toLoadRect ((hs0_2 t).unread (iblk m c 2 t)))
    (View.readAt (Elt Ideal) (ms0_4 t).view (Rect.unit (s := S2048x1) ![256, 0] S256x1.size inb_S2048x1_S256x1_256_0).toLoadRect ((hs0_4 t).unread (iblk m c 4 t)))
    ((hs0_1 t).unread (iblk m c 1 t)) ((hs0_3 t).unread (iblk m c 3 t)) ((hs0_5 t).unread (iblk m c 5 t)) (k0_pay12, k0_pay13) n

theorem stAt2_eq : stAt2 (F := Ideal) m c t = seq2 m c t 8 :=
  (show stAt2 (F := Ideal) m c t = seq2 m c t (Scf.trips k0_t2_loop.lb k0_t2_loop.ub k0_t2_loop.st) from rfl).trans
    (congrArg (seq2 m c t) trips2)

/-- Chunk k's rows of the embeddings, norms and labels, as trip k loads them. -/
def chE2 (k : ℕ) : Vec Ideal S1024x128 .f32 :=
  if h : k < k0_t2_loop.trips then
    View.readAt (Elt Ideal) (ms0_1 t).view (Rect.unit (s := S8192x128) (k0_off3 ⟨k, h⟩) S1024x128.size (k0_off3_inb ⟨k, h⟩)).toLoadRect ((hs0_1 t).unread (iblk m c 1 t))
  else fun _ => 0
def chN2 (k : ℕ) : Vec Ideal S1x1024 .f32 :=
  if h : k < k0_t2_loop.trips then
    View.readAt (Elt Ideal) (ms0_3 t).view (Rect.unit (s := S1x8192) (k0_off4 ⟨k, h⟩) S1x1024.size (k0_off4_inb ⟨k, h⟩)).toLoadRect ((hs0_3 t).unread (iblk m c 3 t))
  else fun _ => 0
def chL2 (k : ℕ) : Vec Ideal S1x1024 .i32 :=
  if h : k < k0_t2_loop.trips then
    View.readAt (Elt Ideal) (ms0_5 t).view (Rect.unit (s := S1x8192) (k0_off4 ⟨k, h⟩) S1x1024.size (k0_off4_inb ⟨k, h⟩)).toLoadRect ((hs0_5 t).unread (iblk m c 5 t))
  else fun _ => 0

theorem run2 : TileRun (argE m c) (argLab m c) (2048 * t.val + 256) (by have := pt_lt t; omega) (Scalar.addi (rowBase t) 256#32)
    (View.readAt (Elt Ideal) (ms0_0 t).view (Rect.unit (s := S2048x128) ![256, 0] S256x128.size inb_S2048x128_S256x128_256_0).toLoadRect ((hs0_0 t).unread (iblk m c 0 t)))
    (View.readAt (Elt Ideal) (ms0_2 t).view (Rect.unit (s := S2048x1) ![256, 0] S256x1.size inb_S2048x1_S256x1_256_0).toLoadRect ((hs0_2 t).unread (iblk m c 2 t)))
    (View.readAt (Elt Ideal) (ms0_4 t).view (Rect.unit (s := S2048x1) ![256, 0] S256x1.size inb_S2048x1_S256x1_256_0).toLoadRect ((hs0_4 t).unread (iblk m c 4 t)))
    (fun k => Scalar.muli (Scf.iv 0#32 1#32 k) 1024#32) (chE2 m c t) (chN2 m c t) (chL2 m c t) (seq2 m c t) where
  hb := by
    show Scalar.addi (Scalar.muli (BitVec.ofNat 32 ((grid0.coords t) 0).val) 2048#32) 256#32 = _
    rw [coords0 t]
    exact row_word ⟨t.val, pt_lt t⟩ ⟨1, by omega⟩
  hv1 := fun p k =>
    (ld_tile128 (F := Ideal) (ms0_0 t) (hs0_0 t) (iblk m c 0 t) 256 inb_S2048x128_S256x128_256_0 p k (by have := p.isLt; omega)).trans
      ((iblk0_arg m c t ⟨256 + p.val, by have := p.isLt; omega⟩ k).trans
        (congrArg (fun r => argE m c r k) (Fin.ext (by show 2048 * t.val + (256 + p.val) = 2048 * t.val + 256 + p.val; omega))))
  hv2 := fun p =>
    (ld_tile1 (F := Ideal) (ms0_2 t) (hs0_2 t) (iblk m c 2 t) 256 inb_S2048x1_S256x1_256_0 p 0 (by have := p.isLt; omega)).trans
      ((iblk2_arg m c t ⟨256 + p.val, by have := p.isLt; omega⟩).trans
        (congrArg (fun r => Cert.Spec.nrm (argE m c) r) (Fin.ext (by show 2048 * t.val + (256 + p.val) = 2048 * t.val + 256 + p.val; omega))))
  hv4 := fun p =>
    (ld_tile1 (F := Ideal) (ms0_4 t) (hs0_4 t) (iblk m c 4 t) 256 inb_S2048x1_S256x1_256_0 p 0 (by have := p.isLt; omega)).trans
      ((iblk4_arg m c t ⟨256 + p.val, by have := p.isLt; omega⟩).trans
        (congrArg (fun r => argLab m c r) (Fin.ext (by show 2048 * t.val + (256 + p.val) = 2048 * t.val + 256 + p.val; omega))))
  hcs := fun k _ => col_word k
  hL2 := fun k hk q k' => by
    have hk' : k < k0_t2_loop.trips := by rw [trips2]; exact hk
    unfold chE2; rw [dif_pos hk']
    exact (ld_chunk128 (F := Ideal) (ms0_1 t) (hs0_1 t) (iblk m c 1 t) _ k (k0_off3_eq ⟨k, hk'⟩) _ q k' (by have := q.isLt; omega)).trans
      (iblk1_arg m c t _ k')
  hL4 := fun k hk q => by
    have hk' : k < k0_t2_loop.trips := by rw [trips2]; exact hk
    unfold chN2; rw [dif_pos hk']
    exact (ld_chunk1 (F := Ideal) (ms0_3 t) (hs0_3 t) (iblk m c 3 t) _ k (k0_off4_eq ⟨k, hk'⟩) _ 0 q (by have := q.isLt; omega)).trans
      (iblk3_arg m c t _)
  hL6 := fun k hk q => by
    have hk' : k < k0_t2_loop.trips := by rw [trips2]; exact hk
    unfold chL2; rw [dif_pos hk']
    exact (ld_chunk1 (F := Ideal) (ms0_5 t) (hs0_5 t) (iblk m c 5 t) _ k (k0_off4_eq ⟨k, hk'⟩) _ 0 q (by have := q.isLt; omega)).trans
      (iblk5_arg m c t _)
  h0 := fun p =>
    ⟨(show (k0_pay12 (F := Ideal)) (ix2 p (0 : Fin 1)) = Ideal.ofBits .f32 0xFF800000#32 from rfl).trans Cert.Lits.negInf,
     (show (k0_pay13 (F := Ideal)) (ix2 p (0 : Fin 1)) = Ideal.ofBits .f32 0x7F800000#32 from rfl).trans Cert.Lits.posInf⟩
  hS := fun k hk => by
    have hk' : k < k0_t2_loop.trips := by rw [trips2]; exact hk
    unfold seq2
    refine (st_k0_t2_succ (F := Ideal) _ _ _ _ _ _ _ _ _ _ _ _ _ _ _ _ _ _ _ _ _ _ _ _ _ _ _ _ _ ⟨k, hk'⟩).trans ((tripR_eq_2 (F := Ideal) _ _ _ _ _ _ _ _ _ _ _ _ _ _ _ _ _ _ _ _ _ _ _ _ _ _ _ _ _ _ ).trans ?_)
    unfold chE2 chN2 chL2
    rw [dif_pos hk', dif_pos hk', dif_pos hk']

/-- Tile 1's sum of hinge terms and its count of valid anchors. -/
theorem sum2 : k0_pay9 (F := Ideal) (stAt2 (F := Ideal) m c t).1 (stAt2 (F := Ideal) m c t).2 (ix2 (0 : Fin 1) (0 : Fin 1))
    = ∑ p : Fin 256, Cert.Spec.tripK (argE m c) (argLab m c) ⟨2048 * t.val + 256 + p.val, by have := pt_lt t; have := p.isLt; omega⟩ := by
  rw [stAt2_eq]; exact tile_sum (run2 m c t)
theorem cnt2 : k0_pay11 (F := Ideal) (k0_pay10 (F := Ideal) (stAt2 (F := Ideal) m c t).1 (stAt2 (F := Ideal) m c t).2) (ix2 (0 : Fin 1) (0 : Fin 1))
    = ∑ p : Fin 256, Cert.Spec.cntK (argE m c) (argLab m c) ⟨2048 * t.val + 256 + p.val, by have := pt_lt t; have := p.isLt; omega⟩ := by
  rw [stAt2_eq]; exact tile_cnt (run2 m c t)

/-! ## Tile 2 (rows 512 … 767 of the point's block) -/

theorem trips3 : k0_t3_loop.trips = 8 := by decide

/-- Tile 2's carried pair after n chunks. -/
def seq3 (n : ℕ) : FVec Ideal S256x1 .f32 × FVec Ideal S256x1 .f32 :=
  st_k0_t3 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (k0_pay20 (stAt2 (F := Ideal) m c t).1 (stAt2 (F := Ideal) m c t).2) (View.readAt (Elt Ideal) (ms0_0 t).view (Rect.unit (s := S2048x128) ![512, 0] S256x128.size inb_S2048x128_S256x128_512_0).toLoadRect ((hs0_0 t).unread (iblk m c 0 t)))
    (View.readAt (Elt Ideal) (ms0_2 t).view (Rect.unit (s := S2048x1) ![512, 0] S256x1.size inb_S2048x1_S256x1_512_0).toLoadRect ((hs0_2 t).unread (iblk m c 2 t)))
    (View.readAt (Elt Ideal) (ms0_4 t).view (Rect.unit (s := S2048x1) ![512, 0] S256x1.size inb_S2048x1_S256x1_512_0).toLoadRect ((hs0_4 t).unread (iblk m c 4 t)))
    ((hs0_1 t).unread (iblk m c 1 t)) ((hs0_3 t).unread (iblk m c 3 t)) ((hs0_5 t).unread (iblk m c 5 t)) (k0_pay22, k0_pay23) n

theorem stAt3_eq : stAt3 (F := Ideal) m c t = seq3 m c t 8 :=
  (show stAt3 (F := Ideal) m c t = seq3 m c t (Scf.trips k0_t3_loop.lb k0_t3_loop.ub k0_t3_loop.st) from rfl).trans
    (congrArg (seq3 m c t) trips3)

/-- Chunk k's rows of the embeddings, norms and labels, as trip k loads them. -/
def chE3 (k : ℕ) : Vec Ideal S1024x128 .f32 :=
  if h : k < k0_t3_loop.trips then
    View.readAt (Elt Ideal) (ms0_1 t).view (Rect.unit (s := S8192x128) (k0_off5 ⟨k, h⟩) S1024x128.size (k0_off5_inb ⟨k, h⟩)).toLoadRect ((hs0_1 t).unread (iblk m c 1 t))
  else fun _ => 0
def chN3 (k : ℕ) : Vec Ideal S1x1024 .f32 :=
  if h : k < k0_t3_loop.trips then
    View.readAt (Elt Ideal) (ms0_3 t).view (Rect.unit (s := S1x8192) (k0_off6 ⟨k, h⟩) S1x1024.size (k0_off6_inb ⟨k, h⟩)).toLoadRect ((hs0_3 t).unread (iblk m c 3 t))
  else fun _ => 0
def chL3 (k : ℕ) : Vec Ideal S1x1024 .i32 :=
  if h : k < k0_t3_loop.trips then
    View.readAt (Elt Ideal) (ms0_5 t).view (Rect.unit (s := S1x8192) (k0_off6 ⟨k, h⟩) S1x1024.size (k0_off6_inb ⟨k, h⟩)).toLoadRect ((hs0_5 t).unread (iblk m c 5 t))
  else fun _ => 0

theorem run3 : TileRun (argE m c) (argLab m c) (2048 * t.val + 512) (by have := pt_lt t; omega) (Scalar.addi (rowBase t) 512#32)
    (View.readAt (Elt Ideal) (ms0_0 t).view (Rect.unit (s := S2048x128) ![512, 0] S256x128.size inb_S2048x128_S256x128_512_0).toLoadRect ((hs0_0 t).unread (iblk m c 0 t)))
    (View.readAt (Elt Ideal) (ms0_2 t).view (Rect.unit (s := S2048x1) ![512, 0] S256x1.size inb_S2048x1_S256x1_512_0).toLoadRect ((hs0_2 t).unread (iblk m c 2 t)))
    (View.readAt (Elt Ideal) (ms0_4 t).view (Rect.unit (s := S2048x1) ![512, 0] S256x1.size inb_S2048x1_S256x1_512_0).toLoadRect ((hs0_4 t).unread (iblk m c 4 t)))
    (fun k => Scalar.muli (Scf.iv 0#32 1#32 k) 1024#32) (chE3 m c t) (chN3 m c t) (chL3 m c t) (seq3 m c t) where
  hb := by
    show Scalar.addi (Scalar.muli (BitVec.ofNat 32 ((grid0.coords t) 0).val) 2048#32) 512#32 = _
    rw [coords0 t]
    exact row_word ⟨t.val, pt_lt t⟩ ⟨2, by omega⟩
  hv1 := fun p k =>
    (ld_tile128 (F := Ideal) (ms0_0 t) (hs0_0 t) (iblk m c 0 t) 512 inb_S2048x128_S256x128_512_0 p k (by have := p.isLt; omega)).trans
      ((iblk0_arg m c t ⟨512 + p.val, by have := p.isLt; omega⟩ k).trans
        (congrArg (fun r => argE m c r k) (Fin.ext (by show 2048 * t.val + (512 + p.val) = 2048 * t.val + 512 + p.val; omega))))
  hv2 := fun p =>
    (ld_tile1 (F := Ideal) (ms0_2 t) (hs0_2 t) (iblk m c 2 t) 512 inb_S2048x1_S256x1_512_0 p 0 (by have := p.isLt; omega)).trans
      ((iblk2_arg m c t ⟨512 + p.val, by have := p.isLt; omega⟩).trans
        (congrArg (fun r => Cert.Spec.nrm (argE m c) r) (Fin.ext (by show 2048 * t.val + (512 + p.val) = 2048 * t.val + 512 + p.val; omega))))
  hv4 := fun p =>
    (ld_tile1 (F := Ideal) (ms0_4 t) (hs0_4 t) (iblk m c 4 t) 512 inb_S2048x1_S256x1_512_0 p 0 (by have := p.isLt; omega)).trans
      ((iblk4_arg m c t ⟨512 + p.val, by have := p.isLt; omega⟩).trans
        (congrArg (fun r => argLab m c r) (Fin.ext (by show 2048 * t.val + (512 + p.val) = 2048 * t.val + 512 + p.val; omega))))
  hcs := fun k _ => col_word k
  hL2 := fun k hk q k' => by
    have hk' : k < k0_t3_loop.trips := by rw [trips3]; exact hk
    unfold chE3; rw [dif_pos hk']
    exact (ld_chunk128 (F := Ideal) (ms0_1 t) (hs0_1 t) (iblk m c 1 t) _ k (k0_off5_eq ⟨k, hk'⟩) _ q k' (by have := q.isLt; omega)).trans
      (iblk1_arg m c t _ k')
  hL4 := fun k hk q => by
    have hk' : k < k0_t3_loop.trips := by rw [trips3]; exact hk
    unfold chN3; rw [dif_pos hk']
    exact (ld_chunk1 (F := Ideal) (ms0_3 t) (hs0_3 t) (iblk m c 3 t) _ k (k0_off6_eq ⟨k, hk'⟩) _ 0 q (by have := q.isLt; omega)).trans
      (iblk3_arg m c t _)
  hL6 := fun k hk q => by
    have hk' : k < k0_t3_loop.trips := by rw [trips3]; exact hk
    unfold chL3; rw [dif_pos hk']
    exact (ld_chunk1 (F := Ideal) (ms0_5 t) (hs0_5 t) (iblk m c 5 t) _ k (k0_off6_eq ⟨k, hk'⟩) _ 0 q (by have := q.isLt; omega)).trans
      (iblk5_arg m c t _)
  h0 := fun p =>
    ⟨(show (k0_pay22 (F := Ideal)) (ix2 p (0 : Fin 1)) = Ideal.ofBits .f32 0xFF800000#32 from rfl).trans Cert.Lits.negInf,
     (show (k0_pay23 (F := Ideal)) (ix2 p (0 : Fin 1)) = Ideal.ofBits .f32 0x7F800000#32 from rfl).trans Cert.Lits.posInf⟩
  hS := fun k hk => by
    have hk' : k < k0_t3_loop.trips := by rw [trips3]; exact hk
    unfold seq3
    refine (st_k0_t3_succ (F := Ideal) _ _ _ _ _ _ _ _ _ _ _ _ _ _ _ _ _ _ _ _ _ _ _ _ _ _ _ _ _ ⟨k, hk'⟩).trans ((tripR_eq_3 (F := Ideal) _ _ _ _ _ _ _ _ _ _ _ _ _ _ _ _ _ _ _ _ _ _ _ _ _ _ _ _ _ _ ).trans ?_)
    unfold chE3 chN3 chL3
    rw [dif_pos hk', dif_pos hk', dif_pos hk']

/-- Tile 2's sum of hinge terms and its count of valid anchors. -/
theorem sum3 : k0_pay9 (F := Ideal) (stAt3 (F := Ideal) m c t).1 (stAt3 (F := Ideal) m c t).2 (ix2 (0 : Fin 1) (0 : Fin 1))
    = ∑ p : Fin 256, Cert.Spec.tripK (argE m c) (argLab m c) ⟨2048 * t.val + 512 + p.val, by have := pt_lt t; have := p.isLt; omega⟩ := by
  rw [stAt3_eq]; exact tile_sum (run3 m c t)
theorem cnt3 : k0_pay11 (F := Ideal) (k0_pay10 (F := Ideal) (stAt3 (F := Ideal) m c t).1 (stAt3 (F := Ideal) m c t).2) (ix2 (0 : Fin 1) (0 : Fin 1))
    = ∑ p : Fin 256, Cert.Spec.cntK (argE m c) (argLab m c) ⟨2048 * t.val + 512 + p.val, by have := pt_lt t; have := p.isLt; omega⟩ := by
  rw [stAt3_eq]; exact tile_cnt (run3 m c t)

/-! ## Tile 3 (rows 768 … 1023 of the point's block) -/

theorem trips4 : k0_t4_loop.trips = 8 := by decide

/-- Tile 3's carried pair after n chunks. -/
def seq4 (n : ℕ) : FVec Ideal S256x1 .f32 × FVec Ideal S256x1 .f32 :=
  st_k0_t4 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (View.readAt (Elt Ideal) (ms0_0 t).view (Rect.unit (s := S2048x128) ![768, 0] S256x128.size inb_S2048x128_S256x128_768_0).toLoadRect ((hs0_0 t).unread (iblk m c 0 t)))
    (View.readAt (Elt Ideal) (ms0_2 t).view (Rect.unit (s := S2048x1) ![768, 0] S256x1.size inb_S2048x1_S256x1_768_0).toLoadRect ((hs0_2 t).unread (iblk m c 2 t)))
    (View.readAt (Elt Ideal) (ms0_4 t).view (Rect.unit (s := S2048x1) ![768, 0] S256x1.size inb_S2048x1_S256x1_768_0).toLoadRect ((hs0_4 t).unread (iblk m c 4 t)))
    ((hs0_1 t).unread (iblk m c 1 t)) ((hs0_3 t).unread (iblk m c 3 t)) ((hs0_5 t).unread (iblk m c 5 t)) (k0_pay31, k0_pay32) n

theorem stAt4_eq : stAt4 (F := Ideal) m c t = seq4 m c t 8 :=
  (show stAt4 (F := Ideal) m c t = seq4 m c t (Scf.trips k0_t4_loop.lb k0_t4_loop.ub k0_t4_loop.st) from rfl).trans
    (congrArg (seq4 m c t) trips4)

/-- Chunk k's rows of the embeddings, norms and labels, as trip k loads them. -/
def chE4 (k : ℕ) : Vec Ideal S1024x128 .f32 :=
  if h : k < k0_t4_loop.trips then
    View.readAt (Elt Ideal) (ms0_1 t).view (Rect.unit (s := S8192x128) (k0_off7 ⟨k, h⟩) S1024x128.size (k0_off7_inb ⟨k, h⟩)).toLoadRect ((hs0_1 t).unread (iblk m c 1 t))
  else fun _ => 0
def chN4 (k : ℕ) : Vec Ideal S1x1024 .f32 :=
  if h : k < k0_t4_loop.trips then
    View.readAt (Elt Ideal) (ms0_3 t).view (Rect.unit (s := S1x8192) (k0_off8 ⟨k, h⟩) S1x1024.size (k0_off8_inb ⟨k, h⟩)).toLoadRect ((hs0_3 t).unread (iblk m c 3 t))
  else fun _ => 0
def chL4 (k : ℕ) : Vec Ideal S1x1024 .i32 :=
  if h : k < k0_t4_loop.trips then
    View.readAt (Elt Ideal) (ms0_5 t).view (Rect.unit (s := S1x8192) (k0_off8 ⟨k, h⟩) S1x1024.size (k0_off8_inb ⟨k, h⟩)).toLoadRect ((hs0_5 t).unread (iblk m c 5 t))
  else fun _ => 0

theorem run4 : TileRun (argE m c) (argLab m c) (2048 * t.val + 768) (by have := pt_lt t; omega) (Scalar.addi (rowBase t) 768#32)
    (View.readAt (Elt Ideal) (ms0_0 t).view (Rect.unit (s := S2048x128) ![768, 0] S256x128.size inb_S2048x128_S256x128_768_0).toLoadRect ((hs0_0 t).unread (iblk m c 0 t)))
    (View.readAt (Elt Ideal) (ms0_2 t).view (Rect.unit (s := S2048x1) ![768, 0] S256x1.size inb_S2048x1_S256x1_768_0).toLoadRect ((hs0_2 t).unread (iblk m c 2 t)))
    (View.readAt (Elt Ideal) (ms0_4 t).view (Rect.unit (s := S2048x1) ![768, 0] S256x1.size inb_S2048x1_S256x1_768_0).toLoadRect ((hs0_4 t).unread (iblk m c 4 t)))
    (fun k => Scalar.muli (Scf.iv 0#32 1#32 k) 1024#32) (chE4 m c t) (chN4 m c t) (chL4 m c t) (seq4 m c t) where
  hb := by
    show Scalar.addi (Scalar.muli (BitVec.ofNat 32 ((grid0.coords t) 0).val) 2048#32) 768#32 = _
    rw [coords0 t]
    exact row_word ⟨t.val, pt_lt t⟩ ⟨3, by omega⟩
  hv1 := fun p k =>
    (ld_tile128 (F := Ideal) (ms0_0 t) (hs0_0 t) (iblk m c 0 t) 768 inb_S2048x128_S256x128_768_0 p k (by have := p.isLt; omega)).trans
      ((iblk0_arg m c t ⟨768 + p.val, by have := p.isLt; omega⟩ k).trans
        (congrArg (fun r => argE m c r k) (Fin.ext (by show 2048 * t.val + (768 + p.val) = 2048 * t.val + 768 + p.val; omega))))
  hv2 := fun p =>
    (ld_tile1 (F := Ideal) (ms0_2 t) (hs0_2 t) (iblk m c 2 t) 768 inb_S2048x1_S256x1_768_0 p 0 (by have := p.isLt; omega)).trans
      ((iblk2_arg m c t ⟨768 + p.val, by have := p.isLt; omega⟩).trans
        (congrArg (fun r => Cert.Spec.nrm (argE m c) r) (Fin.ext (by show 2048 * t.val + (768 + p.val) = 2048 * t.val + 768 + p.val; omega))))
  hv4 := fun p =>
    (ld_tile1 (F := Ideal) (ms0_4 t) (hs0_4 t) (iblk m c 4 t) 768 inb_S2048x1_S256x1_768_0 p 0 (by have := p.isLt; omega)).trans
      ((iblk4_arg m c t ⟨768 + p.val, by have := p.isLt; omega⟩).trans
        (congrArg (fun r => argLab m c r) (Fin.ext (by show 2048 * t.val + (768 + p.val) = 2048 * t.val + 768 + p.val; omega))))
  hcs := fun k _ => col_word k
  hL2 := fun k hk q k' => by
    have hk' : k < k0_t4_loop.trips := by rw [trips4]; exact hk
    unfold chE4; rw [dif_pos hk']
    exact (ld_chunk128 (F := Ideal) (ms0_1 t) (hs0_1 t) (iblk m c 1 t) _ k (k0_off7_eq ⟨k, hk'⟩) _ q k' (by have := q.isLt; omega)).trans
      (iblk1_arg m c t _ k')
  hL4 := fun k hk q => by
    have hk' : k < k0_t4_loop.trips := by rw [trips4]; exact hk
    unfold chN4; rw [dif_pos hk']
    exact (ld_chunk1 (F := Ideal) (ms0_3 t) (hs0_3 t) (iblk m c 3 t) _ k (k0_off8_eq ⟨k, hk'⟩) _ 0 q (by have := q.isLt; omega)).trans
      (iblk3_arg m c t _)
  hL6 := fun k hk q => by
    have hk' : k < k0_t4_loop.trips := by rw [trips4]; exact hk
    unfold chL4; rw [dif_pos hk']
    exact (ld_chunk1 (F := Ideal) (ms0_5 t) (hs0_5 t) (iblk m c 5 t) _ k (k0_off8_eq ⟨k, hk'⟩) _ 0 q (by have := q.isLt; omega)).trans
      (iblk5_arg m c t _)
  h0 := fun p =>
    ⟨(show (k0_pay31 (F := Ideal)) (ix2 p (0 : Fin 1)) = Ideal.ofBits .f32 0xFF800000#32 from rfl).trans Cert.Lits.negInf,
     (show (k0_pay32 (F := Ideal)) (ix2 p (0 : Fin 1)) = Ideal.ofBits .f32 0x7F800000#32 from rfl).trans Cert.Lits.posInf⟩
  hS := fun k hk => by
    have hk' : k < k0_t4_loop.trips := by rw [trips4]; exact hk
    unfold seq4
    refine (st_k0_t4_succ (F := Ideal) _ _ _ _ _ _ _ _ _ _ _ _ _ _ _ _ _ _ _ _ _ _ _ _ _ _ _ _ ⟨k, hk'⟩).trans ((tripR_eq_4 (F := Ideal) _ _ _ _ _ _ _ _ _ _ _ _ _ _ _ _ _ _ _ _ _ _ _ _ _ _ _ _ _ ).trans ?_)
    unfold chE4 chN4 chL4
    rw [dif_pos hk', dif_pos hk', dif_pos hk']

/-- Tile 3's sum of hinge terms and its count of valid anchors. -/
theorem sum4 : k0_pay9 (F := Ideal) (stAt4 (F := Ideal) m c t).1 (stAt4 (F := Ideal) m c t).2 (ix2 (0 : Fin 1) (0 : Fin 1))
    = ∑ p : Fin 256, Cert.Spec.tripK (argE m c) (argLab m c) ⟨2048 * t.val + 768 + p.val, by have := pt_lt t; have := p.isLt; omega⟩ := by
  rw [stAt4_eq]; exact tile_sum (run4 m c t)
theorem cnt4 : k0_pay11 (F := Ideal) (k0_pay10 (F := Ideal) (stAt4 (F := Ideal) m c t).1 (stAt4 (F := Ideal) m c t).2) (ix2 (0 : Fin 1) (0 : Fin 1))
    = ∑ p : Fin 256, Cert.Spec.cntK (argE m c) (argLab m c) ⟨2048 * t.val + 768 + p.val, by have := pt_lt t; have := p.isLt; omega⟩ := by
  rw [stAt4_eq]; exact tile_cnt (run4 m c t)

/-! ## Tile 4 (rows 1024 … 1279 of the point's block) -/

theorem trips5 : k0_t5_loop.trips = 8 := by decide

/-- Tile 4's carried pair after n chunks. -/
def seq5 (n : ℕ) : FVec Ideal S256x1 .f32 × FVec Ideal S256x1 .f32 :=
  st_k0_t5 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (View.readAt (Elt Ideal) (ms0_0 t).view (Rect.unit (s := S2048x128) ![1024, 0] S256x128.size inb_S2048x128_S256x128_1024_0).toLoadRect ((hs0_0 t).unread (iblk m c 0 t)))
    (View.readAt (Elt Ideal) (ms0_2 t).view (Rect.unit (s := S2048x1) ![1024, 0] S256x1.size inb_S2048x1_S256x1_1024_0).toLoadRect ((hs0_2 t).unread (iblk m c 2 t)))
    (View.readAt (Elt Ideal) (ms0_4 t).view (Rect.unit (s := S2048x1) ![1024, 0] S256x1.size inb_S2048x1_S256x1_1024_0).toLoadRect ((hs0_4 t).unread (iblk m c 4 t)))
    ((hs0_1 t).unread (iblk m c 1 t)) ((hs0_3 t).unread (iblk m c 3 t)) ((hs0_5 t).unread (iblk m c 5 t)) (k0_pay40, k0_pay41) n

theorem stAt5_eq : stAt5 (F := Ideal) m c t = seq5 m c t 8 :=
  (show stAt5 (F := Ideal) m c t = seq5 m c t (Scf.trips k0_t5_loop.lb k0_t5_loop.ub k0_t5_loop.st) from rfl).trans
    (congrArg (seq5 m c t) trips5)

/-- Chunk k's rows of the embeddings, norms and labels, as trip k loads them. -/
def chE5 (k : ℕ) : Vec Ideal S1024x128 .f32 :=
  if h : k < k0_t5_loop.trips then
    View.readAt (Elt Ideal) (ms0_1 t).view (Rect.unit (s := S8192x128) (k0_off9 ⟨k, h⟩) S1024x128.size (k0_off9_inb ⟨k, h⟩)).toLoadRect ((hs0_1 t).unread (iblk m c 1 t))
  else fun _ => 0
def chN5 (k : ℕ) : Vec Ideal S1x1024 .f32 :=
  if h : k < k0_t5_loop.trips then
    View.readAt (Elt Ideal) (ms0_3 t).view (Rect.unit (s := S1x8192) (k0_off10 ⟨k, h⟩) S1x1024.size (k0_off10_inb ⟨k, h⟩)).toLoadRect ((hs0_3 t).unread (iblk m c 3 t))
  else fun _ => 0
def chL5 (k : ℕ) : Vec Ideal S1x1024 .i32 :=
  if h : k < k0_t5_loop.trips then
    View.readAt (Elt Ideal) (ms0_5 t).view (Rect.unit (s := S1x8192) (k0_off10 ⟨k, h⟩) S1x1024.size (k0_off10_inb ⟨k, h⟩)).toLoadRect ((hs0_5 t).unread (iblk m c 5 t))
  else fun _ => 0

theorem run5 : TileRun (argE m c) (argLab m c) (2048 * t.val + 1024) (by have := pt_lt t; omega) (Scalar.addi (rowBase t) 1024#32)
    (View.readAt (Elt Ideal) (ms0_0 t).view (Rect.unit (s := S2048x128) ![1024, 0] S256x128.size inb_S2048x128_S256x128_1024_0).toLoadRect ((hs0_0 t).unread (iblk m c 0 t)))
    (View.readAt (Elt Ideal) (ms0_2 t).view (Rect.unit (s := S2048x1) ![1024, 0] S256x1.size inb_S2048x1_S256x1_1024_0).toLoadRect ((hs0_2 t).unread (iblk m c 2 t)))
    (View.readAt (Elt Ideal) (ms0_4 t).view (Rect.unit (s := S2048x1) ![1024, 0] S256x1.size inb_S2048x1_S256x1_1024_0).toLoadRect ((hs0_4 t).unread (iblk m c 4 t)))
    (fun k => Scalar.muli (Scf.iv 0#32 1#32 k) 1024#32) (chE5 m c t) (chN5 m c t) (chL5 m c t) (seq5 m c t) where
  hb := by
    show Scalar.addi (Scalar.muli (BitVec.ofNat 32 ((grid0.coords t) 0).val) 2048#32) 1024#32 = _
    rw [coords0 t]
    exact row_word ⟨t.val, pt_lt t⟩ ⟨4, by omega⟩
  hv1 := fun p k =>
    (ld_tile128 (F := Ideal) (ms0_0 t) (hs0_0 t) (iblk m c 0 t) 1024 inb_S2048x128_S256x128_1024_0 p k (by have := p.isLt; omega)).trans
      ((iblk0_arg m c t ⟨1024 + p.val, by have := p.isLt; omega⟩ k).trans
        (congrArg (fun r => argE m c r k) (Fin.ext (by show 2048 * t.val + (1024 + p.val) = 2048 * t.val + 1024 + p.val; omega))))
  hv2 := fun p =>
    (ld_tile1 (F := Ideal) (ms0_2 t) (hs0_2 t) (iblk m c 2 t) 1024 inb_S2048x1_S256x1_1024_0 p 0 (by have := p.isLt; omega)).trans
      ((iblk2_arg m c t ⟨1024 + p.val, by have := p.isLt; omega⟩).trans
        (congrArg (fun r => Cert.Spec.nrm (argE m c) r) (Fin.ext (by show 2048 * t.val + (1024 + p.val) = 2048 * t.val + 1024 + p.val; omega))))
  hv4 := fun p =>
    (ld_tile1 (F := Ideal) (ms0_4 t) (hs0_4 t) (iblk m c 4 t) 1024 inb_S2048x1_S256x1_1024_0 p 0 (by have := p.isLt; omega)).trans
      ((iblk4_arg m c t ⟨1024 + p.val, by have := p.isLt; omega⟩).trans
        (congrArg (fun r => argLab m c r) (Fin.ext (by show 2048 * t.val + (1024 + p.val) = 2048 * t.val + 1024 + p.val; omega))))
  hcs := fun k _ => col_word k
  hL2 := fun k hk q k' => by
    have hk' : k < k0_t5_loop.trips := by rw [trips5]; exact hk
    unfold chE5; rw [dif_pos hk']
    exact (ld_chunk128 (F := Ideal) (ms0_1 t) (hs0_1 t) (iblk m c 1 t) _ k (k0_off9_eq ⟨k, hk'⟩) _ q k' (by have := q.isLt; omega)).trans
      (iblk1_arg m c t _ k')
  hL4 := fun k hk q => by
    have hk' : k < k0_t5_loop.trips := by rw [trips5]; exact hk
    unfold chN5; rw [dif_pos hk']
    exact (ld_chunk1 (F := Ideal) (ms0_3 t) (hs0_3 t) (iblk m c 3 t) _ k (k0_off10_eq ⟨k, hk'⟩) _ 0 q (by have := q.isLt; omega)).trans
      (iblk3_arg m c t _)
  hL6 := fun k hk q => by
    have hk' : k < k0_t5_loop.trips := by rw [trips5]; exact hk
    unfold chL5; rw [dif_pos hk']
    exact (ld_chunk1 (F := Ideal) (ms0_5 t) (hs0_5 t) (iblk m c 5 t) _ k (k0_off10_eq ⟨k, hk'⟩) _ 0 q (by have := q.isLt; omega)).trans
      (iblk5_arg m c t _)
  h0 := fun p =>
    ⟨(show (k0_pay40 (F := Ideal)) (ix2 p (0 : Fin 1)) = Ideal.ofBits .f32 0xFF800000#32 from rfl).trans Cert.Lits.negInf,
     (show (k0_pay41 (F := Ideal)) (ix2 p (0 : Fin 1)) = Ideal.ofBits .f32 0x7F800000#32 from rfl).trans Cert.Lits.posInf⟩
  hS := fun k hk => by
    have hk' : k < k0_t5_loop.trips := by rw [trips5]; exact hk
    unfold seq5
    refine (st_k0_t5_succ (F := Ideal) _ _ _ _ _ _ _ _ _ _ _ _ _ _ _ _ _ _ _ _ _ _ _ _ _ _ _ _ ⟨k, hk'⟩).trans ((tripR_eq_5 (F := Ideal) _ _ _ _ _ _ _ _ _ _ _ _ _ _ _ _ _ _ _ _ _ _ _ _ _ _ _ _ _ ).trans ?_)
    unfold chE5 chN5 chL5
    rw [dif_pos hk', dif_pos hk', dif_pos hk']

/-- Tile 4's sum of hinge terms and its count of valid anchors. -/
theorem sum5 : k0_pay9 (F := Ideal) (stAt5 (F := Ideal) m c t).1 (stAt5 (F := Ideal) m c t).2 (ix2 (0 : Fin 1) (0 : Fin 1))
    = ∑ p : Fin 256, Cert.Spec.tripK (argE m c) (argLab m c) ⟨2048 * t.val + 1024 + p.val, by have := pt_lt t; have := p.isLt; omega⟩ := by
  rw [stAt5_eq]; exact tile_sum (run5 m c t)
theorem cnt5 : k0_pay11 (F := Ideal) (k0_pay10 (F := Ideal) (stAt5 (F := Ideal) m c t).1 (stAt5 (F := Ideal) m c t).2) (ix2 (0 : Fin 1) (0 : Fin 1))
    = ∑ p : Fin 256, Cert.Spec.cntK (argE m c) (argLab m c) ⟨2048 * t.val + 1024 + p.val, by have := pt_lt t; have := p.isLt; omega⟩ := by
  rw [stAt5_eq]; exact tile_cnt (run5 m c t)

/-! ## Tile 5 (rows 1280 … 1535 of the point's block) -/

theorem trips6 : k0_t6_loop.trips = 8 := by decide

/-- Tile 5's carried pair after n chunks. -/
def seq6 (n : ℕ) : FVec Ideal S256x1 .f32 × FVec Ideal S256x1 .f32 :=
  st_k0_t6 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (View.readAt (Elt Ideal) (ms0_0 t).view (Rect.unit (s := S2048x128) ![1280, 0] S256x128.size inb_S2048x128_S256x128_1280_0).toLoadRect ((hs0_0 t).unread (iblk m c 0 t)))
    (View.readAt (Elt Ideal) (ms0_2 t).view (Rect.unit (s := S2048x1) ![1280, 0] S256x1.size inb_S2048x1_S256x1_1280_0).toLoadRect ((hs0_2 t).unread (iblk m c 2 t)))
    (View.readAt (Elt Ideal) (ms0_4 t).view (Rect.unit (s := S2048x1) ![1280, 0] S256x1.size inb_S2048x1_S256x1_1280_0).toLoadRect ((hs0_4 t).unread (iblk m c 4 t)))
    ((hs0_1 t).unread (iblk m c 1 t)) ((hs0_3 t).unread (iblk m c 3 t)) ((hs0_5 t).unread (iblk m c 5 t)) (k0_pay49, k0_pay50) n

theorem stAt6_eq : stAt6 (F := Ideal) m c t = seq6 m c t 8 :=
  (show stAt6 (F := Ideal) m c t = seq6 m c t (Scf.trips k0_t6_loop.lb k0_t6_loop.ub k0_t6_loop.st) from rfl).trans
    (congrArg (seq6 m c t) trips6)

/-- Chunk k's rows of the embeddings, norms and labels, as trip k loads them. -/
def chE6 (k : ℕ) : Vec Ideal S1024x128 .f32 :=
  if h : k < k0_t6_loop.trips then
    View.readAt (Elt Ideal) (ms0_1 t).view (Rect.unit (s := S8192x128) (k0_off11 ⟨k, h⟩) S1024x128.size (k0_off11_inb ⟨k, h⟩)).toLoadRect ((hs0_1 t).unread (iblk m c 1 t))
  else fun _ => 0
def chN6 (k : ℕ) : Vec Ideal S1x1024 .f32 :=
  if h : k < k0_t6_loop.trips then
    View.readAt (Elt Ideal) (ms0_3 t).view (Rect.unit (s := S1x8192) (k0_off12 ⟨k, h⟩) S1x1024.size (k0_off12_inb ⟨k, h⟩)).toLoadRect ((hs0_3 t).unread (iblk m c 3 t))
  else fun _ => 0
def chL6 (k : ℕ) : Vec Ideal S1x1024 .i32 :=
  if h : k < k0_t6_loop.trips then
    View.readAt (Elt Ideal) (ms0_5 t).view (Rect.unit (s := S1x8192) (k0_off12 ⟨k, h⟩) S1x1024.size (k0_off12_inb ⟨k, h⟩)).toLoadRect ((hs0_5 t).unread (iblk m c 5 t))
  else fun _ => 0

theorem run6 : TileRun (argE m c) (argLab m c) (2048 * t.val + 1280) (by have := pt_lt t; omega) (Scalar.addi (rowBase t) 1280#32)
    (View.readAt (Elt Ideal) (ms0_0 t).view (Rect.unit (s := S2048x128) ![1280, 0] S256x128.size inb_S2048x128_S256x128_1280_0).toLoadRect ((hs0_0 t).unread (iblk m c 0 t)))
    (View.readAt (Elt Ideal) (ms0_2 t).view (Rect.unit (s := S2048x1) ![1280, 0] S256x1.size inb_S2048x1_S256x1_1280_0).toLoadRect ((hs0_2 t).unread (iblk m c 2 t)))
    (View.readAt (Elt Ideal) (ms0_4 t).view (Rect.unit (s := S2048x1) ![1280, 0] S256x1.size inb_S2048x1_S256x1_1280_0).toLoadRect ((hs0_4 t).unread (iblk m c 4 t)))
    (fun k => Scalar.muli (Scf.iv 0#32 1#32 k) 1024#32) (chE6 m c t) (chN6 m c t) (chL6 m c t) (seq6 m c t) where
  hb := by
    show Scalar.addi (Scalar.muli (BitVec.ofNat 32 ((grid0.coords t) 0).val) 2048#32) 1280#32 = _
    rw [coords0 t]
    exact row_word ⟨t.val, pt_lt t⟩ ⟨5, by omega⟩
  hv1 := fun p k =>
    (ld_tile128 (F := Ideal) (ms0_0 t) (hs0_0 t) (iblk m c 0 t) 1280 inb_S2048x128_S256x128_1280_0 p k (by have := p.isLt; omega)).trans
      ((iblk0_arg m c t ⟨1280 + p.val, by have := p.isLt; omega⟩ k).trans
        (congrArg (fun r => argE m c r k) (Fin.ext (by show 2048 * t.val + (1280 + p.val) = 2048 * t.val + 1280 + p.val; omega))))
  hv2 := fun p =>
    (ld_tile1 (F := Ideal) (ms0_2 t) (hs0_2 t) (iblk m c 2 t) 1280 inb_S2048x1_S256x1_1280_0 p 0 (by have := p.isLt; omega)).trans
      ((iblk2_arg m c t ⟨1280 + p.val, by have := p.isLt; omega⟩).trans
        (congrArg (fun r => Cert.Spec.nrm (argE m c) r) (Fin.ext (by show 2048 * t.val + (1280 + p.val) = 2048 * t.val + 1280 + p.val; omega))))
  hv4 := fun p =>
    (ld_tile1 (F := Ideal) (ms0_4 t) (hs0_4 t) (iblk m c 4 t) 1280 inb_S2048x1_S256x1_1280_0 p 0 (by have := p.isLt; omega)).trans
      ((iblk4_arg m c t ⟨1280 + p.val, by have := p.isLt; omega⟩).trans
        (congrArg (fun r => argLab m c r) (Fin.ext (by show 2048 * t.val + (1280 + p.val) = 2048 * t.val + 1280 + p.val; omega))))
  hcs := fun k _ => col_word k
  hL2 := fun k hk q k' => by
    have hk' : k < k0_t6_loop.trips := by rw [trips6]; exact hk
    unfold chE6; rw [dif_pos hk']
    exact (ld_chunk128 (F := Ideal) (ms0_1 t) (hs0_1 t) (iblk m c 1 t) _ k (k0_off11_eq ⟨k, hk'⟩) _ q k' (by have := q.isLt; omega)).trans
      (iblk1_arg m c t _ k')
  hL4 := fun k hk q => by
    have hk' : k < k0_t6_loop.trips := by rw [trips6]; exact hk
    unfold chN6; rw [dif_pos hk']
    exact (ld_chunk1 (F := Ideal) (ms0_3 t) (hs0_3 t) (iblk m c 3 t) _ k (k0_off12_eq ⟨k, hk'⟩) _ 0 q (by have := q.isLt; omega)).trans
      (iblk3_arg m c t _)
  hL6 := fun k hk q => by
    have hk' : k < k0_t6_loop.trips := by rw [trips6]; exact hk
    unfold chL6; rw [dif_pos hk']
    exact (ld_chunk1 (F := Ideal) (ms0_5 t) (hs0_5 t) (iblk m c 5 t) _ k (k0_off12_eq ⟨k, hk'⟩) _ 0 q (by have := q.isLt; omega)).trans
      (iblk5_arg m c t _)
  h0 := fun p =>
    ⟨(show (k0_pay49 (F := Ideal)) (ix2 p (0 : Fin 1)) = Ideal.ofBits .f32 0xFF800000#32 from rfl).trans Cert.Lits.negInf,
     (show (k0_pay50 (F := Ideal)) (ix2 p (0 : Fin 1)) = Ideal.ofBits .f32 0x7F800000#32 from rfl).trans Cert.Lits.posInf⟩
  hS := fun k hk => by
    have hk' : k < k0_t6_loop.trips := by rw [trips6]; exact hk
    unfold seq6
    refine (st_k0_t6_succ (F := Ideal) _ _ _ _ _ _ _ _ _ _ _ _ _ _ _ _ _ _ _ _ _ _ _ _ _ _ _ _ ⟨k, hk'⟩).trans ((tripR_eq_6 (F := Ideal) _ _ _ _ _ _ _ _ _ _ _ _ _ _ _ _ _ _ _ _ _ _ _ _ _ _ _ _ _ ).trans ?_)
    unfold chE6 chN6 chL6
    rw [dif_pos hk', dif_pos hk', dif_pos hk']

/-- Tile 5's sum of hinge terms and its count of valid anchors. -/
theorem sum6 : k0_pay9 (F := Ideal) (stAt6 (F := Ideal) m c t).1 (stAt6 (F := Ideal) m c t).2 (ix2 (0 : Fin 1) (0 : Fin 1))
    = ∑ p : Fin 256, Cert.Spec.tripK (argE m c) (argLab m c) ⟨2048 * t.val + 1280 + p.val, by have := pt_lt t; have := p.isLt; omega⟩ := by
  rw [stAt6_eq]; exact tile_sum (run6 m c t)
theorem cnt6 : k0_pay11 (F := Ideal) (k0_pay10 (F := Ideal) (stAt6 (F := Ideal) m c t).1 (stAt6 (F := Ideal) m c t).2) (ix2 (0 : Fin 1) (0 : Fin 1))
    = ∑ p : Fin 256, Cert.Spec.cntK (argE m c) (argLab m c) ⟨2048 * t.val + 1280 + p.val, by have := pt_lt t; have := p.isLt; omega⟩ := by
  rw [stAt6_eq]; exact tile_cnt (run6 m c t)

/-! ## Tile 6 (rows 1536 … 1791 of the point's block) -/

theorem trips7 : k0_t7_loop.trips = 8 := by decide

/-- Tile 6's carried pair after n chunks. -/
def seq7 (n : ℕ) : FVec Ideal S256x1 .f32 × FVec Ideal S256x1 .f32 :=
  st_k0_t7 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (View.readAt (Elt Ideal) (ms0_0 t).view (Rect.unit (s := S2048x128) ![1536, 0] S256x128.size inb_S2048x128_S256x128_1536_0).toLoadRect ((hs0_0 t).unread (iblk m c 0 t)))
    (View.readAt (Elt Ideal) (ms0_2 t).view (Rect.unit (s := S2048x1) ![1536, 0] S256x1.size inb_S2048x1_S256x1_1536_0).toLoadRect ((hs0_2 t).unread (iblk m c 2 t)))
    (View.readAt (Elt Ideal) (ms0_4 t).view (Rect.unit (s := S2048x1) ![1536, 0] S256x1.size inb_S2048x1_S256x1_1536_0).toLoadRect ((hs0_4 t).unread (iblk m c 4 t)))
    ((hs0_1 t).unread (iblk m c 1 t)) ((hs0_3 t).unread (iblk m c 3 t)) ((hs0_5 t).unread (iblk m c 5 t)) (k0_pay58, k0_pay59) n

theorem stAt7_eq : stAt7 (F := Ideal) m c t = seq7 m c t 8 :=
  (show stAt7 (F := Ideal) m c t = seq7 m c t (Scf.trips k0_t7_loop.lb k0_t7_loop.ub k0_t7_loop.st) from rfl).trans
    (congrArg (seq7 m c t) trips7)

/-- Chunk k's rows of the embeddings, norms and labels, as trip k loads them. -/
def chE7 (k : ℕ) : Vec Ideal S1024x128 .f32 :=
  if h : k < k0_t7_loop.trips then
    View.readAt (Elt Ideal) (ms0_1 t).view (Rect.unit (s := S8192x128) (k0_off13 ⟨k, h⟩) S1024x128.size (k0_off13_inb ⟨k, h⟩)).toLoadRect ((hs0_1 t).unread (iblk m c 1 t))
  else fun _ => 0
def chN7 (k : ℕ) : Vec Ideal S1x1024 .f32 :=
  if h : k < k0_t7_loop.trips then
    View.readAt (Elt Ideal) (ms0_3 t).view (Rect.unit (s := S1x8192) (k0_off14 ⟨k, h⟩) S1x1024.size (k0_off14_inb ⟨k, h⟩)).toLoadRect ((hs0_3 t).unread (iblk m c 3 t))
  else fun _ => 0
def chL7 (k : ℕ) : Vec Ideal S1x1024 .i32 :=
  if h : k < k0_t7_loop.trips then
    View.readAt (Elt Ideal) (ms0_5 t).view (Rect.unit (s := S1x8192) (k0_off14 ⟨k, h⟩) S1x1024.size (k0_off14_inb ⟨k, h⟩)).toLoadRect ((hs0_5 t).unread (iblk m c 5 t))
  else fun _ => 0

theorem run7 : TileRun (argE m c) (argLab m c) (2048 * t.val + 1536) (by have := pt_lt t; omega) (Scalar.addi (rowBase t) 1536#32)
    (View.readAt (Elt Ideal) (ms0_0 t).view (Rect.unit (s := S2048x128) ![1536, 0] S256x128.size inb_S2048x128_S256x128_1536_0).toLoadRect ((hs0_0 t).unread (iblk m c 0 t)))
    (View.readAt (Elt Ideal) (ms0_2 t).view (Rect.unit (s := S2048x1) ![1536, 0] S256x1.size inb_S2048x1_S256x1_1536_0).toLoadRect ((hs0_2 t).unread (iblk m c 2 t)))
    (View.readAt (Elt Ideal) (ms0_4 t).view (Rect.unit (s := S2048x1) ![1536, 0] S256x1.size inb_S2048x1_S256x1_1536_0).toLoadRect ((hs0_4 t).unread (iblk m c 4 t)))
    (fun k => Scalar.muli (Scf.iv 0#32 1#32 k) 1024#32) (chE7 m c t) (chN7 m c t) (chL7 m c t) (seq7 m c t) where
  hb := by
    show Scalar.addi (Scalar.muli (BitVec.ofNat 32 ((grid0.coords t) 0).val) 2048#32) 1536#32 = _
    rw [coords0 t]
    exact row_word ⟨t.val, pt_lt t⟩ ⟨6, by omega⟩
  hv1 := fun p k =>
    (ld_tile128 (F := Ideal) (ms0_0 t) (hs0_0 t) (iblk m c 0 t) 1536 inb_S2048x128_S256x128_1536_0 p k (by have := p.isLt; omega)).trans
      ((iblk0_arg m c t ⟨1536 + p.val, by have := p.isLt; omega⟩ k).trans
        (congrArg (fun r => argE m c r k) (Fin.ext (by show 2048 * t.val + (1536 + p.val) = 2048 * t.val + 1536 + p.val; omega))))
  hv2 := fun p =>
    (ld_tile1 (F := Ideal) (ms0_2 t) (hs0_2 t) (iblk m c 2 t) 1536 inb_S2048x1_S256x1_1536_0 p 0 (by have := p.isLt; omega)).trans
      ((iblk2_arg m c t ⟨1536 + p.val, by have := p.isLt; omega⟩).trans
        (congrArg (fun r => Cert.Spec.nrm (argE m c) r) (Fin.ext (by show 2048 * t.val + (1536 + p.val) = 2048 * t.val + 1536 + p.val; omega))))
  hv4 := fun p =>
    (ld_tile1 (F := Ideal) (ms0_4 t) (hs0_4 t) (iblk m c 4 t) 1536 inb_S2048x1_S256x1_1536_0 p 0 (by have := p.isLt; omega)).trans
      ((iblk4_arg m c t ⟨1536 + p.val, by have := p.isLt; omega⟩).trans
        (congrArg (fun r => argLab m c r) (Fin.ext (by show 2048 * t.val + (1536 + p.val) = 2048 * t.val + 1536 + p.val; omega))))
  hcs := fun k _ => col_word k
  hL2 := fun k hk q k' => by
    have hk' : k < k0_t7_loop.trips := by rw [trips7]; exact hk
    unfold chE7; rw [dif_pos hk']
    exact (ld_chunk128 (F := Ideal) (ms0_1 t) (hs0_1 t) (iblk m c 1 t) _ k (k0_off13_eq ⟨k, hk'⟩) _ q k' (by have := q.isLt; omega)).trans
      (iblk1_arg m c t _ k')
  hL4 := fun k hk q => by
    have hk' : k < k0_t7_loop.trips := by rw [trips7]; exact hk
    unfold chN7; rw [dif_pos hk']
    exact (ld_chunk1 (F := Ideal) (ms0_3 t) (hs0_3 t) (iblk m c 3 t) _ k (k0_off14_eq ⟨k, hk'⟩) _ 0 q (by have := q.isLt; omega)).trans
      (iblk3_arg m c t _)
  hL6 := fun k hk q => by
    have hk' : k < k0_t7_loop.trips := by rw [trips7]; exact hk
    unfold chL7; rw [dif_pos hk']
    exact (ld_chunk1 (F := Ideal) (ms0_5 t) (hs0_5 t) (iblk m c 5 t) _ k (k0_off14_eq ⟨k, hk'⟩) _ 0 q (by have := q.isLt; omega)).trans
      (iblk5_arg m c t _)
  h0 := fun p =>
    ⟨(show (k0_pay58 (F := Ideal)) (ix2 p (0 : Fin 1)) = Ideal.ofBits .f32 0xFF800000#32 from rfl).trans Cert.Lits.negInf,
     (show (k0_pay59 (F := Ideal)) (ix2 p (0 : Fin 1)) = Ideal.ofBits .f32 0x7F800000#32 from rfl).trans Cert.Lits.posInf⟩
  hS := fun k hk => by
    have hk' : k < k0_t7_loop.trips := by rw [trips7]; exact hk
    unfold seq7
    refine (st_k0_t7_succ (F := Ideal) _ _ _ _ _ _ _ _ _ _ _ _ _ _ _ _ _ _ _ _ _ _ _ _ _ _ _ _ ⟨k, hk'⟩).trans ((tripR_eq_7 (F := Ideal) _ _ _ _ _ _ _ _ _ _ _ _ _ _ _ _ _ _ _ _ _ _ _ _ _ _ _ _ _ ).trans ?_)
    unfold chE7 chN7 chL7
    rw [dif_pos hk', dif_pos hk', dif_pos hk']

/-- Tile 6's sum of hinge terms and its count of valid anchors. -/
theorem sum7 : k0_pay9 (F := Ideal) (stAt7 (F := Ideal) m c t).1 (stAt7 (F := Ideal) m c t).2 (ix2 (0 : Fin 1) (0 : Fin 1))
    = ∑ p : Fin 256, Cert.Spec.tripK (argE m c) (argLab m c) ⟨2048 * t.val + 1536 + p.val, by have := pt_lt t; have := p.isLt; omega⟩ := by
  rw [stAt7_eq]; exact tile_sum (run7 m c t)
theorem cnt7 : k0_pay11 (F := Ideal) (k0_pay10 (F := Ideal) (stAt7 (F := Ideal) m c t).1 (stAt7 (F := Ideal) m c t).2) (ix2 (0 : Fin 1) (0 : Fin 1))
    = ∑ p : Fin 256, Cert.Spec.cntK (argE m c) (argLab m c) ⟨2048 * t.val + 1536 + p.val, by have := pt_lt t; have := p.isLt; omega⟩ := by
  rw [stAt7_eq]; exact tile_cnt (run7 m c t)

/-! ## Tile 7 (rows 1792 … 2047 of the point's block) -/

theorem trips8 : k0_t8_loop.trips = 8 := by decide

/-- Tile 7's carried pair after n chunks. -/
def seq8 (n : ℕ) : FVec Ideal S256x1 .f32 × FVec Ideal S256x1 .f32 :=
  st_k0_t8 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (rowBase t) (k0_pay9 (stAt1 (F := Ideal) m c t).1 (stAt1 (F := Ideal) m c t).2) (k0_pay19 (stAt2 (F := Ideal) m c t).1 (stAt2 (F := Ideal) m c t).2) (k0_pay29 (stAt3 (F := Ideal) m c t).1 (stAt3 (F := Ideal) m c t).2) (k0_pay38 (stAt4 (F := Ideal) m c t).1 (stAt4 (F := Ideal) m c t).2) (k0_pay47 (stAt5 (F := Ideal) m c t).1 (stAt5 (F := Ideal) m c t).2) (k0_pay56 (stAt6 (F := Ideal) m c t).1 (stAt6 (F := Ideal) m c t).2) (k0_pay65 (stAt7 (F := Ideal) m c t).1 (stAt7 (F := Ideal) m c t).2) (View.readAt (Elt Ideal) (ms0_0 t).view (Rect.unit (s := S2048x128) ![1792, 0] S256x128.size inb_S2048x128_S256x128_1792_0).toLoadRect ((hs0_0 t).unread (iblk m c 0 t)))
    (View.readAt (Elt Ideal) (ms0_2 t).view (Rect.unit (s := S2048x1) ![1792, 0] S256x1.size inb_S2048x1_S256x1_1792_0).toLoadRect ((hs0_2 t).unread (iblk m c 2 t)))
    (View.readAt (Elt Ideal) (ms0_4 t).view (Rect.unit (s := S2048x1) ![1792, 0] S256x1.size inb_S2048x1_S256x1_1792_0).toLoadRect ((hs0_4 t).unread (iblk m c 4 t)))
    ((hs0_1 t).unread (iblk m c 1 t)) ((hs0_3 t).unread (iblk m c 3 t)) ((hs0_5 t).unread (iblk m c 5 t)) (k0_pay67, k0_pay68) n

theorem stAt8_eq : stAt8 (F := Ideal) m c t = seq8 m c t 8 :=
  (show stAt8 (F := Ideal) m c t = seq8 m c t (Scf.trips k0_t8_loop.lb k0_t8_loop.ub k0_t8_loop.st) from rfl).trans
    (congrArg (seq8 m c t) trips8)

/-- Chunk k's rows of the embeddings, norms and labels, as trip k loads them. -/
def chE8 (k : ℕ) : Vec Ideal S1024x128 .f32 :=
  if h : k < k0_t8_loop.trips then
    View.readAt (Elt Ideal) (ms0_1 t).view (Rect.unit (s := S8192x128) (k0_off15 ⟨k, h⟩) S1024x128.size (k0_off15_inb ⟨k, h⟩)).toLoadRect ((hs0_1 t).unread (iblk m c 1 t))
  else fun _ => 0
def chN8 (k : ℕ) : Vec Ideal S1x1024 .f32 :=
  if h : k < k0_t8_loop.trips then
    View.readAt (Elt Ideal) (ms0_3 t).view (Rect.unit (s := S1x8192) (k0_off16 ⟨k, h⟩) S1x1024.size (k0_off16_inb ⟨k, h⟩)).toLoadRect ((hs0_3 t).unread (iblk m c 3 t))
  else fun _ => 0
def chL8 (k : ℕ) : Vec Ideal S1x1024 .i32 :=
  if h : k < k0_t8_loop.trips then
    View.readAt (Elt Ideal) (ms0_5 t).view (Rect.unit (s := S1x8192) (k0_off16 ⟨k, h⟩) S1x1024.size (k0_off16_inb ⟨k, h⟩)).toLoadRect ((hs0_5 t).unread (iblk m c 5 t))
  else fun _ => 0

theorem run8 : TileRun (argE m c) (argLab m c) (2048 * t.val + 1792) (by have := pt_lt t; omega) (Scalar.addi (rowBase t) 1792#32)
    (View.readAt (Elt Ideal) (ms0_0 t).view (Rect.unit (s := S2048x128) ![1792, 0] S256x128.size inb_S2048x128_S256x128_1792_0).toLoadRect ((hs0_0 t).unread (iblk m c 0 t)))
    (View.readAt (Elt Ideal) (ms0_2 t).view (Rect.unit (s := S2048x1) ![1792, 0] S256x1.size inb_S2048x1_S256x1_1792_0).toLoadRect ((hs0_2 t).unread (iblk m c 2 t)))
    (View.readAt (Elt Ideal) (ms0_4 t).view (Rect.unit (s := S2048x1) ![1792, 0] S256x1.size inb_S2048x1_S256x1_1792_0).toLoadRect ((hs0_4 t).unread (iblk m c 4 t)))
    (fun k => Scalar.muli (Scf.iv 0#32 1#32 k) 1024#32) (chE8 m c t) (chN8 m c t) (chL8 m c t) (seq8 m c t) where
  hb := by
    show Scalar.addi (Scalar.muli (BitVec.ofNat 32 ((grid0.coords t) 0).val) 2048#32) 1792#32 = _
    rw [coords0 t]
    exact row_word ⟨t.val, pt_lt t⟩ ⟨7, by omega⟩
  hv1 := fun p k =>
    (ld_tile128 (F := Ideal) (ms0_0 t) (hs0_0 t) (iblk m c 0 t) 1792 inb_S2048x128_S256x128_1792_0 p k (by have := p.isLt; omega)).trans
      ((iblk0_arg m c t ⟨1792 + p.val, by have := p.isLt; omega⟩ k).trans
        (congrArg (fun r => argE m c r k) (Fin.ext (by show 2048 * t.val + (1792 + p.val) = 2048 * t.val + 1792 + p.val; omega))))
  hv2 := fun p =>
    (ld_tile1 (F := Ideal) (ms0_2 t) (hs0_2 t) (iblk m c 2 t) 1792 inb_S2048x1_S256x1_1792_0 p 0 (by have := p.isLt; omega)).trans
      ((iblk2_arg m c t ⟨1792 + p.val, by have := p.isLt; omega⟩).trans
        (congrArg (fun r => Cert.Spec.nrm (argE m c) r) (Fin.ext (by show 2048 * t.val + (1792 + p.val) = 2048 * t.val + 1792 + p.val; omega))))
  hv4 := fun p =>
    (ld_tile1 (F := Ideal) (ms0_4 t) (hs0_4 t) (iblk m c 4 t) 1792 inb_S2048x1_S256x1_1792_0 p 0 (by have := p.isLt; omega)).trans
      ((iblk4_arg m c t ⟨1792 + p.val, by have := p.isLt; omega⟩).trans
        (congrArg (fun r => argLab m c r) (Fin.ext (by show 2048 * t.val + (1792 + p.val) = 2048 * t.val + 1792 + p.val; omega))))
  hcs := fun k _ => col_word k
  hL2 := fun k hk q k' => by
    have hk' : k < k0_t8_loop.trips := by rw [trips8]; exact hk
    unfold chE8; rw [dif_pos hk']
    exact (ld_chunk128 (F := Ideal) (ms0_1 t) (hs0_1 t) (iblk m c 1 t) _ k (k0_off15_eq ⟨k, hk'⟩) _ q k' (by have := q.isLt; omega)).trans
      (iblk1_arg m c t _ k')
  hL4 := fun k hk q => by
    have hk' : k < k0_t8_loop.trips := by rw [trips8]; exact hk
    unfold chN8; rw [dif_pos hk']
    exact (ld_chunk1 (F := Ideal) (ms0_3 t) (hs0_3 t) (iblk m c 3 t) _ k (k0_off16_eq ⟨k, hk'⟩) _ 0 q (by have := q.isLt; omega)).trans
      (iblk3_arg m c t _)
  hL6 := fun k hk q => by
    have hk' : k < k0_t8_loop.trips := by rw [trips8]; exact hk
    unfold chL8; rw [dif_pos hk']
    exact (ld_chunk1 (F := Ideal) (ms0_5 t) (hs0_5 t) (iblk m c 5 t) _ k (k0_off16_eq ⟨k, hk'⟩) _ 0 q (by have := q.isLt; omega)).trans
      (iblk5_arg m c t _)
  h0 := fun p =>
    ⟨(show (k0_pay67 (F := Ideal)) (ix2 p (0 : Fin 1)) = Ideal.ofBits .f32 0xFF800000#32 from rfl).trans Cert.Lits.negInf,
     (show (k0_pay68 (F := Ideal)) (ix2 p (0 : Fin 1)) = Ideal.ofBits .f32 0x7F800000#32 from rfl).trans Cert.Lits.posInf⟩
  hS := fun k hk => by
    have hk' : k < k0_t8_loop.trips := by rw [trips8]; exact hk
    unfold seq8
    refine (st_k0_t8_succ (F := Ideal) _ _ _ _ _ _ _ _ _ _ _ _ _ _ _ _ _ _ _ _ _ _ _ _ _ _ _ _ _ _ _ _ _ _ _ ⟨k, hk'⟩).trans ((tripR_eq_8 (F := Ideal) _ _ _ _ _ _ _ _ _ _ _ _ _ _ _ _ _ _ _ _ _ _ _ _ _ _ _ _ _ _ _ _ _ _ _ _ ).trans ?_)
    unfold chE8 chN8 chL8
    rw [dif_pos hk', dif_pos hk', dif_pos hk']

/-- Tile 7's sum of hinge terms and its count of valid anchors. -/
theorem sum8 : k0_pay9 (F := Ideal) (stAt8 (F := Ideal) m c t).1 (stAt8 (F := Ideal) m c t).2 (ix2 (0 : Fin 1) (0 : Fin 1))
    = ∑ p : Fin 256, Cert.Spec.tripK (argE m c) (argLab m c) ⟨2048 * t.val + 1792 + p.val, by have := pt_lt t; have := p.isLt; omega⟩ := by
  rw [stAt8_eq]; exact tile_sum (run8 m c t)
theorem cnt8 : k0_pay11 (F := Ideal) (k0_pay10 (F := Ideal) (stAt8 (F := Ideal) m c t).1 (stAt8 (F := Ideal) m c t).2) (ix2 (0 : Fin 1) (0 : Fin 1))
    = ∑ p : Fin 256, Cert.Spec.cntK (argE m c) (argLab m c) ⟨2048 * t.val + 1792 + p.val, by have := pt_lt t; have := p.isLt; omega⟩ := by
  rw [stAt8_eq]; exact tile_cnt (run8 m c t)

end Cert.KernelIdeal.Gen

end
-- ==== Proof.IdealOutB.lean ====
/-
  The two output blocks of a grid point, entry by entry.
  Entry s of a concatenation of eight one-entry columns is the one entry of column s; the body's eight copies of
  the tile arithmetic (the sum of the hinge terms over the tile's valid anchors, and the count of those anchors) are
  textually one function of the tile's final pair of row extremes. So entry s of the sums' block is that one sum
  function of tile s's loop result, and entry s of the counts' block the one count function of it.
-/
import proofs.«149814_j11527692222870_2_alg».proof.Proof.IdealOutA
import Idealize.ShloMosaic.Lib.ValueIdx
import Idealize.ShloMosaic.Lib.Pipeline.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## A concatenation of eight one-entry columns -/

theorem cat8_0 {α : Type} (x0 x1 x2 x3 x4 x5 x6 x7 : S1x1.Idx → α)
    (h : Shape.Concatenates (([⟨S1x1, x0⟩, ⟨S1x1, x1⟩, ⟨S1x1, x2⟩, ⟨S1x1, x3⟩, ⟨S1x1, x4⟩, ⟨S1x1, x5⟩, ⟨S1x1, x6⟩, ⟨S1x1, x7⟩] : List ((s : Shape) × (s.Idx → α))).map (·.1)) S8x1 0) :
    concatenate S8x1 0 [⟨S1x1, x0⟩, ⟨S1x1, x1⟩, ⟨S1x1, x2⟩, ⟨S1x1, x3⟩, ⟨S1x1, x4⟩, ⟨S1x1, x5⟩, ⟨S1x1, x6⟩, ⟨S1x1, x7⟩] h (ix2 (0 : Fin 8) (0 : Fin 1)) = x0 (ix2 (0 : Fin 1) (0 : Fin 1)) :=
  concatenate_apply_piece 0 _ h _ 0 (by show 0 < 8; omega) S1x1 x0 rfl rfl 0 rfl (ix2 (0 : Fin 1) (0 : Fin 1))
    (fun b hb => by
      match b with
      | ⟨0, _⟩ => exact absurd rfl hb
      | ⟨1, _⟩ => rfl) rfl

theorem cat8_1 {α : Type} (x0 x1 x2 x3 x4 x5 x6 x7 : S1x1.Idx → α)
    (h : Shape.Concatenates (([⟨S1x1, x0⟩, ⟨S1x1, x1⟩, ⟨S1x1, x2⟩, ⟨S1x1, x3⟩, ⟨S1x1, x4⟩, ⟨S1x1, x5⟩, ⟨S1x1, x6⟩, ⟨S1x1, x7⟩] : List ((s : Shape) × (s.Idx → α))).map (·.1)) S8x1 0) :
    concatenate S8x1 0 [⟨S1x1, x0⟩, ⟨S1x1, x1⟩, ⟨S1x1, x2⟩, ⟨S1x1, x3⟩, ⟨S1x1, x4⟩, ⟨S1x1, x5⟩, ⟨S1x1, x6⟩, ⟨S1x1, x7⟩] h (ix2 (1 : Fin 8) (0 : Fin 1)) = x1 (ix2 (0 : Fin 1) (0 : Fin 1)) :=
  concatenate_apply_piece 0 _ h _ 1 (by show 1 < 8; omega) S1x1 x1 rfl rfl 1 rfl (ix2 (0 : Fin 1) (0 : Fin 1))
    (fun b hb => by
      match b with
      | ⟨0, _⟩ => exact absurd rfl hb
      | ⟨1, _⟩ => rfl) rfl

theorem cat8_2 {α : Type} (x0 x1 x2 x3 x4 x5 x6 x7 : S1x1.Idx → α)
    (h : Shape.Concatenates (([⟨S1x1, x0⟩, ⟨S1x1, x1⟩, ⟨S1x1, x2⟩, ⟨S1x1, x3⟩, ⟨S1x1, x4⟩, ⟨S1x1, x5⟩, ⟨S1x1, x6⟩, ⟨S1x1, x7⟩] : List ((s : Shape) × (s.Idx → α))).map (·.1)) S8x1 0) :
    concatenate S8x1 0 [⟨S1x1, x0⟩, ⟨S1x1, x1⟩, ⟨S1x1, x2⟩, ⟨S1x1, x3⟩, ⟨S1x1, x4⟩, ⟨S1x1, x5⟩, ⟨S1x1, x6⟩, ⟨S1x1, x7⟩] h (ix2 (2 : Fin 8) (0 : Fin 1)) = x2 (ix2 (0 : Fin 1) (0 : Fin 1)) :=
  concatenate_apply_piece 0 _ h _ 2 (by show 2 < 8; omega) S1x1 x2 rfl rfl 2 rfl (ix2 (0 : Fin 1) (0 : Fin 1))
    (fun b hb => by
      match b with
      | ⟨0, _⟩ => exact absurd rfl hb
      | ⟨1, _⟩ => rfl) rfl

theorem cat8_3 {α : Type} (x0 x1 x2 x3 x4 x5 x6 x7 : S1x1.Idx → α)
    (h : Shape.Concatenates (([⟨S1x1, x0⟩, ⟨S1x1, x1⟩, ⟨S1x1, x2⟩, ⟨S1x1, x3⟩, ⟨S1x1, x4⟩, ⟨S1x1, x5⟩, ⟨S1x1, x6⟩, ⟨S1x1, x7⟩] : List ((s : Shape) × (s.Idx → α))).map (·.1)) S8x1 0) :
    concatenate S8x1 0 [⟨S1x1, x0⟩, ⟨S1x1, x1⟩, ⟨S1x1, x2⟩, ⟨S1x1, x3⟩, ⟨S1x1, x4⟩, ⟨S1x1, x5⟩, ⟨S1x1, x6⟩, ⟨S1x1, x7⟩] h (ix2 (3 : Fin 8) (0 : Fin 1)) = x3 (ix2 (0 : Fin 1) (0 : Fin 1)) :=
  concatenate_apply_piece 0 _ h _ 3 (by show 3 < 8; omega) S1x1 x3 rfl rfl 3 rfl (ix2 (0 : Fin 1) (0 : Fin 1))
    (fun b hb => by
      match b with
      | ⟨0, _⟩ => exact absurd rfl hb
      | ⟨1, _⟩ => rfl) rfl

theorem cat8_4 {α : Type} (x0 x1 x2 x3 x4 x5 x6 x7 : S1x1.Idx → α)
    (h : Shape.Concatenates (([⟨S1x1, x0⟩, ⟨S1x1, x1⟩, ⟨S1x1, x2⟩, ⟨S1x1, x3⟩, ⟨S1x1, x4⟩, ⟨S1x1, x5⟩, ⟨S1x1, x6⟩, ⟨S1x1, x7⟩] : List ((s : Shape) × (s.Idx → α))).map (·.1)) S8x1 0) :
    concatenate S8x1 0 [⟨S1x1, x0⟩, ⟨S1x1, x1⟩, ⟨S1x1, x2⟩, ⟨S1x1, x3⟩, ⟨S1x1, x4⟩, ⟨S1x1, x5⟩, ⟨S1x1, x6⟩, ⟨S1x1, x7⟩] h (ix2 (4 : Fin 8) (0 : Fin 1)) = x4 (ix2 (0 : Fin 1) (0 : Fin 1)) :=
  concatenate_apply_piece 0 _ h _ 4 (by show 4 < 8; omega) S1x1 x4 rfl rfl 4 rfl (ix2 (0 : Fin 1) (0 : Fin 1))
    (fun b hb => by
      match b with
      | ⟨0, _⟩ => exact absurd rfl hb
      | ⟨1, _⟩ => rfl) rfl

theorem cat8_5 {α : Type} (x0 x1 x2 x3 x4 x5 x6 x7 : S1x1.Idx → α)
    (h : Shape.Concatenates (([⟨S1x1, x0⟩, ⟨S1x1, x1⟩, ⟨S1x1, x2⟩, ⟨S1x1, x3⟩, ⟨S1x1, x4⟩, ⟨S1x1, x5⟩, ⟨S1x1, x6⟩, ⟨S1x1, x7⟩] : List ((s : Shape) × (s.Idx → α))).map (·.1)) S8x1 0) :
    concatenate S8x1 0 [⟨S1x1, x0⟩, ⟨S1x1, x1⟩, ⟨S1x1, x2⟩, ⟨S1x1, x3⟩, ⟨S1x1, x4⟩, ⟨S1x1, x5⟩, ⟨S1x1, x6⟩, ⟨S1x1, x7⟩] h (ix2 (5 : Fin 8) (0 : Fin 1)) = x5 (ix2 (0 : Fin 1) (0 : Fin 1)) :=
  concatenate_apply_piece 0 _ h _ 5 (by show 5 < 8; omega) S1x1 x5 rfl rfl 5 rfl (ix2 (0 : Fin 1) (0 : Fin 1))
    (fun b hb => by
      match b with
      | ⟨0, _⟩ => exact absurd rfl hb
      | ⟨1, _⟩ => rfl) rfl

theorem cat8_6 {α : Type} (x0 x1 x2 x3 x4 x5 x6 x7 : S1x1.Idx → α)
    (h : Shape.Concatenates (([⟨S1x1, x0⟩, ⟨S1x1, x1⟩, ⟨S1x1, x2⟩, ⟨S1x1, x3⟩, ⟨S1x1, x4⟩, ⟨S1x1, x5⟩, ⟨S1x1, x6⟩, ⟨S1x1, x7⟩] : List ((s : Shape) × (s.Idx → α))).map (·.1)) S8x1 0) :
    concatenate S8x1 0 [⟨S1x1, x0⟩, ⟨S1x1, x1⟩, ⟨S1x1, x2⟩, ⟨S1x1, x3⟩, ⟨S1x1, x4⟩, ⟨S1x1, x5⟩, ⟨S1x1, x6⟩, ⟨S1x1, x7⟩] h (ix2 (6 : Fin 8) (0 : Fin 1)) = x6 (ix2 (0 : Fin 1) (0 : Fin 1)) :=
  concatenate_apply_piece 0 _ h _ 6 (by show 6 < 8; omega) S1x1 x6 rfl rfl 6 rfl (ix2 (0 : Fin 1) (0 : Fin 1))
    (fun b hb => by
      match b with
      | ⟨0, _⟩ => exact absurd rfl hb
      | ⟨1, _⟩ => rfl) rfl

theorem cat8_7 {α : Type} (x0 x1 x2 x3 x4 x5 x6 x7 : S1x1.Idx → α)
    (h : Shape.Concatenates (([⟨S1x1, x0⟩, ⟨S1x1, x1⟩, ⟨S1x1, x2⟩, ⟨S1x1, x3⟩, ⟨S1x1, x4⟩, ⟨S1x1, x5⟩, ⟨S1x1, x6⟩, ⟨S1x1, x7⟩] : List ((s : Shape) × (s.Idx → α))).map (·.1)) S8x1 0) :
    concatenate S8x1 0 [⟨S1x1, x0⟩, ⟨S1x1, x1⟩, ⟨S1x1, x2⟩, ⟨S1x1, x3⟩, ⟨S1x1, x4⟩, ⟨S1x1, x5⟩, ⟨S1x1, x6⟩, ⟨S1x1, x7⟩] h (ix2 (7 : Fin 8) (0 : Fin 1)) = x7 (ix2 (0 : Fin 1) (0 : Fin 1)) :=
  concatenate_apply_piece 0 _ h _ 7 (by show 7 < 8; omega) S1x1 x7 rfl rfl 7 rfl (ix2 (0 : Fin 1) (0 : Fin 1))
    (fun b hb => by
      match b with
      | ⟨0, _⟩ => exact absurd rfl hb
      | ⟨1, _⟩ => rfl) rfl

/-! ## The eight copies of the tile arithmetic are one function -/

variable (a b : FVec F S256x1 .f32)
theorem k0_pay19_eq : k0_pay19 a b = k0_pay9 a b := rfl
theorem k0_pay29_eq : k0_pay29 a b = k0_pay9 a b := rfl
theorem k0_pay38_eq : k0_pay38 a b = k0_pay9 a b := rfl
theorem k0_pay47_eq : k0_pay47 a b = k0_pay9 a b := rfl
theorem k0_pay56_eq : k0_pay56 a b = k0_pay9 a b := rfl
theorem k0_pay65_eq : k0_pay65 a b = k0_pay9 a b := rfl
theorem k0_pay21_eq : k0_pay21 (k0_pay20 a b) = k0_pay11 (k0_pay10 a b) := rfl
theorem k0_pay30_eq : k0_pay30 a b = k0_pay11 (k0_pay10 a b) := rfl
theorem k0_pay39_eq : k0_pay39 a b = k0_pay11 (k0_pay10 a b) := rfl
theorem k0_pay48_eq : k0_pay48 a b = k0_pay11 (k0_pay10 a b) := rfl
theorem k0_pay57_eq : k0_pay57 a b = k0_pay11 (k0_pay10 a b) := rfl
theorem k0_pay66_eq : k0_pay66 a b = k0_pay11 (k0_pay10 a b) := rfl
theorem k0_pay74_eq : k0_pay74 a b = k0_pay11 (k0_pay10 a b) := rfl

/-! ## The two concatenations read at an entry -/

variable (v33 v70 v107 v144 v181 v218 v255 : FVec F S1x1 .f32)
theorem k0_pay75_at0 : k0_pay75 v33 v70 v107 v144 v181 v218 v255 a b (ix2 (0 : Fin 8) (0 : Fin 1)) = v33 (ix2 (0 : Fin 1) (0 : Fin 1)) := by
  unfold k0_pay75
  exact cat8_0 _ _ _ _ _ _ _ _ _
theorem k0_pay75_at1 : k0_pay75 v33 v70 v107 v144 v181 v218 v255 a b (ix2 (1 : Fin 8) (0 : Fin 1)) = v70 (ix2 (0 : Fin 1) (0 : Fin 1)) := by
  unfold k0_pay75
  exact cat8_1 _ _ _ _ _ _ _ _ _
theorem k0_pay75_at2 : k0_pay75 v33 v70 v107 v144 v181 v218 v255 a b (ix2 (2 : Fin 8) (0 : Fin 1)) = v107 (ix2 (0 : Fin 1) (0 : Fin 1)) := by
  unfold k0_pay75
  exact cat8_2 _ _ _ _ _ _ _ _ _
theorem k0_pay75_at3 : k0_pay75 v33 v70 v107 v144 v181 v218 v255 a b (ix2 (3 : Fin 8) (0 : Fin 1)) = v144 (ix2 (0 : Fin 1) (0 : Fin 1)) := by
  unfold k0_pay75
  exact cat8_3 _ _ _ _ _ _ _ _ _
theorem k0_pay75_at4 : k0_pay75 v33 v70 v107 v144 v181 v218 v255 a b (ix2 (4 : Fin 8) (0 : Fin 1)) = v181 (ix2 (0 : Fin 1) (0 : Fin 1)) := by
  unfold k0_pay75
  exact cat8_4 _ _ _ _ _ _ _ _ _
theorem k0_pay75_at5 : k0_pay75 v33 v70 v107 v144 v181 v218 v255 a b (ix2 (5 : Fin 8) (0 : Fin 1)) = v218 (ix2 (0 : Fin 1) (0 : Fin 1)) := by
  unfold k0_pay75
  exact cat8_5 _ _ _ _ _ _ _ _ _
theorem k0_pay75_at6 : k0_pay75 v33 v70 v107 v144 v181 v218 v255 a b (ix2 (6 : Fin 8) (0 : Fin 1)) = v255 (ix2 (0 : Fin 1) (0 : Fin 1)) := by
  unfold k0_pay75
  exact cat8_6 _ _ _ _ _ _ _ _ _
theorem k0_pay75_at7 : k0_pay75 v33 v70 v107 v144 v181 v218 v255 a b (ix2 (7 : Fin 8) (0 : Fin 1)) = k0_pay9 a b (ix2 (0 : Fin 1) (0 : Fin 1)) := by
  unfold k0_pay75
  exact (cat8_7 _ _ _ _ _ _ _ _ _).trans rfl

variable (u0 u1 u2 u3 u4 u5 u6 u7 : FVec F S1x1 .f32)
theorem k0_pay1_at0 : k0_pay1 u0 u1 u2 u3 u4 u5 u6 u7 (ix2 (0 : Fin 8) (0 : Fin 1)) = u0 (ix2 (0 : Fin 1) (0 : Fin 1)) := by
  unfold k0_pay1
  exact cat8_0 _ _ _ _ _ _ _ _ _
theorem k0_pay1_at1 : k0_pay1 u0 u1 u2 u3 u4 u5 u6 u7 (ix2 (1 : Fin 8) (0 : Fin 1)) = u1 (ix2 (0 : Fin 1) (0 : Fin 1)) := by
  unfold k0_pay1
  exact cat8_1 _ _ _ _ _ _ _ _ _
theorem k0_pay1_at2 : k0_pay1 u0 u1 u2 u3 u4 u5 u6 u7 (ix2 (2 : Fin 8) (0 : Fin 1)) = u2 (ix2 (0 : Fin 1) (0 : Fin 1)) := by
  unfold k0_pay1
  exact cat8_2 _ _ _ _ _ _ _ _ _
theorem k0_pay1_at3 : k0_pay1 u0 u1 u2 u3 u4 u5 u6 u7 (ix2 (3 : Fin 8) (0 : Fin 1)) = u3 (ix2 (0 : Fin 1) (0 : Fin 1)) := by
  unfold k0_pay1
  exact cat8_3 _ _ _ _ _ _ _ _ _
theorem k0_pay1_at4 : k0_pay1 u0 u1 u2 u3 u4 u5 u6 u7 (ix2 (4 : Fin 8) (0 : Fin 1)) = u4 (ix2 (0 : Fin 1) (0 : Fin 1)) := by
  unfold k0_pay1
  exact cat8_4 _ _ _ _ _ _ _ _ _
theorem k0_pay1_at5 : k0_pay1 u0 u1 u2 u3 u4 u5 u6 u7 (ix2 (5 : Fin 8) (0 : Fin 1)) = u5 (ix2 (0 : Fin 1) (0 : Fin 1)) := by
  unfold k0_pay1
  exact cat8_5 _ _ _ _ _ _ _ _ _
theorem k0_pay1_at6 : k0_pay1 u0 u1 u2 u3 u4 u5 u6 u7 (ix2 (6 : Fin 8) (0 : Fin 1)) = u6 (ix2 (0 : Fin 1) (0 : Fin 1)) := by
  unfold k0_pay1
  exact cat8_6 _ _ _ _ _ _ _ _ _
theorem k0_pay1_at7 : k0_pay1 u0 u1 u2 u3 u4 u5 u6 u7 (ix2 (7 : Fin 8) (0 : Fin 1)) = u7 (ix2 (0 : Fin 1) (0 : Fin 1)) := by
  unfold k0_pay1
  exact cat8_7 _ _ _ _ _ _ _ _ _

/-! ## The two output blocks of a point, entry by entry -/

variable (c : Dev nD) (t : Fin cfg0.N)
/-- Entry 0 of the sums' block is tile 0's sum. -/
theorem out0_6_at0 : out0_6 m c t (ix2 (0 : Fin 8) (0 : Fin 1))
    = k0_pay9 (stAt1 m c t).1 (stAt1 m c t).2 (ix2 (0 : Fin 1) (0 : Fin 1)) := by
  rw [out0_6_eq, k0_pay75_at0]
/-- Entry 1 of the sums' block is tile 1's sum. -/
theorem out0_6_at1 : out0_6 m c t (ix2 (1 : Fin 8) (0 : Fin 1))
    = k0_pay9 (stAt2 m c t).1 (stAt2 m c t).2 (ix2 (0 : Fin 1) (0 : Fin 1)) := by
  rw [out0_6_eq, k0_pay75_at1]
  rfl
/-- Entry 2 of the sums' block is tile 2's sum. -/
theorem out0_6_at2 : out0_6 m c t (ix2 (2 : Fin 8) (0 : Fin 1))
    = k0_pay9 (stAt3 m c t).1 (stAt3 m c t).2 (ix2 (0 : Fin 1) (0 : Fin 1)) := by
  rw [out0_6_eq, k0_pay75_at2]
  rfl
/-- Entry 3 of the sums' block is tile 3's sum. -/
theorem out0_6_at3 : out0_6 m c t (ix2 (3 : Fin 8) (0 : Fin 1))
    = k0_pay9 (stAt4 m c t).1 (stAt4 m c t).2 (ix2 (0 : Fin 1) (0 : Fin 1)) := by
  rw [out0_6_eq, k0_pay75_at3]
  rfl
/-- Entry 4 of the sums' block is tile 4's sum. -/
theorem out0_6_at4 : out0_6 m c t (ix2 (4 : Fin 8) (0 : Fin 1))
    = k0_pay9 (stAt5 m c t).1 (stAt5 m c t).2 (ix2 (0 : Fin 1) (0 : Fin 1)) := by
  rw [out0_6_eq, k0_pay75_at4]
  rfl
/-- Entry 5 of the sums' block is tile 5's sum. -/
theorem out0_6_at5 : out0_6 m c t (ix2 (5 : Fin 8) (0 : Fin 1))
    = k0_pay9 (stAt6 m c t).1 (stAt6 m c t).2 (ix2 (0 : Fin 1) (0 : Fin 1)) := by
  rw [out0_6_eq, k0_pay75_at5]
  rfl
/-- Entry 6 of the sums' block is tile 6's sum. -/
theorem out0_6_at6 : out0_6 m c t (ix2 (6 : Fin 8) (0 : Fin 1))
    = k0_pay9 (stAt7 m c t).1 (stAt7 m c t).2 (ix2 (0 : Fin 1) (0 : Fin 1)) := by
  rw [out0_6_eq, k0_pay75_at6]
  rfl
/-- Entry 7 of the sums' block is tile 7's sum. -/
theorem out0_6_at7 : out0_6 m c t (ix2 (7 : Fin 8) (0 : Fin 1))
    = k0_pay9 (stAt8 m c t).1 (stAt8 m c t).2 (ix2 (0 : Fin 1) (0 : Fin 1)) := by
  rw [out0_6_eq, k0_pay75_at7]
/-- Entry 0 of the counts' block is tile 0's count. -/
theorem out0_7_at0 : out0_7 m c t (ix2 (0 : Fin 8) (0 : Fin 1))
    = k0_pay11 (k0_pay10 (stAt1 m c t).1 (stAt1 m c t).2) (ix2 (0 : Fin 1) (0 : Fin 1)) := by
  rw [out0_7_eq, k0_pay1_at0]
/-- Entry 1 of the counts' block is tile 1's count. -/
theorem out0_7_at1 : out0_7 m c t (ix2 (1 : Fin 8) (0 : Fin 1))
    = k0_pay11 (k0_pay10 (stAt2 m c t).1 (stAt2 m c t).2) (ix2 (0 : Fin 1) (0 : Fin 1)) := by
  rw [out0_7_eq, k0_pay1_at1]
  rfl
/-- Entry 2 of the counts' block is tile 2's count. -/
theorem out0_7_at2 : out0_7 m c t (ix2 (2 : Fin 8) (0 : Fin 1))
    = k0_pay11 (k0_pay10 (stAt3 m c t).1 (stAt3 m c t).2) (ix2 (0 : Fin 1) (0 : Fin 1)) := by
  rw [out0_7_eq, k0_pay1_at2]
  rfl
/-- Entry 3 of the counts' block is tile 3's count. -/
theorem out0_7_at3 : out0_7 m c t (ix2 (3 : Fin 8) (0 : Fin 1))
    = k0_pay11 (k0_pay10 (stAt4 m c t).1 (stAt4 m c t).2) (ix2 (0 : Fin 1) (0 : Fin 1)) := by
  rw [out0_7_eq, k0_pay1_at3]
  rfl
/-- Entry 4 of the counts' block is tile 4's count. -/
theorem out0_7_at4 : out0_7 m c t (ix2 (4 : Fin 8) (0 : Fin 1))
    = k0_pay11 (k0_pay10 (stAt5 m c t).1 (stAt5 m c t).2) (ix2 (0 : Fin 1) (0 : Fin 1)) := by
  rw [out0_7_eq, k0_pay1_at4]
  rfl
/-- Entry 5 of the counts' block is tile 5's count. -/
theorem out0_7_at5 : out0_7 m c t (ix2 (5 : Fin 8) (0 : Fin 1))
    = k0_pay11 (k0_pay10 (stAt6 m c t).1 (stAt6 m c t).2) (ix2 (0 : Fin 1) (0 : Fin 1)) := by
  rw [out0_7_eq, k0_pay1_at5]
  rfl
/-- Entry 6 of the counts' block is tile 6's count. -/
theorem out0_7_at6 : out0_7 m c t (ix2 (6 : Fin 8) (0 : Fin 1))
    = k0_pay11 (k0_pay10 (stAt7 m c t).1 (stAt7 m c t).2) (ix2 (0 : Fin 1) (0 : Fin 1)) := by
  rw [out0_7_eq, k0_pay1_at6]
  rfl
/-- Entry 7 of the counts' block is tile 7's count. -/
theorem out0_7_at7 : out0_7 m c t (ix2 (7 : Fin 8) (0 : Fin 1))
    = k0_pay11 (k0_pay10 (stAt8 m c t).1 (stAt8 m c t).2) (ix2 (0 : Fin 1) (0 : Fin 1)) := by
  rw [out0_7_eq, k0_pay1_at7]
  rfl

end Cert.KernelIdeal.Gen

end
-- ==== Proof.IdealTiles32.lean ====
/-
  The thirty-two tiles make the whole loss. Tile i sits at grid point i / 8, sub-tile i % 8, so its first row is
  2048 · (i / 8) + 256 · (i % 8) = 256 · i: anchor p of tile i is the row the specification calls row i p. Hence the
  tiles' hinge sums and counts, added over the tiles, are the two sums the kernel's arrangement of the loss divides.
-/
import proofs.«149814_j11527692222870_2_alg».proof.Proof.Spec

noncomputable section

namespace Cert.KernelIdeal.Tile

open Idealize.ShloMosaic

/-- Anchor p of tile i, by grid point and sub-tile, is the specification's row i p. -/
theorem tile_row (i : Fin 32) (p : Fin 256) (h : 2048 * (i.val / 8) + 256 * (i.val % 8) + p.val < 8192) :
    (⟨2048 * (i.val / 8) + 256 * (i.val % 8) + p.val, h⟩ : Fin 8192) = Cert.Spec.row i p := by
  apply Fin.ext
  show 2048 * (i.val / 8) + 256 * (i.val % 8) + p.val = 256 * i.val + p.val
  omega

theorem outK_of_tiles (e : Fin 8192 → Fin 128 → EReal) (lab : Fin 8192 → BitVec 32) (A B : Fin 32 → EReal)
    (hA : ∀ i : Fin 32, A i = ∑ p : Fin 256, Cert.Spec.tripK e lab
      ⟨2048 * (i.val / 8) + 256 * (i.val % 8) + p.val, by have := i.isLt; have := p.isLt; omega⟩)
    (hB : ∀ i : Fin 32, B i = ∑ p : Fin 256, Cert.Spec.cntK e lab
      ⟨2048 * (i.val / 8) + 256 * (i.val % 8) + p.val, by have := i.isLt; have := p.isLt; omega⟩) :
    Ideal.div (0 + ∑ i : Fin 32, A i) (max (0 + ∑ i : Fin 32, B i) 1) = Cert.Spec.outK e lab := by
  unfold Cert.Spec.outK
  have hA' : ∀ i : Fin 32, A i = ∑ p : Fin 256, Cert.Spec.tripK e lab (Cert.Spec.row i p) := by
    intro i
    rw [hA i]
    exact Fintype.sum_congr _ _ fun p => by rw [tile_row]
  have hB' : ∀ i : Fin 32, B i = ∑ p : Fin 256, Cert.Spec.cntK e lab (Cert.Spec.row i p) := by
    intro i
    rw [hB i]
    exact Fintype.sum_congr _ _ fun p => by rw [tile_row]
  rw [Fintype.sum_congr _ _ hA', Fintype.sum_congr _ _ hB']

end Cert.KernelIdeal.Tile

end
-- ==== Proof.KernelValue.lean ====
/-
  The kernel's result is the loss in the kernel's arrangement.
  Entry s of what grid point t stores into the sums' block is the sum of the hinge terms of the anchors of tile
  8t + s, and entry s of the counts' block is that tile's number of valid anchors; the host lines after the region
  add the 32 entries of each array from zero and divide the first total by the larger of the second and one.
-/
import proofs.«149814_j11527692222870_2_alg».proof.Proof.IdealLoopsMain
import proofs.«149814_j11527692222870_2_alg».proof.Proof.IdealOutB
import proofs.«149814_j11527692222870_2_alg».proof.Proof.IdealHost
import proofs.«149814_j11527692222870_2_alg».proof.Proof.IdealTiles32

set_option maxRecDepth 16384
set_option maxHeartbeats 1000000

noncomputable section

namespace Cert.KernelIdeal.Gen

open Idealize.ShloMosaic Idealize.ShloMosaic.TcCoe Idealize.ShloMosaic.ValueIdx
open Idealize.SL.Sem
open Cert.KernelIdeal.Tile

variable (m : (ℓ : Loc nD τ sig) → Buf (Elt Ideal) ℓ) (c : Dev nD)

/-- Entry s of point t's sums: the hinge terms of tile 8t + s, added up. -/
theorem out6_entry (t : Fin cfg0.N) (s : Fin 8) :
    (out0_6 (F := Ideal) m c t : FVec Ideal S8x1 .f32) (ix2 s (0 : Fin 1))
      = ∑ p : Fin 256, Cert.Spec.tripK (argE m c) (argLab m c)
          ⟨2048 * t.val + 256 * s.val + p.val, by have := pt_lt t; have := s.isLt; have := p.isLt; omega⟩ := by
  fin_cases s
  · exact (out0_6_at0 m c t).trans (sum1 m c t)
  · exact (out0_6_at1 m c t).trans (sum2 m c t)
  · exact (out0_6_at2 m c t).trans (sum3 m c t)
  · exact (out0_6_at3 m c t).trans (sum4 m c t)
  · exact (out0_6_at4 m c t).trans (sum5 m c t)
  · exact (out0_6_at5 m c t).trans (sum6 m c t)
  · exact (out0_6_at6 m c t).trans (sum7 m c t)
  · exact (out0_6_at7 m c t).trans (sum8 m c t)

/-- Entry s of point t's counts: the number of valid anchors of tile 8t + s. -/
theorem out7_entry (t : Fin cfg0.N) (s : Fin 8) :
    (out0_7 (F := Ideal) m c t : FVec Ideal S8x1 .f32) (ix2 s (0 : Fin 1))
      = ∑ p : Fin 256, Cert.Spec.cntK (argE m c) (argLab m c)
          ⟨2048 * t.val + 256 * s.val + p.val, by have := pt_lt t; have := s.isLt; have := p.isLt; omega⟩ := by
  fin_cases s
  · exact (out0_7_at0 m c t).trans (cnt1 m c t)
  · exact (out0_7_at1 m c t).trans (cnt2 m c t)
  · exact (out0_7_at2 m c t).trans (cnt3 m c t)
  · exact (out0_7_at3 m c t).trans (cnt4 m c t)
  · exact (out0_7_at4 m c t).trans (cnt5 m c t)
  · exact (out0_7_at5 m c t).trans (cnt6 m c t)
  · exact (out0_7_at6 m c t).trans (cnt7 m c t)
  · exact (out0_7_at7 m c t).trans (cnt8 m c t)

/-- The kernel's result. -/
theorem ker_eq : (Vfin (F := Ideal) m c main_v10 : FVec Ideal S_ .f32) ix0 = Cert.Spec.outK (argE m c) (argLab m c) := by
  rw [result_of_points]
  exact outK_of_tiles (argE m c) (argLab m c) _ _
    (fun i => out6_entry m c (ptOf i.val i.isLt) ⟨i.val % 8, Nat.mod_lt _ (by decide)⟩)
    (fun i => out7_entry m c (ptOf i.val i.isLt) ⟨i.val % 8, Nat.mod_lt _ (by decide)⟩)

end Cert.KernelIdeal.Gen

end
-- ==== Proof.RefValueA.lean ====
/-
  The reference program read entry by entry, first part: the stages that depend on one pair of rows.
  For rows r and j the program forms the squared distance (‖x_r‖² + ‖x_j‖²) − 2⟨x_r, x_j⟩ from the row norms
  (a sum of squares from 0) and the Gram entry (a contraction over the 128 columns), clamps it at zero, and takes a
  square root that is guarded twice by the comparison "clamped value > 0": inside, the argument is replaced by 1 where
  the comparison fails; outside, the result is replaced by 0 there. The two masks compare the labels of the two rows,
  and the diagonal is recognised by comparing the row counter with the column counter as 32-bit words; both counters
  stay below 8192, so equal words mean equal rows.
-/
import proofs.«149814_j11527692222870_2_alg».proof.Proof.Gen.ReferenceIdeal.Read
import proofs.«149814_j11527692222870_2_alg».proof.Proof.Spec

noncomputable section

namespace Cert.RefValue

open Cert.ReferenceIdeal Cert.ReferenceIdeal.Gen Cert.ReferenceIdeal.Read Idealize.ShloMosaic Idealize.ShloMosaic.ValueIdx

/-- The embeddings as a table of extended reals, row by row. -/
def emb (x0 : (⟨S8192x128, .f32⟩ : BufTy).Contents (Elt Ideal)) : Fin 8192 → Fin 128 → EReal := fun r k => x0 (ix2 r k)
/-- The labels, row by row. -/
def lab (x1 : (⟨S8192, .i32⟩ : BufTy).Contents (Elt Ideal)) : Fin 8192 → BitVec 32 := fun r => x1 (ix1 r)

/-! ## Literals, comparisons and selections -/

/-- Biased exponent 127, empty fraction: 1. -/
theorem lit_one : Ideal.ofBits .f32 0x3F800000#32 = 1 := by
  simp [Ideal.ofBits, Ideal.ieee, -EReal.coe_mul]; norm_num
/-- Biased exponent 128, empty fraction: 2. -/
theorem lit_two : Ideal.ofBits .f32 0x40000000#32 = 2 := by
  simp [Ideal.ofBits, Ideal.ieee, -EReal.coe_mul]; norm_num
  norm_cast
/-- Sign set, exponent all ones, empty fraction: −∞. -/
theorem lit_negInf : Ideal.ofBits .f32 0xFF800000#32 = ⊥ := by simp [Ideal.ofBits, Ideal.ieee]
/-- Sign clear, exponent all ones, empty fraction: +∞. -/
theorem lit_posInf : Ideal.ofBits .f32 0x7F800000#32 = ⊤ := by simp [Ideal.ofBits, Ideal.ieee]

/-- "Greater than" on extended reals as a one-bit word. -/
theorem cmpf_ogt (x y : EReal) :
    FloatOps.cmpf (F := Ideal) (φ := .f32) .ogt x y = if y < x then 1#1 else 0#1 := by
  show Ideal.cmp .ogt x y = _
  unfold Ideal.cmp
  by_cases h : y < x <;> simp [h]

/-- A selection on a decided bit is the conditional. -/
theorem select_ite {α : Type} (p : Prop) [Decidable p] (a b : α) :
    Scalar.select (if p then 1#1 else 0#1) a b = if p then a else b := by
  by_cases h : p <;> simp [h, Scalar.select]

/-! ## The squared distance -/

theorem nrm_at (x0 : (⟨S8192x128, .f32⟩ : BufTy).Contents (Elt Ideal)) (r : Fin 8192) :
    val_main_v1 (F := Ideal) x0 (ix1 r) = Cert.Spec.nrm (emb x0) r := by
  rw [val_main_v1_apply, val_main_cst_apply]
  simp only [val_main_v0_apply, Ideal.ofBits_def, Ideal.ofBits_zero_f32, Ideal.mulf_def]
  unfold Cert.Spec.nrm emb
  refine congrArg (_ + ·) (Finset.sum_congr rfl fun k _ => ?_)
  have e : idx_main_v1 (ix1 r) k = ix2 r k := funext fun a => Fin.ext (by match a with | ⟨0, _⟩ => rfl | ⟨1, _⟩ => rfl)
  rw [e]

theorem gram_at (x0 : (⟨S8192x128, .f32⟩ : BufTy).Contents (Elt Ideal)) (r j : Fin 8192) :
    val_main_v3 (F := Ideal) x0 (ix2 r j) = Cert.Spec.gram (emb x0) r j := by
  rw [val_main_v3_apply]
  unfold Cert.Spec.gram emb
  refine Finset.sum_congr rfl fun k _ => ?_
  rw [val_main_v2_apply]
  have el : lidx_main_v3 (ix2 r j) k = ix2 r k := funext fun a => Fin.ext (by match a with | ⟨0, _⟩ => rfl | ⟨1, _⟩ => rfl)
  have er : idx_main_v2 (ridx_main_v3 (ix2 r j) k) = ix2 j k := funext fun a => Fin.ext (by match a with | ⟨0, _⟩ => rfl | ⟨1, _⟩ => rfl)
  rw [el, er]

theorem sq_at (x0 : (⟨S8192x128, .f32⟩ : BufTy).Contents (Elt Ideal)) (r j : Fin 8192) :
    val_main_v11 (F := Ideal) x0 (ix2 r j) = Cert.Spec.sq (emb x0) r j := by
  have e6 : idx_main_v4 (idx_main_v6 (ix2 r j)) = ix1 r := funext fun a => Fin.ext (by match a with | ⟨0, _⟩ => rfl)
  have e7 : idx_main_v5 (idx_main_v7 (ix2 r j)) = ix1 j := funext fun a => Fin.ext (by match a with | ⟨0, _⟩ => rfl)
  rw [val_main_v11_apply, val_main_v8_apply, val_main_v6_apply, val_main_v4_apply, val_main_v7_apply, val_main_v5_apply,
    val_main_v10_apply, val_main_v9_apply, val_main_cst_0_apply, e6, e7, nrm_at, nrm_at, gram_at]
  simp only [Ideal.ofBits_def, Ideal.addf_def, Ideal.subf_def, Ideal.mulf_def, lit_two]
  rfl

/-- The clamped squared distance. -/
theorem clamp_at (x0 : (⟨S8192x128, .f32⟩ : BufTy).Contents (Elt Ideal)) (r j : Fin 8192) :
    val_main_v13 (F := Ideal) x0 (ix2 r j) = max (Cert.Spec.sq (emb x0) r j) 0 := by
  rw [val_main_v13_apply, val_main_v12_apply, val_main_cst_1_apply, sq_at]
  simp only [Ideal.ofBits_def, Ideal.ofBits_zero_f32, Ideal.maximumf_def]

/-! ## The distance -/

theorem dist_at (x0 : (⟨S8192x128, .f32⟩ : BufTy).Contents (Elt Ideal)) (r j : Fin 8192) :
    val_main_v20 (F := Ideal) x0 (ix2 r j) = Cert.Spec.dist (emb x0) r j := by
  rw [val_main_v20_apply, val_main_v15_apply, val_main_v19_apply, val_main_v18_apply, val_main_v17_apply,
    val_main_v14_apply, val_main_cst_2_apply, val_main_v16_apply, val_main_cst_3_apply,
    val_main_call0_v1_apply, val_main_call0_v0_apply, val_main_cst_4_apply,
    val_main_call1_v1_apply, val_main_call1_v0_apply, val_main_cst_5_apply, clamp_at]
  simp only [Ideal.ofBits_def, Ideal.ofBits_zero_f32, lit_one, cmpf_ogt, select_ite, Ideal.hostUnary_sqrt_def]
  rfl

/-! ## The masks -/

/-- The row counter (plus the zero word) equals the column counter exactly on the diagonal. -/
theorem eye_bit (r j : Fin 8192) :
    IntOp.cmpi .eq (IntOp.addi (BitVec.ofNat 32 r.val) 0#32) (BitVec.ofNat 32 j.val) = if r = j then 1#1 else 0#1 := by
  unfold IntOp.cmpi IntOp.addi
  rw [BitVec.add_zero]
  by_cases h : r = j
  · subst h; simp
  · have hne : BitVec.ofNat 32 r.val ≠ BitVec.ofNat 32 j.val := by
      intro e
      have e' := congrArg BitVec.toNat e
      simp only [BitVec.toNat_ofNat] at e'
      have := r.isLt; have := j.isLt
      exact h (Fin.ext (by omega))
    have hb : (BitVec.ofNat 32 r.val == BitVec.ofNat 32 j.val) = false := beq_eq_false_iff_ne.mpr hne
    simp [h, hb]

/-- Equal labels as a one-bit word. -/
theorem same_bit (a b : BitVec 32) : IntOp.cmpi .eq a b = if a = b then 1#1 else 0#1 := by
  unfold IntOp.cmpi
  by_cases h : a = b
  · simp [h]
  · have hb : (a == b) = false := beq_eq_false_iff_ne.mpr h
    simp [h, hb]

theorem same_at (x1 : (⟨S8192, .i32⟩ : BufTy).Contents (Elt Ideal)) (r j : Fin 8192) :
    val_main_v25 (F := Ideal) x1 (ix2 r j) = if lab x1 r = lab x1 j then 1#1 else 0#1 := by
  have e3 : idx_main_v21 (idx_main_v23 (ix2 r j)) = ix1 r := funext fun a => Fin.ext (by match a with | ⟨0, _⟩ => rfl)
  have e4 : idx_main_v22 (idx_main_v24 (ix2 r j)) = ix1 j := funext fun a => Fin.ext (by match a with | ⟨0, _⟩ => rfl)
  rw [val_main_v25_apply, val_main_v23_apply, val_main_v21_apply, val_main_v24_apply, val_main_v22_apply, e3, e4, same_bit]
  rfl

theorem pos_at (x1 : (⟨S8192, .i32⟩ : BufTy).Contents (Elt Ideal)) (r j : Fin 8192) :
    val_main_v32 (F := Ideal) x1 (ix2 r j) = if Cert.Spec.pos (lab x1) r j then 1#1 else 0#1 := by
  rw [val_main_v32_apply, same_at, val_main_v31_apply, val_main_v30_apply, val_main_v29_apply, val_main_v26_apply,
    val_main_v28_apply, val_main_c_apply, val_main_v27_apply]
  show IntOp.andi _ (~~~ IntOp.cmpi .eq (IntOp.addi (BitVec.ofNat 32 r.val) 0#32) (BitVec.ofNat 32 j.val)) = _
  rw [eye_bit]
  unfold Cert.Spec.pos IntOp.andi
  by_cases h1 : lab x1 r = lab x1 j <;> by_cases h2 : r = j <;> simp [h1, h2]

theorem neg_at (x1 : (⟨S8192, .i32⟩ : BufTy).Contents (Elt Ideal)) (r j : Fin 8192) :
    val_main_v33 (F := Ideal) x1 (ix2 r j) = if Cert.Spec.neg (lab x1) r j then 1#1 else 0#1 := by
  rw [val_main_v33_apply, same_at]
  unfold Cert.Spec.neg
  by_cases h1 : lab x1 r = lab x1 j <;> simp [h1]

/-! ## The masked distances -/

theorem maskedPos_at (x0 : (⟨S8192x128, .f32⟩ : BufTy).Contents (Elt Ideal)) (x1 : (⟨S8192, .i32⟩ : BufTy).Contents (Elt Ideal))
    (r j : Fin 8192) :
    val_main_v34 (F := Ideal) x0 x1 (ix2 r j) = if Cert.Spec.pos (lab x1) r j then Cert.Spec.dist (emb x0) r j else ⊥ := by
  rw [val_main_v34_apply, pos_at, dist_at, val_main_call2_v1_apply, val_main_call2_v0_apply, val_main_cst_6_apply, select_ite]
  simp only [Ideal.ofBits_def, lit_negInf]

theorem maskedNeg_at (x0 : (⟨S8192x128, .f32⟩ : BufTy).Contents (Elt Ideal)) (x1 : (⟨S8192, .i32⟩ : BufTy).Contents (Elt Ideal))
    (r j : Fin 8192) :
    val_main_v36 (F := Ideal) x0 x1 (ix2 r j) = if Cert.Spec.neg (lab x1) r j then Cert.Spec.dist (emb x0) r j else ⊤ := by
  rw [val_main_v36_apply, neg_at, dist_at, val_main_call3_v1_apply, val_main_call3_v0_apply, val_main_cst_8_apply, select_ite]
  simp only [Ideal.ofBits_def, lit_posInf]

end Cert.RefValue

end
-- ==== Proof.RefValueFolds.lean ====
/-
  Folds over a finite set, in the four forms the reference's reductions take: a maximum from −∞ is the supremum, a
  minimum from +∞ the infimum, an "or" of decided bits from the zero bit says whether some bit is set, and a sum of
  32-bit words that are each 0 or 1 counts the ones (as a 32-bit word). Then the end of the count's road: a count of
  at most 8192 read as a signed word is itself, and its signed maximum with the word 1 is the larger of it and 1.
-/
import Idealize.ShloMosaic.PureOps.Ideal
import Idealize.ShloMosaic.PureOps.Ideal.Laws
import Idealize.ShloMosaic.PureOps.Reduce

noncomputable section

namespace Cert.RefValue

open Idealize.ShloMosaic

/-- A maximum folded from −∞ is the supremum. -/
theorem fold_max_bot {ι : Type} (s : Finset ι) (f : ι → EReal) :
    s.fold (FloatOps.maximumf (F := Ideal) (φ := .f32)) ⊥ f = s.sup f := rfl

/-- A minimum folded from +∞ is the infimum. -/
theorem fold_min_top {ι : Type} (s : Finset ι) (f : ι → EReal) :
    s.fold (FloatOps.minimumf (F := Ideal) (φ := .f32)) ⊤ f = s.inf f := rfl

/-- An "or" of decided bits folded from the zero bit is set exactly when some bit is. -/
theorem fold_or_bits {ι : Type} (s : Finset ι) (p : ι → Prop) [DecidablePred p] :
    s.fold (IntOp.ori (w := 1)) 0#1 (fun j => if p j then 1#1 else 0#1) = if ∃ j ∈ s, p j then 1#1 else 0#1 := by
  classical
  induction s using Finset.induction_on with
  | empty => simp
  | insert a s ha ih =>
    rw [Finset.fold_insert ha, ih]
    by_cases h1 : p a <;> by_cases h2 : ∃ j ∈ s, p j <;> simp [h1, h2, IntOp.ori]

/-- A sum of words that are each 0 or 1 is the number of ones, as a word. -/
theorem fold_add_bits {ι : Type} (s : Finset ι) (q : ι → Prop) [DecidablePred q] :
    s.fold (IntOp.addi (w := 32)) 0#32 (fun j => if q j then 1#32 else 0#32) = BitVec.ofNat 32 (s.filter q).card := by
  classical
  induction s using Finset.induction_on with
  | empty => simp
  | insert a s ha ih =>
    rw [Finset.fold_insert ha, ih, Finset.filter_insert]
    by_cases h : q a
    · rw [if_pos h, if_pos h, Finset.card_insert_of_notMem (by simp [ha]), Nat.add_comm, BitVec.ofNat_add]
      rfl
    · rw [if_neg h, if_neg h]
      unfold IntOp.addi
      rw [BitVec.zero_add]

/-- A small count read as a signed word is itself. -/
theorem toInt_small (n : ℕ) (hn : n ≤ 8192) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The signed maximum of a small count with 1 is the larger of the two. -/
theorem maxsi_small (n : ℕ) (hn : n ≤ 8192) : IntOp.maxsi (BitVec.ofNat 32 n) 1#32 = BitVec.ofNat 32 (max n 1) := by
  unfold IntOp.maxsi
  have h1 : (1#32 : BitVec 32).toInt = 1 := by decide
  by_cases h : 1 < n
  · rw [if_pos (by rw [BitVec.slt_iff_toInt_lt, h1, toInt_small n hn]; exact_mod_cast h), max_eq_left (by omega)]
  · rw [if_neg (by rw [BitVec.slt_iff_toInt_lt, h1, toInt_small n hn]; exact_mod_cast h), max_eq_right (by omega)]

end Cert.RefValue

end
-- ==== Proof.RefValueB.lean ====
/-
  The reference program read entry by entry, second part: the stages that depend on one anchor row.
  Each of the four row reductions runs over the 8192 columns of the pair arrays: the largest masked distance (from −∞),
  the smallest (from +∞), and the two "is there any" reductions of the masks. Read at anchor r, the column that the
  reduction inserts is the second coordinate of the pair (r, j). The anchor counts when both masks have an entry; its
  term is the hinge of the two extremes, or 0 when it does not count.
-/
import proofs.«149814_j11527692222870_2_alg».proof.Proof.RefValueA
import proofs.«149814_j11527692222870_2_alg».proof.Proof.RefValueFolds

noncomputable section

namespace Cert.RefValue

open Cert.ReferenceIdeal Cert.ReferenceIdeal.Gen Cert.ReferenceIdeal.Read Idealize.ShloMosaic Idealize.ShloMosaic.ValueIdx

/-- Dropping the column axis of the pair arrays leaves the anchors. -/
theorem red_rows : S8192x8192.Reduces [1] S8192 := by decide

/-- Anchor r with column k put back is the pair (r, k). -/
theorem lift_row (r : Fin 8192) (k : Fin 8192) : red_rows.lift (ix1 r) k = ix2 r k := by
  funext c; apply Fin.ext
  match c with
  | ⟨0, _⟩ => rfl
  | ⟨1, _⟩ => rfl

/-- A row reduction of a pair array at anchor r, for any commutative and associative body, is the fold over the
    columns of the entries (r, j). -/
theorem reduce_row {α : Type} (f : α → α → α) [Std.Commutative f] [Std.Associative f] (y : S8192x8192.Idx → α)
    (init : S_.Idx → α) (r : Fin 8192) :
    Host.reduce f y init reducesTo_S8192x8192_S8192_d1 h_S_ (ix1 r)
      = (Finset.univ : Finset (Fin 8192)).fold f (init (Shape.Idx.first h_S_)) (fun j => y (ix2 r j)) := by
  rw [Host.reduce_eq_fold_single f y init reducesTo_S8192x8192_S8192_d1 red_rows h_S_]
  have hf : (y ∘ red_rows.lift (ix1 r)) = fun j : Fin 8192 => y (ix2 r j) := funext fun j => congrArg y (lift_row r j)
  exact congrArg (fun g => Finset.fold f (init (Shape.Idx.first h_S_)) g (Finset.univ : Finset (Fin 8192))) hf

variable (x0 : (⟨S8192x128, .f32⟩ : BufTy).Contents (Elt Ideal)) (x1 : (⟨S8192, .i32⟩ : BufTy).Contents (Elt Ideal))

/-- The largest distance to a positive, −∞ when there is none. -/
theorem hpos_at (r : Fin 8192) :
    val_main_v35 (F := Ideal) x0 x1 (ix1 r) = Cert.Spec.hpos (emb x0) (lab x1) r := by
  unfold val_main_v35
  rw [reduce_row, val_main_cst_7_apply]
  simp only [maskedPos_at, Ideal.ofBits_def, lit_negInf]
  exact fold_max_bot _ _

/-- The smallest distance to a negative, +∞ when there is none. -/
theorem hneg_at (r : Fin 8192) :
    val_main_v37 (F := Ideal) x0 x1 (ix1 r) = Cert.Spec.hneg (emb x0) (lab x1) r := by
  unfold val_main_v37
  rw [reduce_row, val_main_cst_9_apply]
  simp only [maskedNeg_at, Ideal.ofBits_def, lit_posInf]
  exact fold_min_top _ _

/-- Is there a positive for anchor r. -/
theorem anyPos_at (r : Fin 8192) :
    val_main_v38 (F := Ideal) x1 (ix1 r) = if ∃ j, Cert.Spec.pos (lab x1) r j then 1#1 else 0#1 := by
  unfold val_main_v38
  rw [reduce_row, val_main_c_10_apply]
  simp only [pos_at]
  rw [fold_or_bits]
  simp only [Finset.mem_univ, true_and]

/-- Is there a negative for anchor r. -/
theorem anyNeg_at (r : Fin 8192) :
    val_main_v39 (F := Ideal) x1 (ix1 r) = if ∃ j, Cert.Spec.neg (lab x1) r j then 1#1 else 0#1 := by
  unfold val_main_v39
  rw [reduce_row, val_main_c_11_apply]
  simp only [neg_at]
  rw [fold_or_bits]
  simp only [Finset.mem_univ, true_and]

/-- The anchor counts when it has a positive and a negative. -/
theorem valid_at (r : Fin 8192) :
    val_main_v40 (F := Ideal) x1 (ix1 r) = if Cert.Spec.validR (lab x1) r then 1#1 else 0#1 := by
  rw [val_main_v40_apply, anyPos_at, anyNeg_at]
  unfold IntOp.andi
  by_cases hA : ∃ j, Cert.Spec.pos (lab x1) r j
  · by_cases hB : ∃ j, Cert.Spec.neg (lab x1) r j
    · rw [if_pos hA, if_pos hB, if_pos (show Cert.Spec.validR (lab x1) r from ⟨hA, hB⟩)]; rfl
    · rw [if_pos hA, if_neg hB, if_neg (show ¬ Cert.Spec.validR (lab x1) r from fun h => hB h.2)]; rfl
  · rw [if_neg hA, if_neg (show ¬ Cert.Spec.validR (lab x1) r from fun h => hA h.1)]
    exact BitVec.zero_and

/-- The anchor's term of the loss. -/
theorem trip_at (r : Fin 8192) :
    val_main_v45 (F := Ideal) x0 x1 (ix1 r) = Cert.Spec.tripR (emb x0) (lab x1) r := by
  rw [val_main_v45_apply, valid_at, val_main_v44_apply, val_main_v43_apply, val_main_v41_apply, hpos_at, hneg_at,
    val_main_v42_apply, val_main_cst_12_apply, val_main_call4_v0_apply, val_main_call4_cst_apply,
    val_main_call5_v1_apply, val_main_call5_v0_apply, val_main_cst_13_apply, select_ite]
  simp only [Ideal.ofBits_def, Ideal.ofBits_zero_f32, lit_one, Ideal.addf_def, Ideal.subf_def, Ideal.maximumf_def]
  rfl

/-- The anchor's word of the count: 1 when it counts, 0 otherwise. -/
theorem word_at (r : Fin 8192) :
    val_main_v46 (F := Ideal) x1 (ix1 r) = if Cert.Spec.validR (lab x1) r then 1#32 else 0#32 := by
  rw [val_main_v46_apply, valid_at]
  by_cases h : Cert.Spec.validR (lab x1) r
  · rw [if_pos h, if_pos h]; rfl
  · rw [if_neg h, if_neg h]; rfl

end Cert.RefValue

end
-- ==== Proof.RefValue.lean ====
/-
  The reference program's result is the reference's arrangement of the loss.
  The last stages: the count is an integer sum over all 8192 anchors (every anchor reduces into the one scalar) of words that are 1 for an anchor that counts and
  0 otherwise, so it is the number of such anchors as a 32-bit word; that number is at most 8192, so read as a signed
  word it is itself, its signed maximum with 1 is the larger of it and 1, and the conversion to a float gives that
  natural number. The total is 0 plus the sum over all anchors of their terms, and the result is the quotient.
-/
import proofs.«149814_j11527692222870_2_alg».proof.Proof.RefValueB

noncomputable section

namespace Cert.RefValue

open Cert.ReferenceIdeal Cert.ReferenceIdeal.Gen Cert.ReferenceIdeal.Read Idealize.ShloMosaic Idealize.ShloMosaic.ValueIdx

/-- The anchors as the indices of a rank-1 array. -/
def anchorEquiv : S8192.Idx ≃ Fin 8192 where
  toFun j := j 0
  invFun := ix1
  left_inv j := (eq_ix1 j).symm
  right_inv _ := rfl

/-- Every index of the anchors' array is the index of its anchor. -/
theorem idx_eq (j : S8192.Idx) : j = ix1 (anchorEquiv j) := by
  funext d
  match d with
  | ⟨0, _⟩ => rfl

variable (x0 : (⟨S8192x128, .f32⟩ : BufTy).Contents (Elt Ideal)) (x1 : (⟨S8192, .i32⟩ : BufTy).Contents (Elt Ideal))

/-- At most all 8192 anchors count. -/
theorem cnt_le : Cert.Spec.cntR (lab x1) ≤ 8192 := by
  unfold Cert.Spec.cntR
  refine (Finset.card_filter_le _ _).trans ?_
  rw [Finset.card_univ, Fintype.card_fin]

/-- The integer sum is the number of anchors that count, as a word. -/
theorem count_at (i : S_.Idx) :
    val_main_v47 (F := Ideal) x1 i = BitVec.ofNat 32 (Cert.Spec.cntR (lab x1)) := by
  unfold val_main_v47
  rw [Host.reduce_eq_fold (IntOp.addi (w := 32)) _ _ reducesTo_S8192_S_d0 h_S_, val_main_c_14_apply,
    Finset.filter_true_of_mem (fun j _ => funext fun b => b.elim0)]
  have hf : val_main_v46 (F := Ideal) x1
      = fun j : S8192.Idx => if Cert.Spec.validR (lab x1) (anchorEquiv j) then 1#32 else 0#32 :=
    funext fun j => (congrArg (val_main_v46 (F := Ideal) x1) (idx_eq j)).trans (word_at x1 (anchorEquiv j))
  rw [hf, fold_add_bits]
  refine congrArg (BitVec.ofNat 32) ?_
  unfold Cert.Spec.cntR
  exact Finset.card_equiv anchorEquiv (fun j => by simp)

/-- The divisor: the larger of the count and 1, as a real number. -/
theorem divisor_at (i : S_.Idx) :
    val_main_v50 (F := Ideal) x1 i = (((max (Cert.Spec.cntR (lab x1)) 1 : ℕ) : ℝ) : EReal) := by
  rw [val_main_v50_apply, val_main_v49_apply, count_at, val_main_c_16_apply, maxsi_small _ (cnt_le x1)]
  show (((BitVec.ofNat 32 (max (Cert.Spec.cntR (lab x1)) 1)).toInt : ℝ) : EReal) = _
  rw [toInt_small _ (max_le (cnt_le x1) (by norm_num)), Int.cast_natCast]

/-- The total: 0 plus the sum of the anchors' terms. -/
theorem total_at (i : S_.Idx) :
    val_main_v48 (F := Ideal) x0 x1 i = 0 + ∑ r : Fin 8192, Cert.Spec.tripR (emb x0) (lab x1) r := by
  rw [val_main_v48_apply, val_main_cst_15_apply]
  simp only [Ideal.ofBits_def, Ideal.ofBits_zero_f32]
  exact congrArg (0 + ·) (Fintype.sum_equiv anchorEquiv _ _ fun j =>
    (congrArg (val_main_v45 (F := Ideal) x0 x1) (idx_eq j)).trans (trip_at x0 x1 (anchorEquiv j)))

/-- The reference's result, as a function of its two argument arrays. -/
theorem ref_val (i : S_.Idx) :
    val_main_v51 (F := Ideal) x0 x1 i = Cert.Spec.outR (emb x0) (lab x1) := by
  rw [val_main_v51_apply, total_at, divisor_at]
  rfl

/-- The reference run's result term is the reference's arrangement of the loss over the launch contents of the two
    arguments. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v51 (F := Ideal) m c ValueIdx.ix0
      = Cert.Spec.outR (fun r k => m ((c.tc : Thread _ _).loc Cert.ReferenceIdeal.main_arg0) (ValueIdx.ix2 r k))
          (fun r => m ((c.tc : Thread _ _).loc Cert.ReferenceIdeal.main_arg1) (ValueIdx.ix1 r)) := by
  rw [val_main_v51_eq]
  exact ref_val _ _ _

/-- The same for the whole rank-0 array. -/
theorem ref_eq_fun (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v51 (F := Ideal) m c
      = fun _ => Cert.Spec.outR (fun r k => m ((c.tc : Thread _ _).loc Cert.ReferenceIdeal.main_arg0) (ValueIdx.ix2 r k))
          (fun r => m ((c.tc : Thread _ _).loc Cert.ReferenceIdeal.main_arg1) (ValueIdx.ix1 r)) := by
  funext i
  rw [eq_ix0 i]
  exact ref_eq m c

end Cert.RefValue

end
-- ==== Proof.Finite.lean ====
/-
  The precondition makes every embedding entry a real number.
  The precondition says that "|x| < +∞" holds at every entry of the embeddings: it is the "and" over all entries of
  that comparison, and it is required to come out 1. An "and" that comes out 1 met only ones, so each comparison holds.
  On the extended reals |x| is the larger of x and −x, which is +∞ at both infinities; so an entry whose absolute value
  is below +∞ is neither infinity, hence a real number.
-/
import proofs.«149814_j11527692222870_2_alg».proof.Defs
import proofs.«149814_j11527692222870_2_alg».proof.Proof.Gen.Pre_finite_inputs
import Idealize.ShloMosaic.Lib.ReduceAll
import Idealize.ShloMosaic.Lib.ValueIdx
import Idealize.ShloMosaic.Lib.Pipeline.Value

noncomputable section

namespace Cert.RefValue

open Idealize.ShloMosaic Idealize.ShloMosaic.ValueIdx Idealize.ShloMosaic.TcCoe Idealize.SL.Sem

/-- The scalar shape has one index. -/
instance : Subsingleton Cert.Pre_finite_inputs.S_.Idx := ⟨fun a b => funext fun d => d.elim0⟩

/-- An extended real whose absolute value compares below +∞ is a real number. -/
theorem real_of_abs_lt_top (x : EReal)
    (h : FloatOps.cmpf (F := Ideal) (φ := .f32) .olt (FloatOps.hostAbsf (F := Ideal) (φ := .f32) x)
      (Ideal.ofBits .f32 0x7F800000#32) = 1#1) : ∃ y : ℝ, x = (y : EReal) := by
  have ht : Ideal.ofBits .f32 0x7F800000#32 = ⊤ := by simp [Ideal.ofBits, Ideal.ieee]
  rw [ht] at h
  change Ideal.cmp .olt (max x (-x)) ⊤ = 1#1 at h
  induction x using EReal.rec with
  | bot => simp [Ideal.cmp] at h
  | coe y => exact ⟨y, rfl⟩
  | top => simp [Ideal.cmp] at h

/-- Under the precondition every entry of the embeddings is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) (r : Fin 8192) (k : Fin 128) :
    ∃ x : ℝ, m ((c.tc : Thread _ _).loc Cert.KernelIdeal.main_arg0) (ValueIdx.ix2 r k) = (x : EReal) := by
  have h0 := congrFun (h c) ValueIdx.ix0
  dsimp only [Cert.Pre_finite_inputs.fn] at h0
  have h1 := Host.reduce_andi_all _ _ _ _ _ h0 (ix2 r k)
  rw [cmpf_apply, broadcastInDim_apply _ _ _ (ix2 r k) ix0 (fun a => a.elim0)] at h1
  exact real_of_abs_lt_top _ h1

end Cert.RefValue

end
-- ==== Proof.SpecLawA.lean ====
/-
  General facts used to compare the two arrangements of the loss:
  * extended reals that are real numbers are closed under the sums, products and differences that build the squared
    distance;
  * the square root of the clamped value is a monotone map, and the guarded square root of the reference is that map;
  * a monotone map passes through the largest / smallest value of a NONEMPTY family (the sentinel −∞ / +∞ of the
    other entries does not matter then), and the sentinel survives exactly when the family is empty.
-/
import proofs.«149814_j11527692222870_2_alg».proof.Proof.Spec

noncomputable section

namespace Cert.Spec

open Idealize.ShloMosaic

/-! ## Extended reals that are real numbers -/

/-- `a` is (the image of) a real number. -/
def IsR (a : EReal) : Prop := ∃ x : ℝ, a = (x : EReal)

theorem IsR.zero : IsR 0 := ⟨0, rfl⟩
theorem IsR.two : IsR 2 := ⟨2, by norm_cast⟩
theorem IsR.add {a b : EReal} (ha : IsR a) (hb : IsR b) : IsR (a + b) := by
  obtain ⟨x, rfl⟩ := ha; obtain ⟨y, rfl⟩ := hb; exact ⟨x + y, (EReal.coe_add x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.sub {a b : EReal} (ha : IsR a) (hb : IsR b) : IsR (a - b) := by
  obtain ⟨x, rfl⟩ := ha; obtain ⟨y, rfl⟩ := hb; exact ⟨x - y, (EReal.coe_sub x y).symm⟩
theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))
theorem IsR.ne_bot {a : EReal} (ha : IsR a) : a ≠ ⊥ := by
  obtain ⟨x, rfl⟩ := ha; exact EReal.coe_ne_bot x
theorem IsR.ne_top {a : EReal} (ha : IsR a) : a ≠ ⊤ := by
  obtain ⟨x, rfl⟩ := ha; exact EReal.coe_ne_top x

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The square root -/

theorem sqrt_zero : Ideal.sqrt 0 = 0 := by
  show Ideal.sqrt ((0 : ℝ) : EReal) = 0
  rw [Ideal.sqrt_coe]; simp

/-- The square root (−∞ below zero) is monotone on the extended reals. -/
theorem sqrt_mono : Monotone Ideal.sqrt := by
  intro a b hab
  induction a with
  | bot => simp
  | top => rw [top_le_iff.mp hab]
  | coe x =>
    induction b with
    | bot => simp at hab
    | top => simp
    | coe y =>
      have hxy : x ≤ y := EReal.coe_le_coe_iff.mp hab
      rw [Ideal.sqrt_coe, Ideal.sqrt_coe]
      by_cases hx : x < 0
      · rw [if_pos hx]; exact bot_le
      · have hy : ¬ y < 0 := fun hy => hx (lt_of_le_of_lt hxy hy)
        rw [if_neg hx, if_neg hy]
        exact EReal.coe_le_coe_iff.mpr (Real.sqrt_le_sqrt hxy)

theorem root_mono : Monotone root := fun _ _ hab => sqrt_mono (max_le_max hab le_rfl)

/-- The reference's guarded square root is the square root of the clamped value: where the clamped value is not
    positive it is 0, whose square root is 0. -/
theorem guarded_sqrt (x : EReal) :
    (if 0 < max x 0 then Ideal.sqrt (if 0 < max x 0 then max x 0 else 1) else 0) = root x := by
  unfold root
  by_cases h : 0 < max x 0
  · rw [if_pos h, if_pos h]
  · rw [if_neg h]
    have h0 : max x 0 = 0 := le_antisymm (not_lt.mp h) (le_max_right _ _)
    rw [h0, sqrt_zero]

theorem dist_eq_root (e : Fin 8192 → Fin 128 → EReal) (r j : Fin 8192) : dist e r j = root (sq e r j) :=
  guarded_sqrt (sq e r j)

/-! ## Monotone maps and the extremes of a nonempty family -/

section Extremes
variable {ι : Type*} [Fintype ι] (P : ι → Prop) [DecidablePred P] (f : ι → EReal)

/-- A monotone map of the largest selected value is the largest of the mapped selected values, as soon as something
    is selected (the map need not send −∞ to −∞). -/
theorem map_sup_ite {φ : EReal → EReal} (hφ : Monotone φ) (h : ∃ j, P j) :
    φ (Finset.univ.sup fun j => if P j then f j else ⊥) = Finset.univ.sup fun j => if P j then φ (f j) else ⊥ := by
  obtain ⟨j0, hj0⟩ := h
  have hg : ∀ j, (if P j then f j else ⊥) ≤ Finset.univ.sup fun j => if P j then f j else ⊥ :=
    fun j => Finset.le_sup (f := fun j => if P j then f j else ⊥) (Finset.mem_univ j)
  have hG : ∀ j, (if P j then φ (f j) else ⊥) ≤ Finset.univ.sup fun j => if P j then φ (f j) else ⊥ :=
    fun j => Finset.le_sup (f := fun j => if P j then φ (f j) else ⊥) (Finset.mem_univ j)
  apply le_antisymm
  · obtain ⟨j, -, hj⟩ := Finset.exists_mem_eq_sup Finset.univ ⟨j0, Finset.mem_univ _⟩ (fun j => if P j then f j else ⊥)
    rw [hj]
    by_cases hP : P j
    · have := hG j
      rw [if_pos hP] at this
      rw [if_pos hP]; exact this
    · have := hG j0
      rw [if_pos hj0] at this
      rw [if_neg hP]
      exact le_trans (hφ bot_le) this
  · apply Finset.sup_le
    intro j _
    by_cases hP : P j
    · have := hg j
      rw [if_pos hP] at this
      rw [if_pos hP]
      exact hφ this
    · rw [if_neg hP]; exact bot_le

/-- The same for the smallest selected value, with +∞ for the others. -/
theorem map_inf_ite {φ : EReal → EReal} (hφ : Monotone φ) (h : ∃ j, P j) :
    φ (Finset.univ.inf fun j => if P j then f j else ⊤) = Finset.univ.inf fun j => if P j then φ (f j) else ⊤ := by
  obtain ⟨j0, hj0⟩ := h
  have hg : ∀ j, (Finset.univ.inf fun j => if P j then f j else ⊤) ≤ (if P j then f j else ⊤) :=
    fun j => Finset.inf_le (f := fun j => if P j then f j else ⊤) (Finset.mem_univ j)
  have hG : ∀ j, (Finset.univ.inf fun j => if P j then φ (f j) else ⊤) ≤ (if P j then φ (f j) else ⊤) :=
    fun j => Finset.inf_le (f := fun j => if P j then φ (f j) else ⊤) (Finset.mem_univ j)
  apply le_antisymm
  · apply Finset.le_inf
    intro j _
    by_cases hP : P j
    · have := hg j
      rw [if_pos hP] at this
      rw [if_pos hP]
      exact hφ this
    · rw [if_neg hP]; exact le_top
  · obtain ⟨j, -, hj⟩ := Finset.exists_mem_eq_inf Finset.univ ⟨j0, Finset.mem_univ _⟩ (fun j => if P j then f j else ⊤)
    rw [hj]
    by_cases hP : P j
    · have := hG j
      rw [if_pos hP] at this
      rw [if_pos hP]; exact this
    · have := hG j0
      rw [if_pos hj0] at this
      rw [if_neg hP]
      exact le_trans this (hφ le_top)

/-- With no selected value equal to −∞, the sentinel −∞ survives exactly when nothing is selected. -/
theorem bot_lt_sup_ite (hf : ∀ j, f j ≠ ⊥) :
    ⊥ < (Finset.univ.sup fun j => if P j then f j else ⊥) ↔ ∃ j, P j := by
  rw [Finset.lt_sup_iff]
  constructor
  · rintro ⟨j, -, hj⟩
    refine ⟨j, ?_⟩
    by_contra hP
    rw [if_neg hP] at hj
    exact lt_irrefl _ hj
  · rintro ⟨j, hj⟩
    refine ⟨j, Finset.mem_univ _, ?_⟩
    rw [if_pos hj]
    exact bot_lt_iff_ne_bot.mpr (hf j)

/-- Dually for +∞. -/
theorem inf_ite_lt_top (hf : ∀ j, f j ≠ ⊤) :
    (Finset.univ.inf fun j => if P j then f j else ⊤) < ⊤ ↔ ∃ j, P j := by
  rw [Finset.inf_lt_iff]
  constructor
  · rintro ⟨j, -, hj⟩
    refine ⟨j, ?_⟩
    by_contra hP
    rw [if_neg hP] at hj
    exact lt_irrefl _ hj
  · rintro ⟨j, hj⟩
    refine ⟨j, Finset.mem_univ _, ?_⟩
    rw [if_pos hj]
    exact lt_top_iff_ne_top.mpr (hf j)

end Extremes

end Cert.Spec

end
-- ==== Proof.SpecLaw.lean ====
/-
  The two arrangements of the loss agree on finite inputs.
  With every embedding entry a real number, every squared distance is a real number. Then, anchor by anchor:
  * the reference's distance of a pair is the square root of the clamped squared distance, a monotone map, so the
    largest (smallest) distance over the positives (negatives) is that map of the largest (smallest) squared distance,
    as soon as the anchor has a positive (a negative);
  * the kernel's sentinels −∞ / +∞ survive exactly when the anchor has no positive / no negative, so the kernel and
    the reference count the same anchors, and their hinge terms agree.
  The tile-by-tile sums are the sums over all anchors (anchor = 256 · tile + position is a bijection), and the sum of
  the 0/1 counts is the number of counted anchors.
-/
import proofs.«149814_j11527692222870_2_alg».proof.Proof.Spec
import proofs.«149814_j11527692222870_2_alg».proof.Proof.SpecLawA

noncomputable section

namespace Cert.Spec

open Idealize.ShloMosaic

variable (e : Fin 8192 → Fin 128 → EReal) (lab : Fin 8192 → BitVec 32)

/-! ## Anchor by anchor -/

/-- Every squared distance of real embeddings is a real number. -/
theorem sq_isR (hfin : ∀ r k, IsR (e r k)) (r j : Fin 8192) : IsR (sq e r j) := by
  unfold sq nrm gram
  exact ((IsR.zero.add (IsR.sum _ _ fun k _ => (hfin r k).mul (hfin r k))).add
    (IsR.zero.add (IsR.sum _ _ fun k _ => (hfin j k).mul (hfin j k)))).sub
    (IsR.two.mul (IsR.sum _ _ fun k _ => (hfin r k).mul (hfin j k)))

/-- The largest positive distance is the root of the largest positive squared distance, if there is a positive. -/
theorem hpos_eq (r : Fin 8192) (h : ∃ j, pos lab r j) : hpos e lab r = root (mpos e lab r) := by
  unfold hpos mpos
  simp only [dist_eq_root]
  exact (map_sup_ite (fun j => pos lab r j) (fun j => sq e r j) root_mono h).symm

/-- The smallest negative distance is the root of the smallest negative squared distance, if there is a negative. -/
theorem hneg_eq (r : Fin 8192) (h : ∃ j, neg lab r j) : hneg e lab r = root (mneg e lab r) := by
  unfold hneg mneg
  simp only [dist_eq_root]
  exact (map_inf_ite (fun j => neg lab r j) (fun j => sq e r j) root_mono h).symm

/-- Neither sentinel survives exactly when the anchor has a positive and a negative. -/
theorem validK_iff (hfin : ∀ r k, IsR (e r k)) (r : Fin 8192) : validK e lab r ↔ validR lab r := by
  unfold validK validR mpos mneg
  rw [bot_lt_sup_ite (fun j => pos lab r j) (fun j => sq e r j) (fun j => (sq_isR e hfin r j).ne_bot),
    inf_ite_lt_top (fun j => neg lab r j) (fun j => sq e r j) (fun j => (sq_isR e hfin r j).ne_top)]

theorem tripK_eq (hfin : ∀ r k, IsR (e r k)) (r : Fin 8192) : tripK e lab r = tripR e lab r := by
  unfold tripK tripR
  by_cases h : validR lab r
  · rw [if_pos h, if_pos ((validK_iff e lab hfin r).mpr h), hpos_eq e lab r h.1, hneg_eq e lab r h.2]
  · rw [if_neg h, if_neg (mt (validK_iff e lab hfin r).mp h)]

theorem cntK_eq (hfin : ∀ r k, IsR (e r k)) (r : Fin 8192) :
    cntK e lab r = (((if validR lab r then 1 else 0 : ℝ)) : EReal) := by
  unfold cntK
  by_cases h : validR lab r
  · rw [if_pos h, if_pos ((validK_iff e lab hfin r).mpr h)]; rfl
  · rw [if_neg h, if_neg (mt (validK_iff e lab hfin r).mp h)]; rfl

/-! ## The sums -/

/-- Anchor = 256 · tile + position, as a bijection. -/
def rowEquiv : Fin 32 × Fin 256 ≃ Fin 8192 where
  toFun x := row x.1 x.2
  invFun r := (⟨r.val / 256, by have := r.isLt; omega⟩, ⟨r.val % 256, by omega⟩)
  left_inv x := by
    rcases x with ⟨T, p⟩
    have hT := T.isLt
    have hp := p.isLt
    apply Prod.ext
    · apply Fin.ext; show (256 * T.val + p.val) / 256 = T.val; omega
    · apply Fin.ext; show (256 * T.val + p.val) % 256 = p.val; omega
  right_inv r := by
    apply Fin.ext
    show 256 * (r.val / 256) + r.val % 256 = r.val
    omega

/-- Adding tile by tile and then over the tiles adds over all anchors. -/
theorem sum_rows (f : Fin 8192 → EReal) : ∑ T : Fin 32, ∑ p : Fin 256, f (row T p) = ∑ r, f r := by
  rw [← Fintype.sum_prod_type' (fun T p => f (row T p))]
  exact Fintype.sum_equiv rowEquiv _ _ (fun _ => rfl)

/-- The 0/1 counts add up to the number of counted anchors. -/
theorem sum_cnt : ∑ r : Fin 8192, (((if validR lab r then 1 else 0 : ℝ)) : EReal) = (((cntR lab : ℕ) : ℝ) : EReal) := by
  rw [← coe_sum, Finset.sum_boole]
  rfl

theorem max_cnt (n : ℕ) : max (((n : ℝ)) : EReal) 1 = (((max n 1 : ℕ) : ℝ) : EReal) := by
  have h1 : (1 : EReal) = ((1 : ℝ) : EReal) := rfl
  rw [h1, ← EReal.coe_strictMono.monotone.map_max]
  congr 1
  rw [Nat.cast_max, Nat.cast_one]

/-! ## The result -/

theorem outK_eq_outR (hfin : ∀ r k, ∃ x : ℝ, e r k = (x : EReal)) : outK e lab = outR e lab := by
  have hR : ∀ r k, IsR (e r k) := hfin
  unfold outK outR
  rw [sum_rows (tripK e lab), sum_rows (cntK e lab)]
  simp only [tripK_eq e lab hR, cntK_eq e lab hR]
  rw [sum_cnt, zero_add (((cntR lab : ℕ) : ℝ) : EReal), max_cnt]

end Cert.Spec

end
-- ==== Proof.Algebraic.lean ====
/-
  The two idealized programs return the same extended real.
  The kernel's result is the loss in the kernel's arrangement (per-anchor extremes of the squared distances, square
  roots last, sums tile by tile); the reference's is the loss in the reference's arrangement (square roots first, one
  sum, an integer count); for finite embeddings — which the precondition gives — the two arrangements agree: the
  square root of a value clamped at zero is monotone, so it commutes with the largest and the smallest over a nonempty
  set, and a sentinel ±∞ survives exactly when the set is empty.
-/
import proofs.«149814_j11527692222870_2_alg».proof.Defs
import proofs.«149814_j11527692222870_2_alg».proof.Proof.Gen.ReferenceIdeal.Run
import proofs.«149814_j11527692222870_2_alg».proof.Proof.IdealValueRun
import proofs.«149814_j11527692222870_2_alg».proof.Proof.KernelValue
import proofs.«149814_j11527692222870_2_alg».proof.Proof.RefValue
import proofs.«149814_j11527692222870_2_alg».proof.Proof.Finite
import proofs.«149814_j11527692222870_2_alg».proof.Proof.SpecLaw

noncomputable section

namespace Cert.Alg

open Idealize.ShloMosaic Idealize.ShloMosaic.TcCoe Idealize.SL.Sem Idealize.ShloMosaic.ValueIdx

theorem algebraic : Cert.algebraic_KernelIdeal_ReferenceIdeal := by
  intro m ρ m' ρ' hpre hagree
  refine ⟨fun c => Cert.KernelIdeal.Gen.Vfin (F := Ideal) m c Cert.KernelIdeal.main_v10,
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.RefValue.ref_eq_fun m' c, (hagree c).1, (hagree c).2]
  funext i
  rw [eq_ix0 i]
  exact ((Cert.Spec.outK_eq_outR _ _ (fun r k => Cert.RefValue.finite_of_pre m hpre c r k)).symm).trans
    (Cert.KernelIdeal.Gen.ker_eq m c).symm

end Cert.Alg

end
-- ==== Proof.lean ====
/-
  Batch-hard triplet loss over 8192 embeddings of width 128 with integer labels.
  For an anchor row r the squared distance to row j is ‖x_r‖² + ‖x_j‖² − 2⟨x_r, x_j⟩. The kernel keeps, per anchor, the
  largest squared distance over the other rows with the anchor's label and the smallest over the rows with another
  label, takes the square root of each (clamped at zero) once at the end, and adds the hinge max(d⁺ − d⁻ + 1, 0) over
  the anchors that have both kinds of row; the reference takes the square root of every clamped squared distance
  first and then the largest and smallest. The square root of a clamped value is monotone, so it commutes with a
  largest or smallest over a nonempty set, and with finite inputs a sentinel −∞ / +∞ survives exactly when the set
  is empty; the two programs divide the same sum by the same count (at least one).
  The three frame claims: each program runs to the end, faults nowhere and leaves both arguments unchanged. The
  kernel reads the embeddings through two windows of its pipeline, one tile at a time and whole; the array's share
  is dealt between the two windows for the region and joined again for the host lines after it.
-/
import proofs.«149814_j11527692222870_2_alg».proof.Defs
import proofs.«149814_j11527692222870_2_alg».proof.Proof.Gen.Kernel
import proofs.«149814_j11527692222870_2_alg».proof.Proof.Gen.KernelIdeal
import proofs.«149814_j11527692222870_2_alg».proof.Proof.Gen.ReferenceIdeal
import proofs.«149814_j11527692222870_2_alg».proof.Proof.Gen.Pre_finite_inputs
import proofs.«149814_j11527692222870_2_alg».proof.Proof.Gen.ReferenceIdeal.Run
import proofs.«149814_j11527692222870_2_alg».proof.Proof.BitsLaunch
import proofs.«149814_j11527692222870_2_alg».proof.Proof.IdealLaunch
import proofs.«149814_j11527692222870_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read over the extended reals. -/
theorem preserves : Cert.preserves_Kernel_KernelIdeal := trivial

theorem algebraic : Cert.algebraic_KernelIdeal_ReferenceIdeal := Cert.Alg.algebraic

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
